-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S8 : Shape := ⟨1, ![8]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2097152x4 .f32) (main_arg1 : FVec F S8 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S2097152x4 : Shape := ⟨2, ![2097152, 4]⟩
abbrev S8 : Shape := ⟨1, ![8]⟩
abbrev S2x2 : Shape := ⟨2, ![2, 2]⟩
abbrev S4x4 : Shape := ⟨2, ![4, 4]⟩
abbrev S16x4 : Shape := ⟨2, ![16, 4]⟩
abbrev S4 : Shape := ⟨1, ![4]⟩
abbrev S_ : Shape := ⟨0, ![]⟩
abbrev S1x1 : Shape := ⟨2, ![1, 1]⟩
abbrev S1 : Shape := ⟨1, ![1]⟩
abbrev S2 : Shape := ⟨1, ![2]⟩
abbrev S1x2 : Shape := ⟨2, ![1, 2]⟩
abbrev S2x1x2x1 : Shape := ⟨4, ![2, 1, 2, 1]⟩
abbrev S1x1x1x1 : Shape := ⟨4, ![1, 1, 1, 1]⟩
abbrev S1x2x1x2 : Shape := ⟨4, ![1, 2, 1, 2]⟩
abbrev S2x2x2x2 : Shape := ⟨4, ![2, 2, 2, 2]⟩
abbrev S1x4x1x4 : Shape := ⟨4, ![1, 4, 1, 4]⟩
abbrev S2x4x2x4 : Shape := ⟨4, ![2, 4, 2, 4]⟩
abbrev S8x8 : Shape := ⟨2, ![8, 8]⟩
abbrev S1x8x1x8 : Shape := ⟨4, ![1, 8, 1, 8]⟩
abbrev S2x8x2x8 : Shape := ⟨4, ![2, 8, 2, 8]⟩
abbrev S16x16 : Shape := ⟨2, ![16, 16]⟩
abbrev S4x1x4x1 : Shape := ⟨4, ![4, 1, 4, 1]⟩
abbrev S4x4x4x4 : Shape := ⟨4, ![4, 4, 4, 4]⟩
abbrev S4x2x4x2 : Shape := ⟨4, ![4, 2, 4, 2]⟩
abbrev S10x16 : Shape := ⟨2, ![10, 16]⟩
abbrev S4x2097152 : Shape := ⟨2, ![4, 2097152]⟩
abbrev S10x2097152 : Shape := ⟨2, ![10, 2097152]⟩
abbrev S4x32768 : Shape := ⟨2, ![4, 32768]⟩
abbrev S10x32768 : Shape := ⟨2, ![10, 32768]⟩
abbrev S1x32768 : Shape := ⟨2, ![1, 32768]⟩
abbrev S16x32768 : Shape := ⟨2, ![16, 32768]⟩
abbrev S16x1 : Shape := ⟨2, ![16, 1]⟩
abbrev S4x1 : Shape := ⟨2, ![4, 1]⟩
abbrev S10x1 : Shape := ⟨2, ![10, 1]⟩
abbrev S2097152x10 : Shape := ⟨2, ![2097152, 10]⟩

abbrev nBuf : Space → Nat
  | .hbm => 402
  | .vmem => 9
  | .smem => 0
  | _ => 0

abbrev hbmTy0_0 (i : Nat) : BufTy := match i % 128 with
  | 0 => ⟨S2097152x4, .f32⟩
  | 1 => ⟨S8, .f32⟩
  | 2 => ⟨S2x2, .f32⟩
  | 3 => ⟨S4x4, .f32⟩
  | 4 => ⟨S4x4, .f32⟩
  | 5 => ⟨S16x4, .f32⟩
  | 6 => ⟨S16x4, .f32⟩
  | 7 => ⟨S16x4, .f32⟩
  | 8 => ⟨S16x4, .f32⟩
  | 9 => ⟨S4, .f32⟩
  | 10 => ⟨S_, .f32⟩
  | 11 => ⟨S1x1, .f32⟩
  | 12 => ⟨S1, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S1, .f32⟩
  | 22 => ⟨S1, .f32⟩
  | 23 => ⟨S2, .f32⟩
  | 24 => ⟨S1, .f32⟩
  | 25 => ⟨S1, .f32⟩
  | 26 => ⟨S2, .f32⟩
  | 27 => ⟨S1x2, .f32⟩
  | 28 => ⟨S1x2, .f32⟩
  | 29 => ⟨S2x2, .f32⟩
  | 30 => ⟨S2x1x2x1, .f32⟩
  | 31 => ⟨S1x1x1x1, .f32⟩
  | 32 => ⟨S2x1x2x1, .f32⟩
  | 33 => ⟨S2x1x2x1, .f32⟩
  | 34 => ⟨S2x2, .f32⟩
  | 35 => ⟨S1, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S1, .f32⟩
  | 46 => ⟨S2, .f32⟩
  | 47 => ⟨S1, .f32⟩
  | 48 => ⟨S1, .f32⟩
  | 49 => ⟨S2, .f32⟩
  | 50 => ⟨S1x2, .f32⟩
  | 51 => ⟨S1x2, .f32⟩
  | 52 => ⟨S2x2, .f32⟩
  | 53 => ⟨S2x1x2x1, .f32⟩
  | 54 => ⟨S1x2x1x2, .f32⟩
  | 55 => ⟨S2x2x2x2, .f32⟩
  | 56 => ⟨S2x2x2x2, .f32⟩
  | 57 => ⟨S2x2x2x2, .f32⟩
  | 58 => ⟨S4x4, .f32⟩
  | 59 => ⟨S1, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1, .f32⟩
  | 69 => ⟨S1, .f32⟩
  | 70 => ⟨S2, .f32⟩
  | 71 => ⟨S1, .f32⟩
  | 72 => ⟨S1, .f32⟩
  | 73 => ⟨S2, .f32⟩
  | 74 => ⟨S1x2, .f32⟩
  | 75 => ⟨S1x2, .f32⟩
  | 76 => ⟨S2x2, .f32⟩
  | 77 => ⟨S2x1x2x1, .f32⟩
  | 78 => ⟨S1x4x1x4, .f32⟩
  | 79 => ⟨S2x4x2x4, .f32⟩
  | 80 => ⟨S2x4x2x4, .f32⟩
  | 81 => ⟨S2x4x2x4, .f32⟩
  | 82 => ⟨S8x8, .f32⟩
  | 83 => ⟨S1, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S1, .f32⟩
  | 93 => ⟨S1, .f32⟩
  | 94 => ⟨S2, .f32⟩
  | 95 => ⟨S1, .f32⟩
  | 96 => ⟨S1, .f32⟩
  | 97 => ⟨S2, .f32⟩
  | 98 => ⟨S1x2, .f32⟩
  | 99 => ⟨S1x2, .f32⟩
  | 100 => ⟨S2x2, .f32⟩
  | 101 => ⟨S2x1x2x1, .f32⟩
  | 102 => ⟨S1x8x1x8, .f32⟩
  | 103 => ⟨S2x8x2x8, .f32⟩
  | 104 => ⟨S2x8x2x8, .f32⟩
  | 105 => ⟨S2x8x2x8, .f32⟩
  | 106 => ⟨S16x16, .f32⟩
  | 107 => ⟨S16x16, .i32⟩
  | 108 => ⟨S16x16, .i32⟩
  | 109 => ⟨S_, .i32⟩
  | 110 => ⟨S16x16, .i32⟩
  | 111 => ⟨S16x16, .i32⟩
  | 112 => ⟨S16x16, .i1⟩
  | 113 => ⟨S16x16, .f32⟩
  | 114 => ⟨S_, .f32⟩
  | 115 => ⟨S1x1, .f32⟩
  | 116 => ⟨S2x1x2x1, .f32⟩
  | 117 => ⟨S1x1x1x1, .f32⟩
  | 118 => ⟨S2x1x2x1, .f32⟩
  | 119 => ⟨S2x1x2x1, .f32⟩
  | 120 => ⟨S2x2, .f32⟩
  | 121 => ⟨S2x1x2x1, .f32⟩
  | 122 => ⟨S1x2x1x2, .f32⟩
  | 123 => ⟨S2x2x2x2, .f32⟩
  | 124 => ⟨S2x2x2x2, .f32⟩
  | 125 => ⟨S2x2x2x2, .f32⟩
  | 126 => ⟨S4x4, .f32⟩
  | 127 => ⟨S4x1x4x1, .f32⟩
  | _ => ⟨S2097152x4, .f32⟩

abbrev hbmTy0_1 (i : Nat) : BufTy := match i % 128 with
  | 0 => ⟨S1x4x1x4, .f32⟩
  | 1 => ⟨S4x4x4x4, .f32⟩
  | 2 => ⟨S4x4x4x4, .f32⟩
  | 3 => ⟨S4x4x4x4, .f32⟩
  | 4 => ⟨S16x16, .f32⟩
  | 5 => ⟨S16x16, .f32⟩
  | 6 => ⟨S16x16, .f32⟩
  | 7 => ⟨S16x16, .i32⟩
  | 8 => ⟨S16x16, .i32⟩
  | 9 => ⟨S_, .i32⟩
  | 10 => ⟨S16x16, .i32⟩
  | 11 => ⟨S16x16, .i32⟩
  | 12 => ⟨S16x16, .i1⟩
  | 13 => ⟨S16x16, .f32⟩
  | 14 => ⟨S_, .f32⟩
  | 15 => ⟨S1x1, .f32⟩
  | 16 => ⟨S2x1x2x1, .f32⟩
  | 17 => ⟨S1x1x1x1, .f32⟩
  | 18 => ⟨S2x1x2x1, .f32⟩
  | 19 => ⟨S2x1x2x1, .f32⟩
  | 20 => ⟨S2x2, .f32⟩
  | 21 => ⟨S4x1x4x1, .f32⟩
  | 22 => ⟨S1x2x1x2, .f32⟩
  | 23 => ⟨S4x2x4x2, .f32⟩
  | 24 => ⟨S4x2x4x2, .f32⟩
  | 25 => ⟨S4x2x4x2, .f32⟩
  | 26 => ⟨S8x8, .f32⟩
  | 27 => ⟨S2x1x2x1, .f32⟩
  | 28 => ⟨S1x8x1x8, .f32⟩
  | 29 => ⟨S2x8x2x8, .f32⟩
  | 30 => ⟨S2x8x2x8, .f32⟩
  | 31 => ⟨S2x8x2x8, .f32⟩
  | 32 => ⟨S16x16, .f32⟩
  | 33 => ⟨S16x16, .f32⟩
  | 34 => ⟨S16x16, .f32⟩
  | 35 => ⟨S16x16, .i32⟩
  | 36 => ⟨S16x16, .i32⟩
  | 37 => ⟨S_, .i32⟩
  | 38 => ⟨S16x16, .i32⟩
  | 39 => ⟨S16x16, .i32⟩
  | 40 => ⟨S16x16, .i1⟩
  | 41 => ⟨S16x16, .f32⟩
  | 42 => ⟨S_, .f32⟩
  | 43 => ⟨S1x1, .f32⟩
  | 44 => ⟨S4x1x4x1, .f32⟩
  | 45 => ⟨S1x1x1x1, .f32⟩
  | 46 => ⟨S4x1x4x1, .f32⟩
  | 47 => ⟨S4x1x4x1, .f32⟩
  | 48 => ⟨S4x4, .f32⟩
  | 49 => ⟨S2x1x2x1, .f32⟩
  | 50 => ⟨S1x4x1x4, .f32⟩
  | 51 => ⟨S2x4x2x4, .f32⟩
  | 52 => ⟨S2x4x2x4, .f32⟩
  | 53 => ⟨S2x4x2x4, .f32⟩
  | 54 => ⟨S8x8, .f32⟩
  | 55 => ⟨S2x1x2x1, .f32⟩
  | 56 => ⟨S1x8x1x8, .f32⟩
  | 57 => ⟨S2x8x2x8, .f32⟩
  | 58 => ⟨S2x8x2x8, .f32⟩
  | 59 => ⟨S2x8x2x8, .f32⟩
  | 60 => ⟨S16x16, .f32⟩
  | 61 => ⟨S16x16, .f32⟩
  | 62 => ⟨S16x16, .f32⟩
  | 63 => ⟨S16x16, .i32⟩
  | 64 => ⟨S16x16, .i32⟩
  | 65 => ⟨S_, .i32⟩
  | 66 => ⟨S16x16, .i32⟩
  | 67 => ⟨S16x16, .i32⟩
  | 68 => ⟨S16x16, .i1⟩
  | 69 => ⟨S16x16, .f32⟩
  | 70 => ⟨S_, .f32⟩
  | 71 => ⟨S1x1, .f32⟩
  | 72 => ⟨S2x1x2x1, .f32⟩
  | 73 => ⟨S1x1x1x1, .f32⟩
  | 74 => ⟨S2x1x2x1, .f32⟩
  | 75 => ⟨S2x1x2x1, .f32⟩
  | 76 => ⟨S2x2, .f32⟩
  | 77 => ⟨S2x1x2x1, .f32⟩
  | 78 => ⟨S1x2x1x2, .f32⟩
  | 79 => ⟨S2x2x2x2, .f32⟩
  | 80 => ⟨S2x2x2x2, .f32⟩
  | 81 => ⟨S2x2x2x2, .f32⟩
  | 82 => ⟨S4x4, .f32⟩
  | 83 => ⟨S4x1x4x1, .f32⟩
  | 84 => ⟨S1x4x1x4, .f32⟩
  | 85 => ⟨S4x4x4x4, .f32⟩
  | 86 => ⟨S4x4x4x4, .f32⟩
  | 87 => ⟨S4x4x4x4, .f32⟩
  | 88 => ⟨S16x16, .f32⟩
  | 89 => ⟨S16x16, .f32⟩
  | 90 => ⟨S_, .f32⟩
  | 91 => ⟨S1x1, .f32⟩
  | 92 => ⟨S2x1x2x1, .f32⟩
  | 93 => ⟨S1x1x1x1, .f32⟩
  | 94 => ⟨S2x1x2x1, .f32⟩
  | 95 => ⟨S2x1x2x1, .f32⟩
  | 96 => ⟨S2x2, .f32⟩
  | 97 => ⟨S4x1x4x1, .f32⟩
  | 98 => ⟨S1x2x1x2, .f32⟩
  | 99 => ⟨S4x2x4x2, .f32⟩
  | 100 => ⟨S4x2x4x2, .f32⟩
  | 101 => ⟨S4x2x4x2, .f32⟩
  | 102 => ⟨S8x8, .f32⟩
  | 103 => ⟨S2x1x2x1, .f32⟩
  | 104 => ⟨S1x8x1x8, .f32⟩
  | 105 => ⟨S2x8x2x8, .f32⟩
  | 106 => ⟨S2x8x2x8, .f32⟩
  | 107 => ⟨S2x8x2x8, .f32⟩
  | 108 => ⟨S16x16, .f32⟩
  | 109 => ⟨S16x16, .f32⟩
  | 110 => ⟨S_, .f32⟩
  | 111 => ⟨S1x1, .f32⟩
  | 112 => ⟨S4x1x4x1, .f32⟩
  | 113 => ⟨S1x1x1x1, .f32⟩
  | 114 => ⟨S4x1x4x1, .f32⟩
  | 115 => ⟨S4x1x4x1, .f32⟩
  | 116 => ⟨S4x4, .f32⟩
  | 117 => ⟨S2x1x2x1, .f32⟩
  | 118 => ⟨S1x4x1x4, .f32⟩
  | 119 => ⟨S2x4x2x4, .f32⟩
  | 120 => ⟨S2x4x2x4, .f32⟩
  | 121 => ⟨S2x4x2x4, .f32⟩
  | 122 => ⟨S8x8, .f32⟩
  | 123 => ⟨S2x1x2x1, .f32⟩
  | 124 => ⟨S1x8x1x8, .f32⟩
  | 125 => ⟨S2x8x2x8, .f32⟩
  | 126 => ⟨S2x8x2x8, .f32⟩
  | 127 => ⟨S2x8x2x8, .f32⟩
  | _ => ⟨S2097152x4, .f32⟩

abbrev hbmTy0_2 (i : Nat) : BufTy := match i % 128 with
  | 0 => ⟨S16x16, .f32⟩
  | 1 => ⟨S16x16, .f32⟩
  | 2 => ⟨S_, .f32⟩
  | 3 => ⟨S1x1, .f32⟩
  | 4 => ⟨S2x1x2x1, .f32⟩
  | 5 => ⟨S1x1x1x1, .f32⟩
  | 6 => ⟨S2x1x2x1, .f32⟩
  | 7 => ⟨S2x1x2x1, .f32⟩
  | 8 => ⟨S2x2, .f32⟩
  | 9 => ⟨S4x1x4x1, .f32⟩
  | 10 => ⟨S1x2x1x2, .f32⟩
  | 11 => ⟨S4x2x4x2, .f32⟩
  | 12 => ⟨S4x2x4x2, .f32⟩
  | 13 => ⟨S4x2x4x2, .f32⟩
  | 14 => ⟨S8x8, .f32⟩
  | 15 => ⟨S2x1x2x1, .f32⟩
  | 16 => ⟨S1x8x1x8, .f32⟩
  | 17 => ⟨S2x8x2x8, .f32⟩
  | 18 => ⟨S2x8x2x8, .f32⟩
  | 19 => ⟨S2x8x2x8, .f32⟩
  | 20 => ⟨S16x16, .f32⟩
  | 21 => ⟨S16x16, .f32⟩
  | 22 => ⟨S_, .f32⟩
  | 23 => ⟨S1x1, .f32⟩
  | 24 => ⟨S2x1x2x1, .f32⟩
  | 25 => ⟨S1x1x1x1, .f32⟩
  | 26 => ⟨S2x1x2x1, .f32⟩
  | 27 => ⟨S2x1x2x1, .f32⟩
  | 28 => ⟨S2x2, .f32⟩
  | 29 => ⟨S2x1x2x1, .f32⟩
  | 30 => ⟨S1x2x1x2, .f32⟩
  | 31 => ⟨S2x2x2x2, .f32⟩
  | 32 => ⟨S2x2x2x2, .f32⟩
  | 33 => ⟨S2x2x2x2, .f32⟩
  | 34 => ⟨S4x4, .f32⟩
  | 35 => ⟨S4x1x4x1, .f32⟩
  | 36 => ⟨S1x4x1x4, .f32⟩
  | 37 => ⟨S4x4x4x4, .f32⟩
  | 38 => ⟨S4x4x4x4, .f32⟩
  | 39 => ⟨S4x4x4x4, .f32⟩
  | 40 => ⟨S16x16, .f32⟩
  | 41 => ⟨S16x16, .f32⟩
  | 42 => ⟨S16x16, .f32⟩
  | 43 => ⟨S4, .f32⟩
  | 44 => ⟨S_, .f32⟩
  | 45 => ⟨S1x1, .f32⟩
  | 46 => ⟨S1, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S1, .f32⟩
  | 56 => ⟨S1, .f32⟩
  | 57 => ⟨S2, .f32⟩
  | 58 => ⟨S1, .f32⟩
  | 59 => ⟨S1, .f32⟩
  | 60 => ⟨S2, .f32⟩
  | 61 => ⟨S1x2, .f32⟩
  | 62 => ⟨S1x2, .f32⟩
  | 63 => ⟨S2x2, .f32⟩
  | 64 => ⟨S2x1x2x1, .f32⟩
  | 65 => ⟨S1x1x1x1, .f32⟩
  | 66 => ⟨S2x1x2x1, .f32⟩
  | 67 => ⟨S2x1x2x1, .f32⟩
  | 68 => ⟨S2x2, .f32⟩
  | 69 => ⟨S1, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S1, .f32⟩
  | 79 => ⟨S1, .f32⟩
  | 80 => ⟨S2, .f32⟩
  | 81 => ⟨S1, .f32⟩
  | 82 => ⟨S1, .f32⟩
  | 83 => ⟨S2, .f32⟩
  | 84 => ⟨S1x2, .f32⟩
  | 85 => ⟨S1x2, .f32⟩
  | 86 => ⟨S2x2, .f32⟩
  | 87 => ⟨S2x1x2x1, .f32⟩
  | 88 => ⟨S1x2x1x2, .f32⟩
  | 89 => ⟨S2x2x2x2, .f32⟩
  | 90 => ⟨S2x2x2x2, .f32⟩
  | 91 => ⟨S2x2x2x2, .f32⟩
  | 92 => ⟨S4x4, .f32⟩
  | 93 => ⟨S1, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S1, .f32⟩
  | 103 => ⟨S1, .f32⟩
  | 104 => ⟨S2, .f32⟩
  | 105 => ⟨S1, .f32⟩
  | 106 => ⟨S1, .f32⟩
  | 107 => ⟨S2, .f32⟩
  | 108 => ⟨S1x2, .f32⟩
  | 109 => ⟨S1x2, .f32⟩
  | 110 => ⟨S2x2, .f32⟩
  | 111 => ⟨S2x1x2x1, .f32⟩
  | 112 => ⟨S1x4x1x4, .f32⟩
  | 113 => ⟨S2x4x2x4, .f32⟩
  | 114 => ⟨S2x4x2x4, .f32⟩
  | 115 => ⟨S2x4x2x4, .f32⟩
  | 116 => ⟨S8x8, .f32⟩
  | 117 => ⟨S1, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S1, .f32⟩
  | 127 => ⟨S1, .f32⟩
  | _ => ⟨S2097152x4, .f32⟩

abbrev hbmTy0_3 (i : Nat) : BufTy := match i % 128 with
  | 0 => ⟨S2, .f32⟩
  | 1 => ⟨S1, .f32⟩
  | 2 => ⟨S1, .f32⟩
  | 3 => ⟨S2, .f32⟩
  | 4 => ⟨S1x2, .f32⟩
  | 5 => ⟨S1x2, .f32⟩
  | 6 => ⟨S2x2, .f32⟩
  | 7 => ⟨S2x1x2x1, .f32⟩
  | 8 => ⟨S1x8x1x8, .f32⟩
  | 9 => ⟨S2x8x2x8, .f32⟩
  | 10 => ⟨S2x8x2x8, .f32⟩
  | 11 => ⟨S2x8x2x8, .f32⟩
  | 12 => ⟨S16x16, .f32⟩
  | 13 => ⟨S16x16, .f32⟩
  | 14 => ⟨S10x16, .f32⟩
  | 15 => ⟨S4x2097152, .f32⟩
  | 16 => ⟨S10x2097152, .f32⟩
  | 17 => ⟨S2097152x10, .f32⟩
  | _ => ⟨S2097152x4, .f32⟩

abbrev hbmTy (i : Nat) : BufTy := match i / 128 with
  | 0 => hbmTy0_0 i
  | 1 => hbmTy0_1 i
  | 2 => hbmTy0_2 i
  | 3 => hbmTy0_3 i
  | _ => ⟨S2097152x4, .f32⟩

abbrev bufTy : (tb : Table) → Fin (tcTables nBuf tb) → BufTy
  | .hbm, ⟨i, _⟩ => hbmTy i
  | .local _ .vmem, ⟨0, _⟩ => ⟨S4x32768, .f32⟩
  | .local _ .vmem, ⟨1, _⟩ => ⟨S4x32768, .f32⟩
  | .local _ .vmem, ⟨2, _⟩ => ⟨S16x4, .f32⟩
  | .local _ .vmem, ⟨3, _⟩ => ⟨S16x4, .f32⟩
  | .local _ .vmem, ⟨4, _⟩ => ⟨S16x4, .f32⟩
  | .local _ .vmem, ⟨5, _⟩ => ⟨S16x4, .f32⟩
  | .local _ .vmem, ⟨6, _⟩ => ⟨S10x16, .f32⟩
  | .local _ .vmem, ⟨7, _⟩ => ⟨S10x32768, .f32⟩
  | .local _ .vmem, ⟨8, _⟩ => ⟨S10x32768, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_cst_4 : Ref sig .tc := ⟨.hbm, 7, rfl⟩
abbrev main_cst_5 : Ref sig .tc := ⟨.hbm, 8, rfl⟩
abbrev main_v0 : Ref sig .tc := ⟨.hbm, 9, rfl⟩
abbrev main_cst_6 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_7 : Ref sig .tc := ⟨.hbm, 14, rfl⟩
abbrev main_v4 : Ref sig .tc := ⟨.hbm, 15, rfl⟩
abbrev main_v5 : Ref sig .tc := ⟨.hbm, 16, rfl⟩
abbrev main_cst_8 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_9 : Ref sig .tc := ⟨.hbm, 37, rfl⟩
abbrev main_v21 : Ref sig .tc := ⟨.hbm, 38, rfl⟩
abbrev main_v22 : Ref sig .tc := ⟨.hbm, 39, rfl⟩
abbrev main_cst_10 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_v77 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_v78 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_16 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_17 : Ref sig .tc := ⟨.hbm, 142, rfl⟩
abbrev main_v88 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_call7_v3 : Ref sig .tc := ⟨.hbm, 147, rfl⟩
abbrev main_v89 : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_v90 : Ref sig .tc := ⟨.hbm, 154, rfl⟩
abbrev main_call9_v0 : Ref sig .tc := ⟨.hbm, 155, rfl⟩
abbrev main_call9_v1 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_c_18 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_cst_19 : Ref sig .tc := ⟨.hbm, 170, rfl⟩
abbrev main_v100 : Ref sig .tc := ⟨.hbm, 171, rfl⟩
abbrev main_call10_v0 : Ref sig .tc := ⟨.hbm, 172, rfl⟩
abbrev main_call10_v1 : Ref sig .tc := ⟨.hbm, 173, rfl⟩
abbrev main_call10_v2 : Ref sig .tc := ⟨.hbm, 174, rfl⟩
abbrev main_call10_v3 : Ref sig .tc := ⟨.hbm, 175, rfl⟩
abbrev main_v101 : Ref sig .tc := ⟨.hbm, 176, rfl⟩
abbrev main_call11_v0 : Ref sig .tc := ⟨.hbm, 177, rfl⟩
abbrev main_call11_v1 : Ref sig .tc := ⟨.hbm, 178, rfl⟩
abbrev main_call11_v2 : Ref sig .tc := ⟨.hbm, 179, rfl⟩
abbrev main_call11_v3 : Ref sig .tc := ⟨.hbm, 180, rfl⟩
abbrev main_call11_v4 : Ref sig .tc := ⟨.hbm, 181, rfl⟩
abbrev main_v102 : Ref sig .tc := ⟨.hbm, 182, rfl⟩
abbrev main_call12_v0 : Ref sig .tc := ⟨.hbm, 183, rfl⟩
abbrev main_call12_v1 : Ref sig .tc := ⟨.hbm, 184, rfl⟩
abbrev main_call12_v2 : Ref sig .tc := ⟨.hbm, 185, rfl⟩
abbrev main_call12_v3 : Ref sig .tc := ⟨.hbm, 186, rfl⟩
abbrev main_call12_v4 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_c_20 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_21 : Ref sig .tc := ⟨.hbm, 198, rfl⟩
abbrev main_v112 : Ref sig .tc := ⟨.hbm, 199, rfl⟩
abbrev main_call13_v0 : Ref sig .tc := ⟨.hbm, 200, rfl⟩
abbrev main_call13_v1 : Ref sig .tc := ⟨.hbm, 201, rfl⟩
abbrev main_call13_v2 : Ref sig .tc := ⟨.hbm, 202, rfl⟩
abbrev main_call13_v3 : Ref sig .tc := ⟨.hbm, 203, rfl⟩
abbrev main_v113 : Ref sig .tc := ⟨.hbm, 204, rfl⟩
abbrev main_call14_v0 : Ref sig .tc := ⟨.hbm, 205, rfl⟩
abbrev main_call14_v1 : Ref sig .tc := ⟨.hbm, 206, rfl⟩
abbrev main_call14_v2 : Ref sig .tc := ⟨.hbm, 207, rfl⟩
abbrev main_call14_v3 : Ref sig .tc := ⟨.hbm, 208, rfl⟩
abbrev main_call14_v4 : Ref sig .tc := ⟨.hbm, 209, rfl⟩
abbrev main_v114 : Ref sig .tc := ⟨.hbm, 210, rfl⟩
abbrev main_call15_v0 : Ref sig .tc := ⟨.hbm, 211, rfl⟩
abbrev main_call15_v1 : Ref sig .tc := ⟨.hbm, 212, rfl⟩
abbrev main_call15_v2 : Ref sig .tc := ⟨.hbm, 213, rfl⟩
abbrev main_call15_v3 : Ref sig .tc := ⟨.hbm, 214, rfl⟩
abbrev main_call15_v4 : Ref sig .tc := ⟨.hbm, 215, rfl⟩
abbrev main_v115 : Ref sig .tc := ⟨.hbm, 216, rfl⟩
abbrev main_v116 : Ref sig .tc := ⟨.hbm, 217, rfl⟩
abbrev main_cst_22 : Ref sig .tc := ⟨.hbm, 218, rfl⟩
abbrev main_v117 : Ref sig .tc := ⟨.hbm, 219, rfl⟩
abbrev main_call16_v0 : Ref sig .tc := ⟨.hbm, 220, rfl⟩
abbrev main_call16_v1 : Ref sig .tc := ⟨.hbm, 221, rfl⟩
abbrev main_call16_v2 : Ref sig .tc := ⟨.hbm, 222, rfl⟩
abbrev main_call16_v3 : Ref sig .tc := ⟨.hbm, 223, rfl⟩
abbrev main_v118 : Ref sig .tc := ⟨.hbm, 224, rfl⟩
abbrev main_call17_v0 : Ref sig .tc := ⟨.hbm, 225, rfl⟩
abbrev main_call17_v1 : Ref sig .tc := ⟨.hbm, 226, rfl⟩
abbrev main_call17_v2 : Ref sig .tc := ⟨.hbm, 227, rfl⟩
abbrev main_call17_v3 : Ref sig .tc := ⟨.hbm, 228, rfl⟩
abbrev main_call17_v4 : Ref sig .tc := ⟨.hbm, 229, rfl⟩
abbrev main_v119 : Ref sig .tc := ⟨.hbm, 230, rfl⟩
abbrev main_call18_v0 : Ref sig .tc := ⟨.hbm, 231, rfl⟩
abbrev main_call18_v1 : Ref sig .tc := ⟨.hbm, 232, rfl⟩
abbrev main_call18_v2 : Ref sig .tc := ⟨.hbm, 233, rfl⟩
abbrev main_call18_v3 : Ref sig .tc := ⟨.hbm, 234, rfl⟩
abbrev main_call18_v4 : Ref sig .tc := ⟨.hbm, 235, rfl⟩
abbrev main_v120 : Ref sig .tc := ⟨.hbm, 236, rfl⟩
abbrev main_v121 : Ref sig .tc := ⟨.hbm, 237, rfl⟩
abbrev main_cst_23 : Ref sig .tc := ⟨.hbm, 238, rfl⟩
abbrev main_v122 : Ref sig .tc := ⟨.hbm, 239, rfl⟩
abbrev main_call19_v0 : Ref sig .tc := ⟨.hbm, 240, rfl⟩
abbrev main_call19_v1 : Ref sig .tc := ⟨.hbm, 241, rfl⟩
abbrev main_call19_v2 : Ref sig .tc := ⟨.hbm, 242, rfl⟩
abbrev main_call19_v3 : Ref sig .tc := ⟨.hbm, 243, rfl⟩
abbrev main_v123 : Ref sig .tc := ⟨.hbm, 244, rfl⟩
abbrev main_call20_v0 : Ref sig .tc := ⟨.hbm, 245, rfl⟩
abbrev main_call20_v1 : Ref sig .tc := ⟨.hbm, 246, rfl⟩
abbrev main_call20_v2 : Ref sig .tc := ⟨.hbm, 247, rfl⟩
abbrev main_call20_v3 : Ref sig .tc := ⟨.hbm, 248, rfl⟩
abbrev main_call20_v4 : Ref sig .tc := ⟨.hbm, 249, rfl⟩
abbrev main_v124 : Ref sig .tc := ⟨.hbm, 250, rfl⟩
abbrev main_call21_v0 : Ref sig .tc := ⟨.hbm, 251, rfl⟩
abbrev main_call21_v1 : Ref sig .tc := ⟨.hbm, 252, rfl⟩
abbrev main_call21_v2 : Ref sig .tc := ⟨.hbm, 253, rfl⟩
abbrev main_call21_v3 : Ref sig .tc := ⟨.hbm, 254, rfl⟩
abbrev main_call21_v4 : Ref sig .tc := ⟨.hbm, 255, rfl⟩
abbrev main_v125 : Ref sig .tc := ⟨.hbm, 256, rfl⟩
abbrev main_v126 : Ref sig .tc := ⟨.hbm, 257, rfl⟩
abbrev main_cst_24 : Ref sig .tc := ⟨.hbm, 258, rfl⟩
abbrev main_v127 : Ref sig .tc := ⟨.hbm, 259, rfl⟩
abbrev main_call22_v0 : Ref sig .tc := ⟨.hbm, 260, rfl⟩
abbrev main_call22_v1 : Ref sig .tc := ⟨.hbm, 261, rfl⟩
abbrev main_call22_v2 : Ref sig .tc := ⟨.hbm, 262, rfl⟩
abbrev main_call22_v3 : Ref sig .tc := ⟨.hbm, 263, rfl⟩
abbrev main_v128 : Ref sig .tc := ⟨.hbm, 264, rfl⟩
abbrev main_call23_v0 : Ref sig .tc := ⟨.hbm, 265, rfl⟩
abbrev main_call23_v1 : Ref sig .tc := ⟨.hbm, 266, rfl⟩
abbrev main_call23_v2 : Ref sig .tc := ⟨.hbm, 267, rfl⟩
abbrev main_call23_v3 : Ref sig .tc := ⟨.hbm, 268, rfl⟩
abbrev main_call23_v4 : Ref sig .tc := ⟨.hbm, 269, rfl⟩
abbrev main_v129 : Ref sig .tc := ⟨.hbm, 270, rfl⟩
abbrev main_call24_v0 : Ref sig .tc := ⟨.hbm, 271, rfl⟩
abbrev main_call24_v1 : Ref sig .tc := ⟨.hbm, 272, rfl⟩
abbrev main_call24_v2 : Ref sig .tc := ⟨.hbm, 273, rfl⟩
abbrev main_call24_v3 : Ref sig .tc := ⟨.hbm, 274, rfl⟩
abbrev main_call24_v4 : Ref sig .tc := ⟨.hbm, 275, rfl⟩
abbrev main_v130 : Ref sig .tc := ⟨.hbm, 276, rfl⟩
abbrev main_v131 : Ref sig .tc := ⟨.hbm, 277, rfl⟩
abbrev main_cst_25 : Ref sig .tc := ⟨.hbm, 278, rfl⟩
abbrev main_v132 : Ref sig .tc := ⟨.hbm, 279, rfl⟩
abbrev main_call25_v0 : Ref sig .tc := ⟨.hbm, 280, rfl⟩
abbrev main_call25_v1 : Ref sig .tc := ⟨.hbm, 281, rfl⟩
abbrev main_call25_v2 : Ref sig .tc := ⟨.hbm, 282, rfl⟩
abbrev main_call25_v3 : Ref sig .tc := ⟨.hbm, 283, rfl⟩
abbrev main_v133 : Ref sig .tc := ⟨.hbm, 284, rfl⟩
abbrev main_call26_v0 : Ref sig .tc := ⟨.hbm, 285, rfl⟩
abbrev main_call26_v1 : Ref sig .tc := ⟨.hbm, 286, rfl⟩
abbrev main_call26_v2 : Ref sig .tc := ⟨.hbm, 287, rfl⟩
abbrev main_call26_v3 : Ref sig .tc := ⟨.hbm, 288, rfl⟩
abbrev main_call26_v4 : Ref sig .tc := ⟨.hbm, 289, rfl⟩
abbrev main_v134 : Ref sig .tc := ⟨.hbm, 290, rfl⟩
abbrev main_call27_v0 : Ref sig .tc := ⟨.hbm, 291, rfl⟩
abbrev main_call27_v1 : Ref sig .tc := ⟨.hbm, 292, rfl⟩
abbrev main_call27_v2 : Ref sig .tc := ⟨.hbm, 293, rfl⟩
abbrev main_call27_v3 : Ref sig .tc := ⟨.hbm, 294, rfl⟩
abbrev main_call27_v4 : Ref sig .tc := ⟨.hbm, 295, rfl⟩
abbrev main_v135 : Ref sig .tc := ⟨.hbm, 296, rfl⟩
abbrev main_v136 : Ref sig .tc := ⟨.hbm, 297, rfl⟩
abbrev main_v137 : Ref sig .tc := ⟨.hbm, 298, rfl⟩
abbrev main_v138 : Ref sig .tc := ⟨.hbm, 299, rfl⟩
abbrev main_cst_26 : Ref sig .tc := ⟨.hbm, 300, rfl⟩
abbrev main_v139 : Ref sig .tc := ⟨.hbm, 301, rfl⟩
abbrev main_v140 : Ref sig .tc := ⟨.hbm, 302, rfl⟩
abbrev main_v141 : Ref sig .tc := ⟨.hbm, 303, rfl⟩
abbrev main_cst_27 : Ref sig .tc := ⟨.hbm, 304, rfl⟩
abbrev main_v142 : Ref sig .tc := ⟨.hbm, 305, rfl⟩
abbrev main_v143 : Ref sig .tc := ⟨.hbm, 306, rfl⟩
abbrev main_cst_28 : Ref sig .tc := ⟨.hbm, 307, rfl⟩
abbrev main_v144 : Ref sig .tc := ⟨.hbm, 308, rfl⟩
abbrev main_v145 : Ref sig .tc := ⟨.hbm, 309, rfl⟩
abbrev main_v146 : Ref sig .tc := ⟨.hbm, 310, rfl⟩
abbrev main_v147 : Ref sig .tc := ⟨.hbm, 311, rfl⟩
abbrev main_v148 : Ref sig .tc := ⟨.hbm, 312, rfl⟩
abbrev main_v149 : Ref sig .tc := ⟨.hbm, 313, rfl⟩
abbrev main_v150 : Ref sig .tc := ⟨.hbm, 314, rfl⟩
abbrev main_v151 : Ref sig .tc := ⟨.hbm, 315, rfl⟩
abbrev main_v152 : Ref sig .tc := ⟨.hbm, 316, rfl⟩
abbrev main_v153 : Ref sig .tc := ⟨.hbm, 317, rfl⟩
abbrev main_v154 : Ref sig .tc := ⟨.hbm, 318, rfl⟩
abbrev main_v155 : Ref sig .tc := ⟨.hbm, 319, rfl⟩
abbrev main_call28_v0 : Ref sig .tc := ⟨.hbm, 320, rfl⟩
abbrev main_call28_v1 : Ref sig .tc := ⟨.hbm, 321, rfl⟩
abbrev main_call28_v2 : Ref sig .tc := ⟨.hbm, 322, rfl⟩
abbrev main_call28_v3 : Ref sig .tc := ⟨.hbm, 323, rfl⟩
abbrev main_v156 : Ref sig .tc := ⟨.hbm, 324, rfl⟩
abbrev main_v157 : Ref sig .tc := ⟨.hbm, 325, rfl⟩
abbrev main_v158 : Ref sig .tc := ⟨.hbm, 326, rfl⟩
abbrev main_cst_29 : Ref sig .tc := ⟨.hbm, 327, rfl⟩
abbrev main_v159 : Ref sig .tc := ⟨.hbm, 328, rfl⟩
abbrev main_v160 : Ref sig .tc := ⟨.hbm, 329, rfl⟩
abbrev main_cst_30 : Ref sig .tc := ⟨.hbm, 330, rfl⟩
abbrev main_v161 : Ref sig .tc := ⟨.hbm, 331, rfl⟩
abbrev main_v162 : Ref sig .tc := ⟨.hbm, 332, rfl⟩
abbrev main_v163 : Ref sig .tc := ⟨.hbm, 333, rfl⟩
abbrev main_v164 : Ref sig .tc := ⟨.hbm, 334, rfl⟩
abbrev main_v165 : Ref sig .tc := ⟨.hbm, 335, rfl⟩
abbrev main_v166 : Ref sig .tc := ⟨.hbm, 336, rfl⟩
abbrev main_v167 : Ref sig .tc := ⟨.hbm, 337, rfl⟩
abbrev main_v168 : Ref sig .tc := ⟨.hbm, 338, rfl⟩
abbrev main_v169 : Ref sig .tc := ⟨.hbm, 339, rfl⟩
abbrev main_v170 : Ref sig .tc := ⟨.hbm, 340, rfl⟩
abbrev main_v171 : Ref sig .tc := ⟨.hbm, 341, rfl⟩
abbrev main_v172 : Ref sig .tc := ⟨.hbm, 342, rfl⟩
abbrev main_call29_v0 : Ref sig .tc := ⟨.hbm, 343, rfl⟩
abbrev main_call29_v1 : Ref sig .tc := ⟨.hbm, 344, rfl⟩
abbrev main_call29_v2 : Ref sig .tc := ⟨.hbm, 345, rfl⟩
abbrev main_call29_v3 : Ref sig .tc := ⟨.hbm, 346, rfl⟩
abbrev main_call29_v4 : Ref sig .tc := ⟨.hbm, 347, rfl⟩
abbrev main_v173 : Ref sig .tc := ⟨.hbm, 348, rfl⟩
abbrev main_v174 : Ref sig .tc := ⟨.hbm, 349, rfl⟩
abbrev main_v175 : Ref sig .tc := ⟨.hbm, 350, rfl⟩
abbrev main_cst_31 : Ref sig .tc := ⟨.hbm, 351, rfl⟩
abbrev main_v176 : Ref sig .tc := ⟨.hbm, 352, rfl⟩
abbrev main_v177 : Ref sig .tc := ⟨.hbm, 353, rfl⟩
abbrev main_cst_32 : Ref sig .tc := ⟨.hbm, 354, rfl⟩
abbrev main_v178 : Ref sig .tc := ⟨.hbm, 355, rfl⟩
abbrev main_v179 : Ref sig .tc := ⟨.hbm, 356, rfl⟩
abbrev main_v180 : Ref sig .tc := ⟨.hbm, 357, rfl⟩
abbrev main_v181 : Ref sig .tc := ⟨.hbm, 358, rfl⟩
abbrev main_v182 : Ref sig .tc := ⟨.hbm, 359, rfl⟩
abbrev main_v183 : Ref sig .tc := ⟨.hbm, 360, rfl⟩
abbrev main_v184 : Ref sig .tc := ⟨.hbm, 361, rfl⟩
abbrev main_v185 : Ref sig .tc := ⟨.hbm, 362, rfl⟩
abbrev main_v186 : Ref sig .tc := ⟨.hbm, 363, rfl⟩
abbrev main_v187 : Ref sig .tc := ⟨.hbm, 364, rfl⟩
abbrev main_v188 : Ref sig .tc := ⟨.hbm, 365, rfl⟩
abbrev main_v189 : Ref sig .tc := ⟨.hbm, 366, rfl⟩
abbrev main_call30_v0 : Ref sig .tc := ⟨.hbm, 367, rfl⟩
abbrev main_call30_v1 : Ref sig .tc := ⟨.hbm, 368, rfl⟩
abbrev main_call30_v2 : Ref sig .tc := ⟨.hbm, 369, rfl⟩
abbrev main_call30_v3 : Ref sig .tc := ⟨.hbm, 370, rfl⟩
abbrev main_call30_v4 : Ref sig .tc := ⟨.hbm, 371, rfl⟩
abbrev main_v190 : Ref sig .tc := ⟨.hbm, 372, rfl⟩
abbrev main_v191 : Ref sig .tc := ⟨.hbm, 373, rfl⟩
abbrev main_v192 : Ref sig .tc := ⟨.hbm, 374, rfl⟩
abbrev main_cst_33 : Ref sig .tc := ⟨.hbm, 375, rfl⟩
abbrev main_v193 : Ref sig .tc := ⟨.hbm, 376, rfl⟩
abbrev main_v194 : Ref sig .tc := ⟨.hbm, 377, rfl⟩
abbrev main_cst_34 : Ref sig .tc := ⟨.hbm, 378, rfl⟩
abbrev main_v195 : Ref sig .tc := ⟨.hbm, 379, rfl⟩
abbrev main_v196 : Ref sig .tc := ⟨.hbm, 380, rfl⟩
abbrev main_v197 : Ref sig .tc := ⟨.hbm, 381, rfl⟩
abbrev main_v198 : Ref sig .tc := ⟨.hbm, 382, rfl⟩
abbrev main_v199 : Ref sig .tc := ⟨.hbm, 383, rfl⟩
abbrev main_v200 : Ref sig .tc := ⟨.hbm, 384, rfl⟩
abbrev main_v201 : Ref sig .tc := ⟨.hbm, 385, rfl⟩
abbrev main_v202 : Ref sig .tc := ⟨.hbm, 386, rfl⟩
abbrev main_v203 : Ref sig .tc := ⟨.hbm, 387, rfl⟩
abbrev main_v204 : Ref sig .tc := ⟨.hbm, 388, rfl⟩
abbrev main_v205 : Ref sig .tc := ⟨.hbm, 389, rfl⟩
abbrev main_v206 : Ref sig .tc := ⟨.hbm, 390, rfl⟩
abbrev main_call31_v0 : Ref sig .tc := ⟨.hbm, 391, rfl⟩
abbrev main_call31_v1 : Ref sig .tc := ⟨.hbm, 392, rfl⟩
abbrev main_call31_v2 : Ref sig .tc := ⟨.hbm, 393, rfl⟩
abbrev main_call31_v3 : Ref sig .tc := ⟨.hbm, 394, rfl⟩
abbrev main_call31_v4 : Ref sig .tc := ⟨.hbm, 395, rfl⟩
abbrev main_v207 : Ref sig .tc := ⟨.hbm, 396, rfl⟩
abbrev main_v208 : Ref sig .tc := ⟨.hbm, 397, rfl⟩
abbrev main_v209 : Ref sig .tc := ⟨.hbm, 398, rfl⟩
abbrev main_v210 : Ref sig .tc := ⟨.hbm, 399, rfl⟩
abbrev main_v211 : Ref sig .tc := ⟨.hbm, 400, rfl⟩
abbrev main_v212 : Ref sig .tc := ⟨.hbm, 401, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8_S4_0 : S8.Slices ![0] S4
  bcast_S_S1x1 : S_.BroadcastsInDim S1x1 (![] : Fin 0 → Fin S1x1.rank)
  slices_S4_S1_0 : S4.Slices ![0] S1
  shapeCasts_S1_S_ : S1.ShapeCasts S_
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  bcast_S2x2_S2x1x2x1_0_2 : S2x2.BroadcastsInDim S2x1x2x1 (![0, 2] : Fin 2 → Fin S2x1x2x1.rank)
  bcast_S1x1_S1x1x1x1_1_3 : S1x1.BroadcastsInDim S1x1x1x1 (![1, 3] : Fin 2 → Fin S1x1x1x1.rank)
  bcast_S1x1x1x1_S2x1x2x1_0_1_2_3 : S1x1x1x1.BroadcastsInDim S2x1x2x1 (![0, 1, 2, 3] : Fin 4 → Fin S2x1x2x1.rank)
  shapeCasts_S2x1x2x1_S2x2 : S2x1x2x1.ShapeCasts S2x2
  slices_S4_S1_1 : S4.Slices ![1] S1
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  slices_S4_S1_2 : S4.Slices ![2] S1
  bcast_S4x4_S1x4x1x4_1_3 : S4x4.BroadcastsInDim S1x4x1x4 (![1, 3] : Fin 2 → Fin S1x4x1x4.rank)
  bcast_S2x1x2x1_S2x4x2x4_0_1_2_3 : S2x1x2x1.BroadcastsInDim S2x4x2x4 (![0, 1, 2, 3] : Fin 4 → Fin S2x4x2x4.rank)
  bcast_S1x4x1x4_S2x4x2x4_0_1_2_3 : S1x4x1x4.BroadcastsInDim S2x4x2x4 (![0, 1, 2, 3] : Fin 4 → Fin S2x4x2x4.rank)
  shapeCasts_S2x4x2x4_S8x8 : S2x4x2x4.ShapeCasts S8x8
  slices_S4_S1_3 : S4.Slices ![3] S1
  bcast_S8x8_S1x8x1x8_1_3 : S8x8.BroadcastsInDim S1x8x1x8 (![1, 3] : Fin 2 → Fin S1x8x1x8.rank)
  bcast_S2x1x2x1_S2x8x2x8_0_1_2_3 : S2x1x2x1.BroadcastsInDim S2x8x2x8 (![0, 1, 2, 3] : Fin 4 → Fin S2x8x2x8.rank)
  bcast_S1x8x1x8_S2x8x2x8_0_1_2_3 : S1x8x1x8.BroadcastsInDim S2x8x2x8 (![0, 1, 2, 3] : Fin 4 → Fin S2x8x2x8.rank)
  shapeCasts_S2x8x2x8_S16x16 : S2x8x2x8.ShapeCasts S16x16
  bcast_S_S16x16 : S_.BroadcastsInDim S16x16 (![] : Fin 0 → Fin S16x16.rank)
  bcast_S4x4_S4x1x4x1_0_2 : S4x4.BroadcastsInDim S4x1x4x1 (![0, 2] : Fin 2 → Fin S4x1x4x1.rank)
  bcast_S4x1x4x1_S4x4x4x4_0_1_2_3 : S4x1x4x1.BroadcastsInDim S4x4x4x4 (![0, 1, 2, 3] : Fin 4 → Fin S4x4x4x4.rank)
  bcast_S1x4x1x4_S4x4x4x4_0_1_2_3 : S1x4x1x4.BroadcastsInDim S4x4x4x4 (![0, 1, 2, 3] : Fin 4 → Fin S4x4x4x4.rank)
  shapeCasts_S4x4x4x4_S16x16 : S4x4x4x4.ShapeCasts S16x16
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S1x1x1x1_S4x1x4x1_0_1_2_3 : S1x1x1x1.BroadcastsInDim S4x1x4x1 (![0, 1, 2, 3] : Fin 4 → Fin S4x1x4x1.rank)
  shapeCasts_S4x1x4x1_S4x4 : S4x1x4x1.ShapeCasts S4x4
  slices_S8_S4_4 : S8.Slices ![4] S4
  slices_S16x16_S10x16_0_0 : S16x16.Slices ![0, 0] S10x16
  transposes_S2097152x4_S4x2097152_1_0 : S2097152x4.Transposes [1, 0] S4x2097152
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  slices_S4x32768_o0_0_S1x32768 : S4x32768.Slices ![0, 0] S1x32768
  shapeCasts_S1x32768_S1x32768 : S1x32768.ShapeCasts S1x32768
  broadcasts_S1x32768_S16x32768 : S1x32768.Broadcasts S16x32768
  inb_S16x4_S16x1_0_0 : ∀ a, (![0, 0] : Fin 2 → Nat) a + S16x1.size a ≤ S16x4.size a
  h_S16x1 : 0 < S16x1.numel
  shapeCasts_S16x1_S16x1 : S16x1.ShapeCasts S16x1
  broadcasts_S16x1_S16x32768 : S16x1.Broadcasts S16x32768
  slices_S4x32768_o1_0_S1x32768 : S4x32768.Slices ![1, 0] S1x32768
  inb_S16x4_S16x1_0_1 : ∀ a, (![0, 1] : Fin 2 → Nat) a + S16x1.size a ≤ S16x4.size a
  slices_S4x32768_o2_0_S1x32768 : S4x32768.Slices ![2, 0] S1x32768
  inb_S16x4_S16x1_0_2 : ∀ a, (![0, 2] : Fin 2 → Nat) a + S16x1.size a ≤ S16x4.size a
  slices_S4x32768_o3_0_S1x32768 : S4x32768.Slices ![3, 0] S1x32768
  inb_S16x4_S16x1_0_3 : ∀ a, (![0, 3] : Fin 2 → Nat) a + S16x1.size a ≤ S16x4.size a
  inb_S10x16_S10x16_0_0 : ∀ a, (![0, 0] : Fin 2 → Nat) a + S10x16.size a ≤ S10x16.size a
  h_S10x16 : 0 < S10x16.numel
  shapeCasts_S10x16_S10x16 : S10x16.ShapeCasts S10x16
  bitsLt_bf16_f32 : FTy.bits .bf16 < FTy.bits .f32
  inb_S10x32768_S10x32768_0_0 : ∀ a, (![0, 0] : Fin 2 → Nat) a + S10x32768.size a ≤ S10x32768.size a
  h_S10x32768 : 0 < S10x32768.numel
  slices_S4x32768_o0_0_S4x1 : S4x32768.Slices ![0, 0] S4x1
  slices_S4x1_o0_0_S1x1 : S4x1.Slices ![0, 0] S1x1
  shapeCasts_S1x1_S1x1 : S1x1.ShapeCasts S1x1
  broadcasts_S1x1_S16x1 : S1x1.Broadcasts S16x1
  slices_S4x1_o1_0_S1x1 : S4x1.Slices ![1, 0] S1x1
  slices_S4x1_o2_0_S1x1 : S4x1.Slices ![2, 0] S1x1
  slices_S4x1_o3_0_S1x1 : S4x1.Slices ![3, 0] S1x1
  inb_S10x32768_S10x1_0_0 : ∀ a, (![0, 0] : Fin 2 → Nat) a + S10x1.size a ≤ S10x32768.size a
  h_S10x1 : 0 < S10x1.numel
  transposes_S10x2097152_S2097152x10_1_0 : S10x2097152.Transposes [1, 0] S2097152x10
  dot_S16x16_S16x16_S16x16_1_0_0_1_n_n_wf : DotDims.WF S16x16 S16x16 S16x16 [1] [0] [0] [1] [] []
  dot_S10x16_S16x32768_S10x32768_1_0_0_1_n_n_wf : DotDims.WF S10x16 S16x32768 S10x32768 [1] [0] [0] [1] [] []
  dot_S10x16_S16x1_S10x1_1_0_0_1_n_n_wf : DotDims.WF S10x16 S16x1 S10x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32768.size a ≤ S4x2097152.size a
  hwx0_0 : ∀ i : grid0.Coords, EltTy.bits .f32 = 32 ∨ (Rect.block (s := S4x2097152) S4x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4.size a ≤ S16x4.size a
  hwx0_1 : ∀ i : grid0.Coords, EltTy.bits .f32 = 32 ∨ (Rect.block (s := S16x4) S16x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4.size a ≤ S16x4.size a
  hwx0_2 : ∀ i : grid0.Coords, EltTy.bits .f32 = 32 ∨ (Rect.block (s := S16x4) S16x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4.size a ≤ S16x4.size a
  hwx0_3 : ∀ i : grid0.Coords, EltTy.bits .f32 = 32 ∨ (Rect.block (s := S16x4) S16x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4.size a ≤ S16x4.size a
  hwx0_4 : ∀ i : grid0.Coords, EltTy.bits .f32 = 32 ∨ (Rect.block (s := S16x4) S16x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x16.size a ≤ S10x16.size a
  hwx0_5 : ∀ i : grid0.Coords, EltTy.bits .f32 = 32 ∨ (Rect.block (s := S10x16) S10x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10x32768.size a ≤ S10x2097152.size a
  hwx0_6 : ∀ i : grid0.Coords, EltTy.bits .f32 = 32 ∨ (Rect.block (s := S10x2097152) S10x32768.size (cc0_transform_6 i) (hinb0_6 i)).WholeWords (EltTy.packing .f32)

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S10x16_S16x32768_S10x32768_1_0_0_1_n_n : DotDims S10x16 S16x32768 S10x32768 where
  lhsContracting := [1]
  rhsContracting := [0]
  lhsNonContracting := [0]
  rhsNonContracting := [1]
  lhsBatch := []
  rhsBatch := []
  wf := dot_S10x16_S16x32768_S10x32768_1_0_0_1_n_n_wf
def dot_S10x16_S16x1_S10x1_1_0_0_1_n_n : DotDims S10x16 S16x1 S10x1 where
  lhsContracting := [1]
  rhsContracting := [0]
  lhsNonContracting := [0]
  rhsNonContracting := [1]
  lhsBatch := []
  rhsBatch := []
  wf := dot_S10x16_S16x1_S10x1_1_0_0_1_n_n_wf

abbrev win0_0 : Pipeline.Window sig grid0 :=
  Pipeline.Window.ofSpec (Memref.whole main_v210) S4x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst_2) S16x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_3) S16x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst_4) S16x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_5) S16x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v209) S10x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v211) S10x32768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S8 : Shape := ⟨1, ![8]⟩
abbrev S2x2 : Shape := ⟨2, ![2, 2]⟩
abbrev S4x4 : Shape := ⟨2, ![4, 4]⟩
abbrev S16x4 : Shape := ⟨2, ![16, 4]⟩
abbrev S4 : Shape := ⟨1, ![4]⟩
abbrev S_ : Shape := ⟨0, ![]⟩
abbrev S1x1 : Shape := ⟨2, ![1, 1]⟩
abbrev S1 : Shape := ⟨1, ![1]⟩
abbrev S2 : Shape := ⟨1, ![2]⟩
abbrev S1x2 : Shape := ⟨2, ![1, 2]⟩
abbrev S2x1x2x1 : Shape := ⟨4, ![2, 1, 2, 1]⟩
abbrev S1x1x1x1 : Shape := ⟨4, ![1, 1, 1, 1]⟩
abbrev S1x2x1x2 : Shape := ⟨4, ![1, 2, 1, 2]⟩
abbrev S2x2x2x2 : Shape := ⟨4, ![2, 2, 2, 2]⟩
abbrev S1x4x1x4 : Shape := ⟨4, ![1, 4, 1, 4]⟩
abbrev S2x4x2x4 : Shape := ⟨4, ![2, 4, 2, 4]⟩
abbrev S8x8 : Shape := ⟨2, ![8, 8]⟩
abbrev S1x8x1x8 : Shape := ⟨4, ![1, 8, 1, 8]⟩
abbrev S2x8x2x8 : Shape := ⟨4, ![2, 8, 2, 8]⟩
abbrev S16x16 : Shape := ⟨2, ![16, 16]⟩
abbrev S4x1x4x1 : Shape := ⟨4, ![4, 1, 4, 1]⟩
abbrev S4x4x4x4 : Shape := ⟨4, ![4, 4, 4, 4]⟩
abbrev S4x2x4x2 : Shape := ⟨4, ![4, 2, 4, 2]⟩
abbrev S1x4 : Shape := ⟨2, ![1, 4]⟩
abbrev S16 : Shape := ⟨1, ![16]⟩
abbrev S16x1 : Shape := ⟨2, ![16, 1]⟩
abbrev S2097151x4 : Shape := ⟨2, ![2097151, 4]⟩
abbrev S2097151x16 : Shape := ⟨2, ![2097151, 16]⟩
abbrev S1x16 : Shape := ⟨2, ![1, 16]⟩
abbrev S2097151x1 : Shape := ⟨2, ![2097151, 1]⟩
abbrev S2097152x16 : Shape := ⟨2, ![2097152, 16]⟩
abbrev S2097152x10 : Shape := ⟨2, ![2097152, 10]⟩

abbrev nBuf : Space → Nat
  | .hbm => 535
  | .vmem => 0
  | .smem => 0
  | _ => 0

abbrev hbmTy0_0 (i : Nat) : BufTy := match i % 128 with
  | 0 => ⟨S2097152x4, .f32⟩
  | 1 => ⟨S8, .f32⟩
  | 2 => ⟨S2x2, .f32⟩
  | 3 => ⟨S4x4, .f32⟩
  | 4 => ⟨S4x4, .f32⟩
  | 5 => ⟨S16x4, .f32⟩
  | 6 => ⟨S16x4, .f32⟩
  | 7 => ⟨S4, .f32⟩
  | 8 => ⟨S_, .f32⟩
  | 9 => ⟨S1x1, .f32⟩
  | 10 => ⟨S1, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S2, .f32⟩
  | 22 => ⟨S1, .f32⟩
  | 23 => ⟨S1, .f32⟩
  | 24 => ⟨S2, .f32⟩
  | 25 => ⟨S1x2, .f32⟩
  | 26 => ⟨S1x2, .f32⟩
  | 27 => ⟨S2x2, .f32⟩
  | 28 => ⟨S2x1x2x1, .f32⟩
  | 29 => ⟨S1x1x1x1, .f32⟩
  | 30 => ⟨S2x1x2x1, .f32⟩
  | 31 => ⟨S2x1x2x1, .f32⟩
  | 32 => ⟨S2x2, .f32⟩
  | 33 => ⟨S1, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S1, .f32⟩
  | 43 => ⟨S1, .f32⟩
  | 44 => ⟨S2, .f32⟩
  | 45 => ⟨S1, .f32⟩
  | 46 => ⟨S1, .f32⟩
  | 47 => ⟨S2, .f32⟩
  | 48 => ⟨S1x2, .f32⟩
  | 49 => ⟨S1x2, .f32⟩
  | 50 => ⟨S2x2, .f32⟩
  | 51 => ⟨S2x1x2x1, .f32⟩
  | 52 => ⟨S1x2x1x2, .f32⟩
  | 53 => ⟨S2x2x2x2, .f32⟩
  | 54 => ⟨S2x2x2x2, .f32⟩
  | 55 => ⟨S2x2x2x2, .f32⟩
  | 56 => ⟨S4x4, .f32⟩
  | 57 => ⟨S1, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S1, .f32⟩
  | 67 => ⟨S1, .f32⟩
  | 68 => ⟨S2, .f32⟩
  | 69 => ⟨S1, .f32⟩
  | 70 => ⟨S1, .f32⟩
  | 71 => ⟨S2, .f32⟩
  | 72 => ⟨S1x2, .f32⟩
  | 73 => ⟨S1x2, .f32⟩
  | 74 => ⟨S2x2, .f32⟩
  | 75 => ⟨S2x1x2x1, .f32⟩
  | 76 => ⟨S1x4x1x4, .f32⟩
  | 77 => ⟨S2x4x2x4, .f32⟩
  | 78 => ⟨S2x4x2x4, .f32⟩
  | 79 => ⟨S2x4x2x4, .f32⟩
  | 80 => ⟨S8x8, .f32⟩
  | 81 => ⟨S1, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S1, .f32⟩
  | 91 => ⟨S1, .f32⟩
  | 92 => ⟨S2, .f32⟩
  | 93 => ⟨S1, .f32⟩
  | 94 => ⟨S1, .f32⟩
  | 95 => ⟨S2, .f32⟩
  | 96 => ⟨S1x2, .f32⟩
  | 97 => ⟨S1x2, .f32⟩
  | 98 => ⟨S2x2, .f32⟩
  | 99 => ⟨S2x1x2x1, .f32⟩
  | 100 => ⟨S1x8x1x8, .f32⟩
  | 101 => ⟨S2x8x2x8, .f32⟩
  | 102 => ⟨S2x8x2x8, .f32⟩
  | 103 => ⟨S2x8x2x8, .f32⟩
  | 104 => ⟨S16x16, .f32⟩
  | 105 => ⟨S16x16, .i32⟩
  | 106 => ⟨S16x16, .i32⟩
  | 107 => ⟨S_, .i32⟩
  | 108 => ⟨S16x16, .i32⟩
  | 109 => ⟨S16x16, .i32⟩
  | 110 => ⟨S16x16, .i1⟩
  | 111 => ⟨S16x16, .f32⟩
  | 112 => ⟨S_, .f32⟩
  | 113 => ⟨S1x1, .f32⟩
  | 114 => ⟨S2x1x2x1, .f32⟩
  | 115 => ⟨S1x1x1x1, .f32⟩
  | 116 => ⟨S2x1x2x1, .f32⟩
  | 117 => ⟨S2x1x2x1, .f32⟩
  | 118 => ⟨S2x2, .f32⟩
  | 119 => ⟨S2x1x2x1, .f32⟩
  | 120 => ⟨S1x2x1x2, .f32⟩
  | 121 => ⟨S2x2x2x2, .f32⟩
  | 122 => ⟨S2x2x2x2, .f32⟩
  | 123 => ⟨S2x2x2x2, .f32⟩
  | 124 => ⟨S4x4, .f32⟩
  | 125 => ⟨S4x1x4x1, .f32⟩
  | 126 => ⟨S1x4x1x4, .f32⟩
  | 127 => ⟨S4x4x4x4, .f32⟩
  | _ => ⟨S2097152x4, .f32⟩

abbrev hbmTy0_1 (i : Nat) : BufTy := match i % 128 with
  | 0 => ⟨S4x4x4x4, .f32⟩
  | 1 => ⟨S4x4x4x4, .f32⟩
  | 2 => ⟨S16x16, .f32⟩
  | 3 => ⟨S16x16, .f32⟩
  | 4 => ⟨S16x16, .f32⟩
  | 5 => ⟨S16x16, .i32⟩
  | 6 => ⟨S16x16, .i32⟩
  | 7 => ⟨S_, .i32⟩
  | 8 => ⟨S16x16, .i32⟩
  | 9 => ⟨S16x16, .i32⟩
  | 10 => ⟨S16x16, .i1⟩
  | 11 => ⟨S16x16, .f32⟩
  | 12 => ⟨S_, .f32⟩
  | 13 => ⟨S1x1, .f32⟩
  | 14 => ⟨S2x1x2x1, .f32⟩
  | 15 => ⟨S1x1x1x1, .f32⟩
  | 16 => ⟨S2x1x2x1, .f32⟩
  | 17 => ⟨S2x1x2x1, .f32⟩
  | 18 => ⟨S2x2, .f32⟩
  | 19 => ⟨S4x1x4x1, .f32⟩
  | 20 => ⟨S1x2x1x2, .f32⟩
  | 21 => ⟨S4x2x4x2, .f32⟩
  | 22 => ⟨S4x2x4x2, .f32⟩
  | 23 => ⟨S4x2x4x2, .f32⟩
  | 24 => ⟨S8x8, .f32⟩
  | 25 => ⟨S2x1x2x1, .f32⟩
  | 26 => ⟨S1x8x1x8, .f32⟩
  | 27 => ⟨S2x8x2x8, .f32⟩
  | 28 => ⟨S2x8x2x8, .f32⟩
  | 29 => ⟨S2x8x2x8, .f32⟩
  | 30 => ⟨S16x16, .f32⟩
  | 31 => ⟨S16x16, .f32⟩
  | 32 => ⟨S16x16, .f32⟩
  | 33 => ⟨S16x16, .i32⟩
  | 34 => ⟨S16x16, .i32⟩
  | 35 => ⟨S_, .i32⟩
  | 36 => ⟨S16x16, .i32⟩
  | 37 => ⟨S16x16, .i32⟩
  | 38 => ⟨S16x16, .i1⟩
  | 39 => ⟨S16x16, .f32⟩
  | 40 => ⟨S_, .f32⟩
  | 41 => ⟨S1x1, .f32⟩
  | 42 => ⟨S4x1x4x1, .f32⟩
  | 43 => ⟨S1x1x1x1, .f32⟩
  | 44 => ⟨S4x1x4x1, .f32⟩
  | 45 => ⟨S4x1x4x1, .f32⟩
  | 46 => ⟨S4x4, .f32⟩
  | 47 => ⟨S2x1x2x1, .f32⟩
  | 48 => ⟨S1x4x1x4, .f32⟩
  | 49 => ⟨S2x4x2x4, .f32⟩
  | 50 => ⟨S2x4x2x4, .f32⟩
  | 51 => ⟨S2x4x2x4, .f32⟩
  | 52 => ⟨S8x8, .f32⟩
  | 53 => ⟨S2x1x2x1, .f32⟩
  | 54 => ⟨S1x8x1x8, .f32⟩
  | 55 => ⟨S2x8x2x8, .f32⟩
  | 56 => ⟨S2x8x2x8, .f32⟩
  | 57 => ⟨S2x8x2x8, .f32⟩
  | 58 => ⟨S16x16, .f32⟩
  | 59 => ⟨S16x16, .f32⟩
  | 60 => ⟨S16x16, .f32⟩
  | 61 => ⟨S16x16, .i32⟩
  | 62 => ⟨S16x16, .i32⟩
  | 63 => ⟨S_, .i32⟩
  | 64 => ⟨S16x16, .i32⟩
  | 65 => ⟨S16x16, .i32⟩
  | 66 => ⟨S16x16, .i1⟩
  | 67 => ⟨S16x16, .f32⟩
  | 68 => ⟨S_, .f32⟩
  | 69 => ⟨S1x1, .f32⟩
  | 70 => ⟨S2x1x2x1, .f32⟩
  | 71 => ⟨S1x1x1x1, .f32⟩
  | 72 => ⟨S2x1x2x1, .f32⟩
  | 73 => ⟨S2x1x2x1, .f32⟩
  | 74 => ⟨S2x2, .f32⟩
  | 75 => ⟨S2x1x2x1, .f32⟩
  | 76 => ⟨S1x2x1x2, .f32⟩
  | 77 => ⟨S2x2x2x2, .f32⟩
  | 78 => ⟨S2x2x2x2, .f32⟩
  | 79 => ⟨S2x2x2x2, .f32⟩
  | 80 => ⟨S4x4, .f32⟩
  | 81 => ⟨S4x1x4x1, .f32⟩
  | 82 => ⟨S1x4x1x4, .f32⟩
  | 83 => ⟨S4x4x4x4, .f32⟩
  | 84 => ⟨S4x4x4x4, .f32⟩
  | 85 => ⟨S4x4x4x4, .f32⟩
  | 86 => ⟨S16x16, .f32⟩
  | 87 => ⟨S16x16, .f32⟩
  | 88 => ⟨S_, .f32⟩
  | 89 => ⟨S1x1, .f32⟩
  | 90 => ⟨S2x1x2x1, .f32⟩
  | 91 => ⟨S1x1x1x1, .f32⟩
  | 92 => ⟨S2x1x2x1, .f32⟩
  | 93 => ⟨S2x1x2x1, .f32⟩
  | 94 => ⟨S2x2, .f32⟩
  | 95 => ⟨S4x1x4x1, .f32⟩
  | 96 => ⟨S1x2x1x2, .f32⟩
  | 97 => ⟨S4x2x4x2, .f32⟩
  | 98 => ⟨S4x2x4x2, .f32⟩
  | 99 => ⟨S4x2x4x2, .f32⟩
  | 100 => ⟨S8x8, .f32⟩
  | 101 => ⟨S2x1x2x1, .f32⟩
  | 102 => ⟨S1x8x1x8, .f32⟩
  | 103 => ⟨S2x8x2x8, .f32⟩
  | 104 => ⟨S2x8x2x8, .f32⟩
  | 105 => ⟨S2x8x2x8, .f32⟩
  | 106 => ⟨S16x16, .f32⟩
  | 107 => ⟨S16x16, .f32⟩
  | 108 => ⟨S_, .f32⟩
  | 109 => ⟨S1x1, .f32⟩
  | 110 => ⟨S4x1x4x1, .f32⟩
  | 111 => ⟨S1x1x1x1, .f32⟩
  | 112 => ⟨S4x1x4x1, .f32⟩
  | 113 => ⟨S4x1x4x1, .f32⟩
  | 114 => ⟨S4x4, .f32⟩
  | 115 => ⟨S2x1x2x1, .f32⟩
  | 116 => ⟨S1x4x1x4, .f32⟩
  | 117 => ⟨S2x4x2x4, .f32⟩
  | 118 => ⟨S2x4x2x4, .f32⟩
  | 119 => ⟨S2x4x2x4, .f32⟩
  | 120 => ⟨S8x8, .f32⟩
  | 121 => ⟨S2x1x2x1, .f32⟩
  | 122 => ⟨S1x8x1x8, .f32⟩
  | 123 => ⟨S2x8x2x8, .f32⟩
  | 124 => ⟨S2x8x2x8, .f32⟩
  | 125 => ⟨S2x8x2x8, .f32⟩
  | 126 => ⟨S16x16, .f32⟩
  | 127 => ⟨S16x16, .f32⟩
  | _ => ⟨S2097152x4, .f32⟩

abbrev hbmTy0_2 (i : Nat) : BufTy := match i % 128 with
  | 0 => ⟨S_, .f32⟩
  | 1 => ⟨S1x1, .f32⟩
  | 2 => ⟨S2x1x2x1, .f32⟩
  | 3 => ⟨S1x1x1x1, .f32⟩
  | 4 => ⟨S2x1x2x1, .f32⟩
  | 5 => ⟨S2x1x2x1, .f32⟩
  | 6 => ⟨S2x2, .f32⟩
  | 7 => ⟨S4x1x4x1, .f32⟩
  | 8 => ⟨S1x2x1x2, .f32⟩
  | 9 => ⟨S4x2x4x2, .f32⟩
  | 10 => ⟨S4x2x4x2, .f32⟩
  | 11 => ⟨S4x2x4x2, .f32⟩
  | 12 => ⟨S8x8, .f32⟩
  | 13 => ⟨S2x1x2x1, .f32⟩
  | 14 => ⟨S1x8x1x8, .f32⟩
  | 15 => ⟨S2x8x2x8, .f32⟩
  | 16 => ⟨S2x8x2x8, .f32⟩
  | 17 => ⟨S2x8x2x8, .f32⟩
  | 18 => ⟨S16x16, .f32⟩
  | 19 => ⟨S16x16, .f32⟩
  | 20 => ⟨S_, .f32⟩
  | 21 => ⟨S1x1, .f32⟩
  | 22 => ⟨S2x1x2x1, .f32⟩
  | 23 => ⟨S1x1x1x1, .f32⟩
  | 24 => ⟨S2x1x2x1, .f32⟩
  | 25 => ⟨S2x1x2x1, .f32⟩
  | 26 => ⟨S2x2, .f32⟩
  | 27 => ⟨S2x1x2x1, .f32⟩
  | 28 => ⟨S1x2x1x2, .f32⟩
  | 29 => ⟨S2x2x2x2, .f32⟩
  | 30 => ⟨S2x2x2x2, .f32⟩
  | 31 => ⟨S2x2x2x2, .f32⟩
  | 32 => ⟨S4x4, .f32⟩
  | 33 => ⟨S4x1x4x1, .f32⟩
  | 34 => ⟨S1x4x1x4, .f32⟩
  | 35 => ⟨S4x4x4x4, .f32⟩
  | 36 => ⟨S4x4x4x4, .f32⟩
  | 37 => ⟨S4x4x4x4, .f32⟩
  | 38 => ⟨S16x16, .f32⟩
  | 39 => ⟨S16x16, .f32⟩
  | 40 => ⟨S16x16, .f32⟩
  | 41 => ⟨S4, .f32⟩
  | 42 => ⟨S_, .f32⟩
  | 43 => ⟨S1x1, .f32⟩
  | 44 => ⟨S1, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S1, .f32⟩
  | 54 => ⟨S1, .f32⟩
  | 55 => ⟨S2, .f32⟩
  | 56 => ⟨S1, .f32⟩
  | 57 => ⟨S1, .f32⟩
  | 58 => ⟨S2, .f32⟩
  | 59 => ⟨S1x2, .f32⟩
  | 60 => ⟨S1x2, .f32⟩
  | 61 => ⟨S2x2, .f32⟩
  | 62 => ⟨S2x1x2x1, .f32⟩
  | 63 => ⟨S1x1x1x1, .f32⟩
  | 64 => ⟨S2x1x2x1, .f32⟩
  | 65 => ⟨S2x1x2x1, .f32⟩
  | 66 => ⟨S2x2, .f32⟩
  | 67 => ⟨S1, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S1, .f32⟩
  | 77 => ⟨S1, .f32⟩
  | 78 => ⟨S2, .f32⟩
  | 79 => ⟨S1, .f32⟩
  | 80 => ⟨S1, .f32⟩
  | 81 => ⟨S2, .f32⟩
  | 82 => ⟨S1x2, .f32⟩
  | 83 => ⟨S1x2, .f32⟩
  | 84 => ⟨S2x2, .f32⟩
  | 85 => ⟨S2x1x2x1, .f32⟩
  | 86 => ⟨S1x2x1x2, .f32⟩
  | 87 => ⟨S2x2x2x2, .f32⟩
  | 88 => ⟨S2x2x2x2, .f32⟩
  | 89 => ⟨S2x2x2x2, .f32⟩
  | 90 => ⟨S4x4, .f32⟩
  | 91 => ⟨S1, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1, .f32⟩
  | 101 => ⟨S1, .f32⟩
  | 102 => ⟨S2, .f32⟩
  | 103 => ⟨S1, .f32⟩
  | 104 => ⟨S1, .f32⟩
  | 105 => ⟨S2, .f32⟩
  | 106 => ⟨S1x2, .f32⟩
  | 107 => ⟨S1x2, .f32⟩
  | 108 => ⟨S2x2, .f32⟩
  | 109 => ⟨S2x1x2x1, .f32⟩
  | 110 => ⟨S1x4x1x4, .f32⟩
  | 111 => ⟨S2x4x2x4, .f32⟩
  | 112 => ⟨S2x4x2x4, .f32⟩
  | 113 => ⟨S2x4x2x4, .f32⟩
  | 114 => ⟨S8x8, .f32⟩
  | 115 => ⟨S1, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S1, .f32⟩
  | 125 => ⟨S1, .f32⟩
  | 126 => ⟨S2, .f32⟩
  | 127 => ⟨S1, .f32⟩
  | _ => ⟨S2097152x4, .f32⟩

abbrev hbmTy0_3 (i : Nat) : BufTy := match i % 128 with
  | 0 => ⟨S1, .f32⟩
  | 1 => ⟨S2, .f32⟩
  | 2 => ⟨S1x2, .f32⟩
  | 3 => ⟨S1x2, .f32⟩
  | 4 => ⟨S2x2, .f32⟩
  | 5 => ⟨S2x1x2x1, .f32⟩
  | 6 => ⟨S1x8x1x8, .f32⟩
  | 7 => ⟨S2x8x2x8, .f32⟩
  | 8 => ⟨S2x8x2x8, .f32⟩
  | 9 => ⟨S2x8x2x8, .f32⟩
  | 10 => ⟨S16x16, .f32⟩
  | 11 => ⟨S16x16, .f32⟩
  | 12 => ⟨S1x4, .f32⟩
  | 13 => ⟨S4, .f32⟩
  | 14 => ⟨S_, .f32⟩
  | 15 => ⟨S16, .f32⟩
  | 16 => ⟨S16x1, .f32⟩
  | 17 => ⟨S16, .f32⟩
  | 18 => ⟨S_, .f32⟩
  | 19 => ⟨S16, .f32⟩
  | 20 => ⟨S16, .i1⟩
  | 21 => ⟨S1, .f32⟩
  | 22 => ⟨S_, .f32⟩
  | 23 => ⟨S1, .f32⟩
  | 24 => ⟨S_, .f32⟩
  | 25 => ⟨S_, .f32⟩
  | 26 => ⟨S_, .f32⟩
  | 27 => ⟨S16, .f32⟩
  | 28 => ⟨S16, .f32⟩
  | 29 => ⟨S16, .f32⟩
  | 30 => ⟨S16, .f32⟩
  | 31 => ⟨S16x1, .f32⟩
  | 32 => ⟨S16, .f32⟩
  | 33 => ⟨S_, .f32⟩
  | 34 => ⟨S16, .f32⟩
  | 35 => ⟨S16, .i1⟩
  | 36 => ⟨S1, .f32⟩
  | 37 => ⟨S_, .f32⟩
  | 38 => ⟨S1, .f32⟩
  | 39 => ⟨S_, .f32⟩
  | 40 => ⟨S_, .f32⟩
  | 41 => ⟨S_, .f32⟩
  | 42 => ⟨S16, .f32⟩
  | 43 => ⟨S16, .f32⟩
  | 44 => ⟨S16, .f32⟩
  | 45 => ⟨S16, .f32⟩
  | 46 => ⟨S16x1, .f32⟩
  | 47 => ⟨S16, .f32⟩
  | 48 => ⟨S_, .f32⟩
  | 49 => ⟨S16, .f32⟩
  | 50 => ⟨S16, .i1⟩
  | 51 => ⟨S1, .f32⟩
  | 52 => ⟨S_, .f32⟩
  | 53 => ⟨S1, .f32⟩
  | 54 => ⟨S_, .f32⟩
  | 55 => ⟨S_, .f32⟩
  | 56 => ⟨S_, .f32⟩
  | 57 => ⟨S16, .f32⟩
  | 58 => ⟨S16, .f32⟩
  | 59 => ⟨S16, .f32⟩
  | 60 => ⟨S16, .f32⟩
  | 61 => ⟨S16x1, .f32⟩
  | 62 => ⟨S16, .f32⟩
  | 63 => ⟨S_, .f32⟩
  | 64 => ⟨S16, .f32⟩
  | 65 => ⟨S16, .i1⟩
  | 66 => ⟨S1, .f32⟩
  | 67 => ⟨S_, .f32⟩
  | 68 => ⟨S1, .f32⟩
  | 69 => ⟨S_, .f32⟩
  | 70 => ⟨S_, .f32⟩
  | 71 => ⟨S_, .f32⟩
  | 72 => ⟨S16, .f32⟩
  | 73 => ⟨S16, .f32⟩
  | 74 => ⟨S16, .f32⟩
  | 75 => ⟨S16, .f32⟩
  | 76 => ⟨S2097151x4, .f32⟩
  | 77 => ⟨S2097151x4, .f32⟩
  | 78 => ⟨S_, .f32⟩
  | 79 => ⟨S2097151x16, .f32⟩
  | 80 => ⟨S16x1, .f32⟩
  | 81 => ⟨S16, .f32⟩
  | 82 => ⟨S1x16, .f32⟩
  | 83 => ⟨S_, .f32⟩
  | 84 => ⟨S1x16, .f32⟩
  | 85 => ⟨S1x16, .i1⟩
  | 86 => ⟨S2097151x1, .f32⟩
  | 87 => ⟨S2097151x1, .f32⟩
  | 88 => ⟨S_, .f32⟩
  | 89 => ⟨S2097151x1, .f32⟩
  | 90 => ⟨S2097151x1, .f32⟩
  | 91 => ⟨S2097151x16, .i1⟩
  | 92 => ⟨S2097151x16, .f32⟩
  | 93 => ⟨S2097151x16, .f32⟩
  | 94 => ⟨S2097151x16, .f32⟩
  | 95 => ⟨S2097151x16, .f32⟩
  | 96 => ⟨S16x1, .f32⟩
  | 97 => ⟨S16, .f32⟩
  | 98 => ⟨S1x16, .f32⟩
  | 99 => ⟨S_, .f32⟩
  | 100 => ⟨S1x16, .f32⟩
  | 101 => ⟨S1x16, .i1⟩
  | 102 => ⟨S2097151x1, .f32⟩
  | 103 => ⟨S2097151x1, .f32⟩
  | 104 => ⟨S_, .f32⟩
  | 105 => ⟨S2097151x1, .f32⟩
  | 106 => ⟨S2097151x1, .f32⟩
  | 107 => ⟨S2097151x16, .i1⟩
  | 108 => ⟨S2097151x16, .f32⟩
  | 109 => ⟨S2097151x16, .f32⟩
  | 110 => ⟨S2097151x16, .f32⟩
  | 111 => ⟨S2097151x16, .f32⟩
  | 112 => ⟨S16x1, .f32⟩
  | 113 => ⟨S16, .f32⟩
  | 114 => ⟨S1x16, .f32⟩
  | 115 => ⟨S_, .f32⟩
  | 116 => ⟨S1x16, .f32⟩
  | 117 => ⟨S1x16, .i1⟩
  | 118 => ⟨S2097151x1, .f32⟩
  | 119 => ⟨S2097151x1, .f32⟩
  | 120 => ⟨S_, .f32⟩
  | 121 => ⟨S2097151x1, .f32⟩
  | 122 => ⟨S2097151x1, .f32⟩
  | 123 => ⟨S2097151x16, .i1⟩
  | 124 => ⟨S2097151x16, .f32⟩
  | 125 => ⟨S2097151x16, .f32⟩
  | 126 => ⟨S2097151x16, .f32⟩
  | 127 => ⟨S2097151x16, .f32⟩
  | _ => ⟨S2097152x4, .f32⟩

abbrev hbmTy0_4 (i : Nat) : BufTy := match i % 128 with
  | 0 => ⟨S16x1, .f32⟩
  | 1 => ⟨S16, .f32⟩
  | 2 => ⟨S1x16, .f32⟩
  | 3 => ⟨S_, .f32⟩
  | 4 => ⟨S1x16, .f32⟩
  | 5 => ⟨S1x16, .i1⟩
  | 6 => ⟨S2097151x1, .f32⟩
  | 7 => ⟨S2097151x1, .f32⟩
  | 8 => ⟨S_, .f32⟩
  | 9 => ⟨S2097151x1, .f32⟩
  | 10 => ⟨S2097151x1, .f32⟩
  | 11 => ⟨S2097151x16, .i1⟩
  | 12 => ⟨S2097151x16, .f32⟩
  | 13 => ⟨S2097151x16, .f32⟩
  | 14 => ⟨S2097151x16, .f32⟩
  | 15 => ⟨S2097151x16, .f32⟩
  | 16 => ⟨S2097151x16, .f32⟩
  | 17 => ⟨S1x16, .f32⟩
  | 18 => ⟨S2097152x16, .f32⟩
  | 19 => ⟨S16x16, .f32⟩
  | 20 => ⟨S2097152x16, .f32⟩
  | 21 => ⟨S2097152x16, .f32⟩
  | 22 => ⟨S2097152x10, .f32⟩
  | _ => ⟨S2097152x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2097152x4, .f32⟩

abbrev bufTy : (tb : Table) → Fin (tcTables nBuf tb) → BufTy
  | .hbm, ⟨i, _⟩ => hbmTy i
  | _, _ => ⟨S2097152x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_v0 : Ref sig .tc := ⟨.hbm, 7, rfl⟩
abbrev main_cst_4 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_5 : Ref sig .tc := ⟨.hbm, 12, rfl⟩
abbrev main_v4 : Ref sig .tc := ⟨.hbm, 13, rfl⟩
abbrev main_v5 : Ref sig .tc := ⟨.hbm, 14, rfl⟩
abbrev main_cst_6 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_v77 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v78 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_14 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_15 : Ref sig .tc := ⟨.hbm, 140, rfl⟩
abbrev main_v88 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_v89 : Ref sig .tc := ⟨.hbm, 146, rfl⟩
abbrev main_call8_v0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_v90 : Ref sig .tc := ⟨.hbm, 152, rfl⟩
abbrev main_call9_v0 : Ref sig .tc := ⟨.hbm, 153, rfl⟩
abbrev main_call9_v1 : Ref sig .tc := ⟨.hbm, 154, rfl⟩
abbrev main_call9_v2 : Ref sig .tc := ⟨.hbm, 155, rfl⟩
abbrev main_call9_v3 : Ref sig .tc := ⟨.hbm, 156, rfl⟩
abbrev main_call9_v4 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_c_16 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_17 : Ref sig .tc := ⟨.hbm, 168, rfl⟩
abbrev main_v100 : Ref sig .tc := ⟨.hbm, 169, rfl⟩
abbrev main_call10_v0 : Ref sig .tc := ⟨.hbm, 170, rfl⟩
abbrev main_call10_v1 : Ref sig .tc := ⟨.hbm, 171, rfl⟩
abbrev main_call10_v2 : Ref sig .tc := ⟨.hbm, 172, rfl⟩
abbrev main_call10_v3 : Ref sig .tc := ⟨.hbm, 173, rfl⟩
abbrev main_v101 : Ref sig .tc := ⟨.hbm, 174, rfl⟩
abbrev main_call11_v0 : Ref sig .tc := ⟨.hbm, 175, rfl⟩
abbrev main_call11_v1 : Ref sig .tc := ⟨.hbm, 176, rfl⟩
abbrev main_call11_v2 : Ref sig .tc := ⟨.hbm, 177, rfl⟩
abbrev main_call11_v3 : Ref sig .tc := ⟨.hbm, 178, rfl⟩
abbrev main_call11_v4 : Ref sig .tc := ⟨.hbm, 179, rfl⟩
abbrev main_v102 : Ref sig .tc := ⟨.hbm, 180, rfl⟩
abbrev main_call12_v0 : Ref sig .tc := ⟨.hbm, 181, rfl⟩
abbrev main_call12_v1 : Ref sig .tc := ⟨.hbm, 182, rfl⟩
abbrev main_call12_v2 : Ref sig .tc := ⟨.hbm, 183, rfl⟩
abbrev main_call12_v3 : Ref sig .tc := ⟨.hbm, 184, rfl⟩
abbrev main_call12_v4 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_c_18 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_cst_19 : Ref sig .tc := ⟨.hbm, 196, rfl⟩
abbrev main_v112 : Ref sig .tc := ⟨.hbm, 197, rfl⟩
abbrev main_call13_v0 : Ref sig .tc := ⟨.hbm, 198, rfl⟩
abbrev main_call13_v1 : Ref sig .tc := ⟨.hbm, 199, rfl⟩
abbrev main_call13_v2 : Ref sig .tc := ⟨.hbm, 200, rfl⟩
abbrev main_call13_v3 : Ref sig .tc := ⟨.hbm, 201, rfl⟩
abbrev main_v113 : Ref sig .tc := ⟨.hbm, 202, rfl⟩
abbrev main_call14_v0 : Ref sig .tc := ⟨.hbm, 203, rfl⟩
abbrev main_call14_v1 : Ref sig .tc := ⟨.hbm, 204, rfl⟩
abbrev main_call14_v2 : Ref sig .tc := ⟨.hbm, 205, rfl⟩
abbrev main_call14_v3 : Ref sig .tc := ⟨.hbm, 206, rfl⟩
abbrev main_call14_v4 : Ref sig .tc := ⟨.hbm, 207, rfl⟩
abbrev main_v114 : Ref sig .tc := ⟨.hbm, 208, rfl⟩
abbrev main_call15_v0 : Ref sig .tc := ⟨.hbm, 209, rfl⟩
abbrev main_call15_v1 : Ref sig .tc := ⟨.hbm, 210, rfl⟩
abbrev main_call15_v2 : Ref sig .tc := ⟨.hbm, 211, rfl⟩
abbrev main_call15_v3 : Ref sig .tc := ⟨.hbm, 212, rfl⟩
abbrev main_call15_v4 : Ref sig .tc := ⟨.hbm, 213, rfl⟩
abbrev main_v115 : Ref sig .tc := ⟨.hbm, 214, rfl⟩
abbrev main_v116 : Ref sig .tc := ⟨.hbm, 215, rfl⟩
abbrev main_cst_20 : Ref sig .tc := ⟨.hbm, 216, rfl⟩
abbrev main_v117 : Ref sig .tc := ⟨.hbm, 217, rfl⟩
abbrev main_call16_v0 : Ref sig .tc := ⟨.hbm, 218, rfl⟩
abbrev main_call16_v1 : Ref sig .tc := ⟨.hbm, 219, rfl⟩
abbrev main_call16_v2 : Ref sig .tc := ⟨.hbm, 220, rfl⟩
abbrev main_call16_v3 : Ref sig .tc := ⟨.hbm, 221, rfl⟩
abbrev main_v118 : Ref sig .tc := ⟨.hbm, 222, rfl⟩
abbrev main_call17_v0 : Ref sig .tc := ⟨.hbm, 223, rfl⟩
abbrev main_call17_v1 : Ref sig .tc := ⟨.hbm, 224, rfl⟩
abbrev main_call17_v2 : Ref sig .tc := ⟨.hbm, 225, rfl⟩
abbrev main_call17_v3 : Ref sig .tc := ⟨.hbm, 226, rfl⟩
abbrev main_call17_v4 : Ref sig .tc := ⟨.hbm, 227, rfl⟩
abbrev main_v119 : Ref sig .tc := ⟨.hbm, 228, rfl⟩
abbrev main_call18_v0 : Ref sig .tc := ⟨.hbm, 229, rfl⟩
abbrev main_call18_v1 : Ref sig .tc := ⟨.hbm, 230, rfl⟩
abbrev main_call18_v2 : Ref sig .tc := ⟨.hbm, 231, rfl⟩
abbrev main_call18_v3 : Ref sig .tc := ⟨.hbm, 232, rfl⟩
abbrev main_call18_v4 : Ref sig .tc := ⟨.hbm, 233, rfl⟩
abbrev main_v120 : Ref sig .tc := ⟨.hbm, 234, rfl⟩
abbrev main_v121 : Ref sig .tc := ⟨.hbm, 235, rfl⟩
abbrev main_cst_21 : Ref sig .tc := ⟨.hbm, 236, rfl⟩
abbrev main_v122 : Ref sig .tc := ⟨.hbm, 237, rfl⟩
abbrev main_call19_v0 : Ref sig .tc := ⟨.hbm, 238, rfl⟩
abbrev main_call19_v1 : Ref sig .tc := ⟨.hbm, 239, rfl⟩
abbrev main_call19_v2 : Ref sig .tc := ⟨.hbm, 240, rfl⟩
abbrev main_call19_v3 : Ref sig .tc := ⟨.hbm, 241, rfl⟩
abbrev main_v123 : Ref sig .tc := ⟨.hbm, 242, rfl⟩
abbrev main_call20_v0 : Ref sig .tc := ⟨.hbm, 243, rfl⟩
abbrev main_call20_v1 : Ref sig .tc := ⟨.hbm, 244, rfl⟩
abbrev main_call20_v2 : Ref sig .tc := ⟨.hbm, 245, rfl⟩
abbrev main_call20_v3 : Ref sig .tc := ⟨.hbm, 246, rfl⟩
abbrev main_call20_v4 : Ref sig .tc := ⟨.hbm, 247, rfl⟩
abbrev main_v124 : Ref sig .tc := ⟨.hbm, 248, rfl⟩
abbrev main_call21_v0 : Ref sig .tc := ⟨.hbm, 249, rfl⟩
abbrev main_call21_v1 : Ref sig .tc := ⟨.hbm, 250, rfl⟩
abbrev main_call21_v2 : Ref sig .tc := ⟨.hbm, 251, rfl⟩
abbrev main_call21_v3 : Ref sig .tc := ⟨.hbm, 252, rfl⟩
abbrev main_call21_v4 : Ref sig .tc := ⟨.hbm, 253, rfl⟩
abbrev main_v125 : Ref sig .tc := ⟨.hbm, 254, rfl⟩
abbrev main_v126 : Ref sig .tc := ⟨.hbm, 255, rfl⟩
abbrev main_cst_22 : Ref sig .tc := ⟨.hbm, 256, rfl⟩
abbrev main_v127 : Ref sig .tc := ⟨.hbm, 257, rfl⟩
abbrev main_call22_v0 : Ref sig .tc := ⟨.hbm, 258, rfl⟩
abbrev main_call22_v1 : Ref sig .tc := ⟨.hbm, 259, rfl⟩
abbrev main_call22_v2 : Ref sig .tc := ⟨.hbm, 260, rfl⟩
abbrev main_call22_v3 : Ref sig .tc := ⟨.hbm, 261, rfl⟩
abbrev main_v128 : Ref sig .tc := ⟨.hbm, 262, rfl⟩
abbrev main_call23_v0 : Ref sig .tc := ⟨.hbm, 263, rfl⟩
abbrev main_call23_v1 : Ref sig .tc := ⟨.hbm, 264, rfl⟩
abbrev main_call23_v2 : Ref sig .tc := ⟨.hbm, 265, rfl⟩
abbrev main_call23_v3 : Ref sig .tc := ⟨.hbm, 266, rfl⟩
abbrev main_call23_v4 : Ref sig .tc := ⟨.hbm, 267, rfl⟩
abbrev main_v129 : Ref sig .tc := ⟨.hbm, 268, rfl⟩
abbrev main_call24_v0 : Ref sig .tc := ⟨.hbm, 269, rfl⟩
abbrev main_call24_v1 : Ref sig .tc := ⟨.hbm, 270, rfl⟩
abbrev main_call24_v2 : Ref sig .tc := ⟨.hbm, 271, rfl⟩
abbrev main_call24_v3 : Ref sig .tc := ⟨.hbm, 272, rfl⟩
abbrev main_call24_v4 : Ref sig .tc := ⟨.hbm, 273, rfl⟩
abbrev main_v130 : Ref sig .tc := ⟨.hbm, 274, rfl⟩
abbrev main_v131 : Ref sig .tc := ⟨.hbm, 275, rfl⟩
abbrev main_cst_23 : Ref sig .tc := ⟨.hbm, 276, rfl⟩
abbrev main_v132 : Ref sig .tc := ⟨.hbm, 277, rfl⟩
abbrev main_call25_v0 : Ref sig .tc := ⟨.hbm, 278, rfl⟩
abbrev main_call25_v1 : Ref sig .tc := ⟨.hbm, 279, rfl⟩
abbrev main_call25_v2 : Ref sig .tc := ⟨.hbm, 280, rfl⟩
abbrev main_call25_v3 : Ref sig .tc := ⟨.hbm, 281, rfl⟩
abbrev main_v133 : Ref sig .tc := ⟨.hbm, 282, rfl⟩
abbrev main_call26_v0 : Ref sig .tc := ⟨.hbm, 283, rfl⟩
abbrev main_call26_v1 : Ref sig .tc := ⟨.hbm, 284, rfl⟩
abbrev main_call26_v2 : Ref sig .tc := ⟨.hbm, 285, rfl⟩
abbrev main_call26_v3 : Ref sig .tc := ⟨.hbm, 286, rfl⟩
abbrev main_call26_v4 : Ref sig .tc := ⟨.hbm, 287, rfl⟩
abbrev main_v134 : Ref sig .tc := ⟨.hbm, 288, rfl⟩
abbrev main_call27_v0 : Ref sig .tc := ⟨.hbm, 289, rfl⟩
abbrev main_call27_v1 : Ref sig .tc := ⟨.hbm, 290, rfl⟩
abbrev main_call27_v2 : Ref sig .tc := ⟨.hbm, 291, rfl⟩
abbrev main_call27_v3 : Ref sig .tc := ⟨.hbm, 292, rfl⟩
abbrev main_call27_v4 : Ref sig .tc := ⟨.hbm, 293, rfl⟩
abbrev main_v135 : Ref sig .tc := ⟨.hbm, 294, rfl⟩
abbrev main_v136 : Ref sig .tc := ⟨.hbm, 295, rfl⟩
abbrev main_v137 : Ref sig .tc := ⟨.hbm, 296, rfl⟩
abbrev main_v138 : Ref sig .tc := ⟨.hbm, 297, rfl⟩
abbrev main_cst_24 : Ref sig .tc := ⟨.hbm, 298, rfl⟩
abbrev main_v139 : Ref sig .tc := ⟨.hbm, 299, rfl⟩
abbrev main_v140 : Ref sig .tc := ⟨.hbm, 300, rfl⟩
abbrev main_v141 : Ref sig .tc := ⟨.hbm, 301, rfl⟩
abbrev main_cst_25 : Ref sig .tc := ⟨.hbm, 302, rfl⟩
abbrev main_v142 : Ref sig .tc := ⟨.hbm, 303, rfl⟩
abbrev main_v143 : Ref sig .tc := ⟨.hbm, 304, rfl⟩
abbrev main_cst_26 : Ref sig .tc := ⟨.hbm, 305, rfl⟩
abbrev main_v144 : Ref sig .tc := ⟨.hbm, 306, rfl⟩
abbrev main_v145 : Ref sig .tc := ⟨.hbm, 307, rfl⟩
abbrev main_v146 : Ref sig .tc := ⟨.hbm, 308, rfl⟩
abbrev main_v147 : Ref sig .tc := ⟨.hbm, 309, rfl⟩
abbrev main_v148 : Ref sig .tc := ⟨.hbm, 310, rfl⟩
abbrev main_v149 : Ref sig .tc := ⟨.hbm, 311, rfl⟩
abbrev main_v150 : Ref sig .tc := ⟨.hbm, 312, rfl⟩
abbrev main_v151 : Ref sig .tc := ⟨.hbm, 313, rfl⟩
abbrev main_v152 : Ref sig .tc := ⟨.hbm, 314, rfl⟩
abbrev main_v153 : Ref sig .tc := ⟨.hbm, 315, rfl⟩
abbrev main_v154 : Ref sig .tc := ⟨.hbm, 316, rfl⟩
abbrev main_v155 : Ref sig .tc := ⟨.hbm, 317, rfl⟩
abbrev main_call28_v0 : Ref sig .tc := ⟨.hbm, 318, rfl⟩
abbrev main_call28_v1 : Ref sig .tc := ⟨.hbm, 319, rfl⟩
abbrev main_call28_v2 : Ref sig .tc := ⟨.hbm, 320, rfl⟩
abbrev main_call28_v3 : Ref sig .tc := ⟨.hbm, 321, rfl⟩
abbrev main_v156 : Ref sig .tc := ⟨.hbm, 322, rfl⟩
abbrev main_v157 : Ref sig .tc := ⟨.hbm, 323, rfl⟩
abbrev main_v158 : Ref sig .tc := ⟨.hbm, 324, rfl⟩
abbrev main_cst_27 : Ref sig .tc := ⟨.hbm, 325, rfl⟩
abbrev main_v159 : Ref sig .tc := ⟨.hbm, 326, rfl⟩
abbrev main_v160 : Ref sig .tc := ⟨.hbm, 327, rfl⟩
abbrev main_cst_28 : Ref sig .tc := ⟨.hbm, 328, rfl⟩
abbrev main_v161 : Ref sig .tc := ⟨.hbm, 329, rfl⟩
abbrev main_v162 : Ref sig .tc := ⟨.hbm, 330, rfl⟩
abbrev main_v163 : Ref sig .tc := ⟨.hbm, 331, rfl⟩
abbrev main_v164 : Ref sig .tc := ⟨.hbm, 332, rfl⟩
abbrev main_v165 : Ref sig .tc := ⟨.hbm, 333, rfl⟩
abbrev main_v166 : Ref sig .tc := ⟨.hbm, 334, rfl⟩
abbrev main_v167 : Ref sig .tc := ⟨.hbm, 335, rfl⟩
abbrev main_v168 : Ref sig .tc := ⟨.hbm, 336, rfl⟩
abbrev main_v169 : Ref sig .tc := ⟨.hbm, 337, rfl⟩
abbrev main_v170 : Ref sig .tc := ⟨.hbm, 338, rfl⟩
abbrev main_v171 : Ref sig .tc := ⟨.hbm, 339, rfl⟩
abbrev main_v172 : Ref sig .tc := ⟨.hbm, 340, rfl⟩
abbrev main_call29_v0 : Ref sig .tc := ⟨.hbm, 341, rfl⟩
abbrev main_call29_v1 : Ref sig .tc := ⟨.hbm, 342, rfl⟩
abbrev main_call29_v2 : Ref sig .tc := ⟨.hbm, 343, rfl⟩
abbrev main_call29_v3 : Ref sig .tc := ⟨.hbm, 344, rfl⟩
abbrev main_call29_v4 : Ref sig .tc := ⟨.hbm, 345, rfl⟩
abbrev main_v173 : Ref sig .tc := ⟨.hbm, 346, rfl⟩
abbrev main_v174 : Ref sig .tc := ⟨.hbm, 347, rfl⟩
abbrev main_v175 : Ref sig .tc := ⟨.hbm, 348, rfl⟩
abbrev main_cst_29 : Ref sig .tc := ⟨.hbm, 349, rfl⟩
abbrev main_v176 : Ref sig .tc := ⟨.hbm, 350, rfl⟩
abbrev main_v177 : Ref sig .tc := ⟨.hbm, 351, rfl⟩
abbrev main_cst_30 : Ref sig .tc := ⟨.hbm, 352, rfl⟩
abbrev main_v178 : Ref sig .tc := ⟨.hbm, 353, rfl⟩
abbrev main_v179 : Ref sig .tc := ⟨.hbm, 354, rfl⟩
abbrev main_v180 : Ref sig .tc := ⟨.hbm, 355, rfl⟩
abbrev main_v181 : Ref sig .tc := ⟨.hbm, 356, rfl⟩
abbrev main_v182 : Ref sig .tc := ⟨.hbm, 357, rfl⟩
abbrev main_v183 : Ref sig .tc := ⟨.hbm, 358, rfl⟩
abbrev main_v184 : Ref sig .tc := ⟨.hbm, 359, rfl⟩
abbrev main_v185 : Ref sig .tc := ⟨.hbm, 360, rfl⟩
abbrev main_v186 : Ref sig .tc := ⟨.hbm, 361, rfl⟩
abbrev main_v187 : Ref sig .tc := ⟨.hbm, 362, rfl⟩
abbrev main_v188 : Ref sig .tc := ⟨.hbm, 363, rfl⟩
abbrev main_v189 : Ref sig .tc := ⟨.hbm, 364, rfl⟩
abbrev main_call30_v0 : Ref sig .tc := ⟨.hbm, 365, rfl⟩
abbrev main_call30_v1 : Ref sig .tc := ⟨.hbm, 366, rfl⟩
abbrev main_call30_v2 : Ref sig .tc := ⟨.hbm, 367, rfl⟩
abbrev main_call30_v3 : Ref sig .tc := ⟨.hbm, 368, rfl⟩
abbrev main_call30_v4 : Ref sig .tc := ⟨.hbm, 369, rfl⟩
abbrev main_v190 : Ref sig .tc := ⟨.hbm, 370, rfl⟩
abbrev main_v191 : Ref sig .tc := ⟨.hbm, 371, rfl⟩
abbrev main_v192 : Ref sig .tc := ⟨.hbm, 372, rfl⟩
abbrev main_cst_31 : Ref sig .tc := ⟨.hbm, 373, rfl⟩
abbrev main_v193 : Ref sig .tc := ⟨.hbm, 374, rfl⟩
abbrev main_v194 : Ref sig .tc := ⟨.hbm, 375, rfl⟩
abbrev main_cst_32 : Ref sig .tc := ⟨.hbm, 376, rfl⟩
abbrev main_v195 : Ref sig .tc := ⟨.hbm, 377, rfl⟩
abbrev main_v196 : Ref sig .tc := ⟨.hbm, 378, rfl⟩
abbrev main_v197 : Ref sig .tc := ⟨.hbm, 379, rfl⟩
abbrev main_v198 : Ref sig .tc := ⟨.hbm, 380, rfl⟩
abbrev main_v199 : Ref sig .tc := ⟨.hbm, 381, rfl⟩
abbrev main_v200 : Ref sig .tc := ⟨.hbm, 382, rfl⟩
abbrev main_v201 : Ref sig .tc := ⟨.hbm, 383, rfl⟩
abbrev main_v202 : Ref sig .tc := ⟨.hbm, 384, rfl⟩
abbrev main_v203 : Ref sig .tc := ⟨.hbm, 385, rfl⟩
abbrev main_v204 : Ref sig .tc := ⟨.hbm, 386, rfl⟩
abbrev main_v205 : Ref sig .tc := ⟨.hbm, 387, rfl⟩
abbrev main_v206 : Ref sig .tc := ⟨.hbm, 388, rfl⟩
abbrev main_call31_v0 : Ref sig .tc := ⟨.hbm, 389, rfl⟩
abbrev main_call31_v1 : Ref sig .tc := ⟨.hbm, 390, rfl⟩
abbrev main_call31_v2 : Ref sig .tc := ⟨.hbm, 391, rfl⟩
abbrev main_call31_v3 : Ref sig .tc := ⟨.hbm, 392, rfl⟩
abbrev main_call31_v4 : Ref sig .tc := ⟨.hbm, 393, rfl⟩
abbrev main_v207 : Ref sig .tc := ⟨.hbm, 394, rfl⟩
abbrev main_v208 : Ref sig .tc := ⟨.hbm, 395, rfl⟩
abbrev main_v209 : Ref sig .tc := ⟨.hbm, 396, rfl⟩
abbrev main_v210 : Ref sig .tc := ⟨.hbm, 397, rfl⟩
abbrev main_cst_33 : Ref sig .tc := ⟨.hbm, 398, rfl⟩
abbrev main_v211 : Ref sig .tc := ⟨.hbm, 399, rfl⟩
abbrev main_v212 : Ref sig .tc := ⟨.hbm, 400, rfl⟩
abbrev main_v213 : Ref sig .tc := ⟨.hbm, 401, rfl⟩
abbrev main_cst_34 : Ref sig .tc := ⟨.hbm, 402, rfl⟩
abbrev main_v214 : Ref sig .tc := ⟨.hbm, 403, rfl⟩
abbrev main_v215 : Ref sig .tc := ⟨.hbm, 404, rfl⟩
abbrev main_v216 : Ref sig .tc := ⟨.hbm, 405, rfl⟩
abbrev main_v217 : Ref sig .tc := ⟨.hbm, 406, rfl⟩
abbrev main_v218 : Ref sig .tc := ⟨.hbm, 407, rfl⟩
abbrev main_v219 : Ref sig .tc := ⟨.hbm, 408, rfl⟩
abbrev main_cst_35 : Ref sig .tc := ⟨.hbm, 409, rfl⟩
abbrev main_v220 : Ref sig .tc := ⟨.hbm, 410, rfl⟩
abbrev main_call32_v0 : Ref sig .tc := ⟨.hbm, 411, rfl⟩
abbrev main_call32_v1 : Ref sig .tc := ⟨.hbm, 412, rfl⟩
abbrev main_v221 : Ref sig .tc := ⟨.hbm, 413, rfl⟩
abbrev main_v222 : Ref sig .tc := ⟨.hbm, 414, rfl⟩
abbrev main_v223 : Ref sig .tc := ⟨.hbm, 415, rfl⟩
abbrev main_v224 : Ref sig .tc := ⟨.hbm, 416, rfl⟩
abbrev main_cst_36 : Ref sig .tc := ⟨.hbm, 417, rfl⟩
abbrev main_v225 : Ref sig .tc := ⟨.hbm, 418, rfl⟩
abbrev main_v226 : Ref sig .tc := ⟨.hbm, 419, rfl⟩
abbrev main_v227 : Ref sig .tc := ⟨.hbm, 420, rfl⟩
abbrev main_v228 : Ref sig .tc := ⟨.hbm, 421, rfl⟩
abbrev main_v229 : Ref sig .tc := ⟨.hbm, 422, rfl⟩
abbrev main_v230 : Ref sig .tc := ⟨.hbm, 423, rfl⟩
abbrev main_cst_37 : Ref sig .tc := ⟨.hbm, 424, rfl⟩
abbrev main_v231 : Ref sig .tc := ⟨.hbm, 425, rfl⟩
abbrev main_call33_v0 : Ref sig .tc := ⟨.hbm, 426, rfl⟩
abbrev main_call33_v1 : Ref sig .tc := ⟨.hbm, 427, rfl⟩
abbrev main_v232 : Ref sig .tc := ⟨.hbm, 428, rfl⟩
abbrev main_v233 : Ref sig .tc := ⟨.hbm, 429, rfl⟩
abbrev main_v234 : Ref sig .tc := ⟨.hbm, 430, rfl⟩
abbrev main_v235 : Ref sig .tc := ⟨.hbm, 431, rfl⟩
abbrev main_cst_38 : Ref sig .tc := ⟨.hbm, 432, rfl⟩
abbrev main_v236 : Ref sig .tc := ⟨.hbm, 433, rfl⟩
abbrev main_v237 : Ref sig .tc := ⟨.hbm, 434, rfl⟩
abbrev main_v238 : Ref sig .tc := ⟨.hbm, 435, rfl⟩
abbrev main_v239 : Ref sig .tc := ⟨.hbm, 436, rfl⟩
abbrev main_v240 : Ref sig .tc := ⟨.hbm, 437, rfl⟩
abbrev main_v241 : Ref sig .tc := ⟨.hbm, 438, rfl⟩
abbrev main_cst_39 : Ref sig .tc := ⟨.hbm, 439, rfl⟩
abbrev main_v242 : Ref sig .tc := ⟨.hbm, 440, rfl⟩
abbrev main_call34_v0 : Ref sig .tc := ⟨.hbm, 441, rfl⟩
abbrev main_call34_v1 : Ref sig .tc := ⟨.hbm, 442, rfl⟩
abbrev main_v243 : Ref sig .tc := ⟨.hbm, 443, rfl⟩
abbrev main_v244 : Ref sig .tc := ⟨.hbm, 444, rfl⟩
abbrev main_v245 : Ref sig .tc := ⟨.hbm, 445, rfl⟩
abbrev main_v246 : Ref sig .tc := ⟨.hbm, 446, rfl⟩
abbrev main_cst_40 : Ref sig .tc := ⟨.hbm, 447, rfl⟩
abbrev main_v247 : Ref sig .tc := ⟨.hbm, 448, rfl⟩
abbrev main_v248 : Ref sig .tc := ⟨.hbm, 449, rfl⟩
abbrev main_v249 : Ref sig .tc := ⟨.hbm, 450, rfl⟩
abbrev main_v250 : Ref sig .tc := ⟨.hbm, 451, rfl⟩
abbrev main_v251 : Ref sig .tc := ⟨.hbm, 452, rfl⟩
abbrev main_v252 : Ref sig .tc := ⟨.hbm, 453, rfl⟩
abbrev main_cst_41 : Ref sig .tc := ⟨.hbm, 454, rfl⟩
abbrev main_v253 : Ref sig .tc := ⟨.hbm, 455, rfl⟩
abbrev main_call35_v0 : Ref sig .tc := ⟨.hbm, 456, rfl⟩
abbrev main_call35_v1 : Ref sig .tc := ⟨.hbm, 457, rfl⟩
abbrev main_v254 : Ref sig .tc := ⟨.hbm, 458, rfl⟩
abbrev main_v255 : Ref sig .tc := ⟨.hbm, 459, rfl⟩
abbrev main_v256 : Ref sig .tc := ⟨.hbm, 460, rfl⟩
abbrev main_v257 : Ref sig .tc := ⟨.hbm, 461, rfl⟩
abbrev main_cst_42 : Ref sig .tc := ⟨.hbm, 462, rfl⟩
abbrev main_v258 : Ref sig .tc := ⟨.hbm, 463, rfl⟩
abbrev main_v259 : Ref sig .tc := ⟨.hbm, 464, rfl⟩
abbrev main_v260 : Ref sig .tc := ⟨.hbm, 465, rfl⟩
abbrev main_v261 : Ref sig .tc := ⟨.hbm, 466, rfl⟩
abbrev main_cst_43 : Ref sig .tc := ⟨.hbm, 467, rfl⟩
abbrev main_v262 : Ref sig .tc := ⟨.hbm, 468, rfl⟩
abbrev main_v263 : Ref sig .tc := ⟨.hbm, 469, rfl⟩
abbrev main_v264 : Ref sig .tc := ⟨.hbm, 470, rfl⟩
abbrev main_v265 : Ref sig .tc := ⟨.hbm, 471, rfl⟩
abbrev main_cst_44 : Ref sig .tc := ⟨.hbm, 472, rfl⟩
abbrev main_v266 : Ref sig .tc := ⟨.hbm, 473, rfl⟩
abbrev main_v267 : Ref sig .tc := ⟨.hbm, 474, rfl⟩
abbrev main_call36_v0 : Ref sig .tc := ⟨.hbm, 475, rfl⟩
abbrev main_call36_v1 : Ref sig .tc := ⟨.hbm, 476, rfl⟩
abbrev main_call36_v2 : Ref sig .tc := ⟨.hbm, 477, rfl⟩
abbrev main_v268 : Ref sig .tc := ⟨.hbm, 478, rfl⟩
abbrev main_v269 : Ref sig .tc := ⟨.hbm, 479, rfl⟩
abbrev main_v270 : Ref sig .tc := ⟨.hbm, 480, rfl⟩
abbrev main_v271 : Ref sig .tc := ⟨.hbm, 481, rfl⟩
abbrev main_v272 : Ref sig .tc := ⟨.hbm, 482, rfl⟩
abbrev main_cst_45 : Ref sig .tc := ⟨.hbm, 483, rfl⟩
abbrev main_v273 : Ref sig .tc := ⟨.hbm, 484, rfl⟩
abbrev main_v274 : Ref sig .tc := ⟨.hbm, 485, rfl⟩
abbrev main_v275 : Ref sig .tc := ⟨.hbm, 486, rfl⟩
abbrev main_v276 : Ref sig .tc := ⟨.hbm, 487, rfl⟩
abbrev main_cst_46 : Ref sig .tc := ⟨.hbm, 488, rfl⟩
abbrev main_v277 : Ref sig .tc := ⟨.hbm, 489, rfl⟩
abbrev main_v278 : Ref sig .tc := ⟨.hbm, 490, rfl⟩
abbrev main_call37_v0 : Ref sig .tc := ⟨.hbm, 491, rfl⟩
abbrev main_call37_v1 : Ref sig .tc := ⟨.hbm, 492, rfl⟩
abbrev main_call37_v2 : Ref sig .tc := ⟨.hbm, 493, rfl⟩
abbrev main_v279 : Ref sig .tc := ⟨.hbm, 494, rfl⟩
abbrev main_v280 : Ref sig .tc := ⟨.hbm, 495, rfl⟩
abbrev main_v281 : Ref sig .tc := ⟨.hbm, 496, rfl⟩
abbrev main_v282 : Ref sig .tc := ⟨.hbm, 497, rfl⟩
abbrev main_v283 : Ref sig .tc := ⟨.hbm, 498, rfl⟩
abbrev main_cst_47 : Ref sig .tc := ⟨.hbm, 499, rfl⟩
abbrev main_v284 : Ref sig .tc := ⟨.hbm, 500, rfl⟩
abbrev main_v285 : Ref sig .tc := ⟨.hbm, 501, rfl⟩
abbrev main_v286 : Ref sig .tc := ⟨.hbm, 502, rfl⟩
abbrev main_v287 : Ref sig .tc := ⟨.hbm, 503, rfl⟩
abbrev main_cst_48 : Ref sig .tc := ⟨.hbm, 504, rfl⟩
abbrev main_v288 : Ref sig .tc := ⟨.hbm, 505, rfl⟩
abbrev main_v289 : Ref sig .tc := ⟨.hbm, 506, rfl⟩
abbrev main_call38_v0 : Ref sig .tc := ⟨.hbm, 507, rfl⟩
abbrev main_call38_v1 : Ref sig .tc := ⟨.hbm, 508, rfl⟩
abbrev main_call38_v2 : Ref sig .tc := ⟨.hbm, 509, rfl⟩
abbrev main_v290 : Ref sig .tc := ⟨.hbm, 510, rfl⟩
abbrev main_v291 : Ref sig .tc := ⟨.hbm, 511, rfl⟩
abbrev main_v292 : Ref sig .tc := ⟨.hbm, 512, rfl⟩
abbrev main_v293 : Ref sig .tc := ⟨.hbm, 513, rfl⟩
abbrev main_v294 : Ref sig .tc := ⟨.hbm, 514, rfl⟩
abbrev main_cst_49 : Ref sig .tc := ⟨.hbm, 515, rfl⟩
abbrev main_v295 : Ref sig .tc := ⟨.hbm, 516, rfl⟩
abbrev main_v296 : Ref sig .tc := ⟨.hbm, 517, rfl⟩
abbrev main_v297 : Ref sig .tc := ⟨.hbm, 518, rfl⟩
abbrev main_v298 : Ref sig .tc := ⟨.hbm, 519, rfl⟩
abbrev main_cst_50 : Ref sig .tc := ⟨.hbm, 520, rfl⟩
abbrev main_v299 : Ref sig .tc := ⟨.hbm, 521, rfl⟩
abbrev main_v300 : Ref sig .tc := ⟨.hbm, 522, rfl⟩
abbrev main_call39_v0 : Ref sig .tc := ⟨.hbm, 523, rfl⟩
abbrev main_call39_v1 : Ref sig .tc := ⟨.hbm, 524, rfl⟩
abbrev main_call39_v2 : Ref sig .tc := ⟨.hbm, 525, rfl⟩
abbrev main_v301 : Ref sig .tc := ⟨.hbm, 526, rfl⟩
abbrev main_v302 : Ref sig .tc := ⟨.hbm, 527, rfl⟩
abbrev main_v303 : Ref sig .tc := ⟨.hbm, 528, rfl⟩
abbrev main_v304 : Ref sig .tc := ⟨.hbm, 529, rfl⟩
abbrev main_v305 : Ref sig .tc := ⟨.hbm, 530, rfl⟩
abbrev main_v306 : Ref sig .tc := ⟨.hbm, 531, rfl⟩
abbrev main_v307 : Ref sig .tc := ⟨.hbm, 532, rfl⟩
abbrev main_v308 : Ref sig .tc := ⟨.hbm, 533, rfl⟩
abbrev main_v309 : Ref sig .tc := ⟨.hbm, 534, rfl⟩

abbrev nD : Nat := 1
abbrev τ : Topo := Topo.v7x

variable {F : FTy → Type} [FloatOps F]

class Facts₀ : Prop where
  slices_S8_S4_0 : S8.Slices ![0] S4
  bcast_S_S1x1 : S_.BroadcastsInDim S1x1 (![] : Fin 0 → Fin S1x1.rank)
  slices_S4_S1_0 : S4.Slices ![0] S1
  shapeCasts_S1_S_ : S1.ShapeCasts S_
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  bcast_S2x2_S2x1x2x1_0_2 : S2x2.BroadcastsInDim S2x1x2x1 (![0, 2] : Fin 2 → Fin S2x1x2x1.rank)
  bcast_S1x1_S1x1x1x1_1_3 : S1x1.BroadcastsInDim S1x1x1x1 (![1, 3] : Fin 2 → Fin S1x1x1x1.rank)
  bcast_S1x1x1x1_S2x1x2x1_0_1_2_3 : S1x1x1x1.BroadcastsInDim S2x1x2x1 (![0, 1, 2, 3] : Fin 4 → Fin S2x1x2x1.rank)
  shapeCasts_S2x1x2x1_S2x2 : S2x1x2x1.ShapeCasts S2x2
  slices_S4_S1_1 : S4.Slices ![1] S1
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  slices_S4_S1_2 : S4.Slices ![2] S1
  bcast_S4x4_S1x4x1x4_1_3 : S4x4.BroadcastsInDim S1x4x1x4 (![1, 3] : Fin 2 → Fin S1x4x1x4.rank)
  bcast_S2x1x2x1_S2x4x2x4_0_1_2_3 : S2x1x2x1.BroadcastsInDim S2x4x2x4 (![0, 1, 2, 3] : Fin 4 → Fin S2x4x2x4.rank)
  bcast_S1x4x1x4_S2x4x2x4_0_1_2_3 : S1x4x1x4.BroadcastsInDim S2x4x2x4 (![0, 1, 2, 3] : Fin 4 → Fin S2x4x2x4.rank)
  shapeCasts_S2x4x2x4_S8x8 : S2x4x2x4.ShapeCasts S8x8
  slices_S4_S1_3 : S4.Slices ![3] S1
  bcast_S8x8_S1x8x1x8_1_3 : S8x8.BroadcastsInDim S1x8x1x8 (![1, 3] : Fin 2 → Fin S1x8x1x8.rank)
  bcast_S2x1x2x1_S2x8x2x8_0_1_2_3 : S2x1x2x1.BroadcastsInDim S2x8x2x8 (![0, 1, 2, 3] : Fin 4 → Fin S2x8x2x8.rank)
  bcast_S1x8x1x8_S2x8x2x8_0_1_2_3 : S1x8x1x8.BroadcastsInDim S2x8x2x8 (![0, 1, 2, 3] : Fin 4 → Fin S2x8x2x8.rank)
  shapeCasts_S2x8x2x8_S16x16 : S2x8x2x8.ShapeCasts S16x16
  bcast_S_S16x16 : S_.BroadcastsInDim S16x16 (![] : Fin 0 → Fin S16x16.rank)
  bcast_S4x4_S4x1x4x1_0_2 : S4x4.BroadcastsInDim S4x1x4x1 (![0, 2] : Fin 2 → Fin S4x1x4x1.rank)
  bcast_S4x1x4x1_S4x4x4x4_0_1_2_3 : S4x1x4x1.BroadcastsInDim S4x4x4x4 (![0, 1, 2, 3] : Fin 4 → Fin S4x4x4x4.rank)
  bcast_S1x4x1x4_S4x4x4x4_0_1_2_3 : S1x4x1x4.BroadcastsInDim S4x4x4x4 (![0, 1, 2, 3] : Fin 4 → Fin S4x4x4x4.rank)
  shapeCasts_S4x4x4x4_S16x16 : S4x4x4x4.ShapeCasts S16x16
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S1x1x1x1_S4x1x4x1_0_1_2_3 : S1x1x1x1.BroadcastsInDim S4x1x4x1 (![0, 1, 2, 3] : Fin 4 → Fin S4x1x4x1.rank)
  shapeCasts_S4x1x4x1_S4x4 : S4x1x4x1.ShapeCasts S4x4
  slices_S8_S4_4 : S8.Slices ![4] S4
  slices_S2097152x4_S1x4_0_0 : S2097152x4.Slices ![0, 0] S1x4
  shapeCasts_S1x4_S4 : S1x4.ShapeCasts S4
  bcast_S_S16 : S_.BroadcastsInDim S16 (![] : Fin 0 → Fin S16.rank)
  slices_S16x4_S16x1_0_0 : S16x4.Slices ![0, 0] S16x1
  shapeCasts_S16x1_S16 : S16x1.ShapeCasts S16
  slices_S16x4_S16x1_0_1 : S16x4.Slices ![0, 1] S16x1
  slices_S16x4_S16x1_0_2 : S16x4.Slices ![0, 2] S16x1
  slices_S16x4_S16x1_0_3 : S16x4.Slices ![0, 3] S16x1
  slices_S2097152x4_S2097151x4_1_0 : S2097152x4.Slices ![1, 0] S2097151x4
  bcast_S_S2097151x16 : S_.BroadcastsInDim S2097151x16 (![] : Fin 0 → Fin S2097151x16.rank)
  bcast_S16_S1x16_1 : S16.BroadcastsInDim S1x16 (![1] : Fin 1 → Fin S1x16.rank)
  bcast_S_S1x16 : S_.BroadcastsInDim S1x16 (![] : Fin 0 → Fin S1x16.rank)
  slices_S2097151x4_S2097151x1_0_0 : S2097151x4.Slices ![0, 0] S2097151x1
  bcast_S_S2097151x1 : S_.BroadcastsInDim S2097151x1 (![] : Fin 0 → Fin S2097151x1.rank)
  bcast_S1x16_S2097151x16_0_1 : S1x16.BroadcastsInDim S2097151x16 (![0, 1] : Fin 2 → Fin S2097151x16.rank)
  bcast_S2097151x1_S2097151x16_0_1 : S2097151x1.BroadcastsInDim S2097151x16 (![0, 1] : Fin 2 → Fin S2097151x16.rank)
  slices_S2097151x4_S2097151x1_0_1 : S2097151x4.Slices ![0, 1] S2097151x1
  slices_S2097151x4_S2097151x1_0_2 : S2097151x4.Slices ![0, 2] S2097151x1
  slices_S2097151x4_S2097151x1_0_3 : S2097151x4.Slices ![0, 3] S2097151x1
  concatenates_S1x16_S2097151x16_S2097152x16_d0 : Shape.Concatenates [S1x16, S2097151x16] S2097152x16 0
  transposes_S16x16_S16x16_1_0 : S16x16.Transposes [1, 0] S16x16
  slices_S2097152x16_S2097152x10_0_0 : S2097152x16.Slices ![0, 0] S2097152x10
  dot_S16x16_S16x16_S16x16_1_0_0_1_n_n_wf : DotDims.WF S16x16 S16x16 S16x16 [1] [0] [0] [1] [] []
  dot_S2097152x16_S16x16_S2097152x16_1_0_0_1_n_n_wf : DotDims.WF S2097152x16 S16x16 S2097152x16 [1] [0] [0] [1] [] []

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf

class Facts : Prop extends Facts₀ where

variable [Facts]
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.KPayload.lean ====
/-
  The kernel body's arithmetic read at one entry, at the ideal values.

  The body works on a block of 32768 samples laid out with the samples along the lanes: `x (j, y)` is entry `j` of sample
  `y`.  For each of the sixteen labels `k` it multiplies four terms `x (j, y)² · s (k, j) + o (k, j)` (the tables `s`, `o`
  are read one column `j` at a time and repeated along the lanes; row `j` of the squared samples is repeated down the
  sixteen labels), takes the square root, multiplies the 10 × 16 matrix `w` by the 16 × 32768 result and squares every
  entry.  For sample 0 of the first block it does the same with the entries themselves in place of their squares, the
  other pair of tables, and no square root.  Read at an entry every one of these operations is the textbook one; the
  changes of float format are the identity.
-/
import proofs.«133008_j10806137716891_2_alg».proof.Proof.Gen.KernelIdeal.Skeleton
import proofs.«133008_j10806137716891_2_alg».proof.Proof.LibPlainDot
import proofs.«133008_j10806137716891_2_alg».proof.Proof.LibHostDot
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.ValueIdx

/-- The bulk product's dimension numbers are the plain M×K by K×N ones. -/
theorem dot_bulk : dot_S10x16_S16x32768_S10x32768_1_0_0_1_n_n = DotDims.plain 10 16 32768 := rfl
/-- So are the one-column product's. -/
theorem dot_col : dot_S10x16_S16x1_S10x1_1_0_0_1_n_n = DotDims.plain 10 16 1 := rfl

set_option maxRecDepth 200000 in
/-- Row `o` of the squared samples, repeated down the sixteen labels, at label `k` and lane `y`: the square of entry `o` of
    sample `y`. -/
theorem sqrow_apply (v0 : Vec Ideal S4x32768 .f32) (o : ℕ) (ho : o < 4) (hs : S4x32768.Slices ![o, 0] S1x32768)
    (h2 : S1x32768.Broadcasts S16x32768) (k : Fin 16) (y : Fin 32768) :
    broadcastTo S16x32768 (extractStridedSlice S1x32768 ![o, 0] (k0_pay5 v0) hs) h2 (ix2 k y)
      = v0 (ix2 (⟨o, ho⟩ : Fin 4) y) * v0 (ix2 (⟨o, ho⟩ : Fin 4) y) := by
  refine (broadcastTo_apply _ h2 (ix2 k y) (ix2 (0 : Fin 1) y) fun a => ?_).trans ?_
  · match a with
    | ⟨0, _⟩ => show (0 : ℕ) = if (1 : ℕ) = 1 then 0 else k.val; rw [if_pos rfl]
    | ⟨1, _⟩ => show y.val = if (32768 : ℕ) = 1 then 0 else y.val; rw [if_neg (by decide)]
  refine (extractStridedSlice_apply (s := S4x32768) (t := S1x32768) ![o, 0] (k0_pay5 v0) hs (ix2 (n0 := 1) (n1 := 32768) (0 : Fin 1) y)
    (ix2 (n0 := 4) (n1 := 32768) (⟨o, ho⟩ : Fin 4) y) fun a => ?_).trans ?_
  · match a with
    | ⟨0, _⟩ => show o = o + 0; omega
    | ⟨1, _⟩ => show y.val = 0 + y.val; omega
  unfold k0_pay5 k0_pay4
  rw [shapeCast_self]
  rfl

/-- A table column repeated along the lanes, at label `k` and lane `y`: the column's entry at `k`. -/
theorem colrep_apply (w : Vec Ideal S16x1 .f32) (h2 : S16x1.Broadcasts S16x32768)
    (k : Fin 16) (y : Fin 32768) :
    broadcastTo S16x32768 w h2 (ix2 k y) = w (ix2 k (0 : Fin 1)) :=
  Cert.HostDot.broadcastTo_a1_ab_apply w h2 k y

/-- A table column as the body loads it — the 16 × 1 rectangle at column `o` of a 16 × 4 buffer — at row `k`. -/
theorem ldcol_apply (T : Vec Ideal S16x4 .f32) (o : ℕ) (ho : o < 4)
    (inb : ∀ a, (![0, o] : Fin 2 → ℕ) a + S16x1.size a ≤ S16x4.size a) (k : Fin 16) :
    View.ld (Val := Elt Ideal) T (Rect.unit (s := S16x4) ![0, o] S16x1.size inb) (ix2 k (0 : Fin 1)) = T (ix2 k (⟨o, ho⟩ : Fin 4)) := by
  show T ((Rect.unit (s := S16x4) ![0, o] S16x1.size inb).emb (ix2 k (0 : Fin 1))) = _
  refine congrArg T (funext fun a => Fin.ext ?_)
  rw [Rect.emb_apply]
  match a with
  | ⟨0, _⟩ => show 0 + 1 * k.val = k.val; omega
  | ⟨1, _⟩ => show o + 1 * 0 = o; omega

/-! ## The two stores' values -/

/-- The whole-block store's value, as a function of what the body loads: the sample block, the eight table columns and
    the matrix rows. -/
def bulk (x0 : Vec Ideal S4x32768 .f32) (s0 o0 s1 o1 s2 o2 s3 o3 : Vec Ideal S16x1 .f32) (w : Vec Ideal S10x16 .f32) :
    FVec Ideal S10x32768 .f32 :=
  k0_pay2 (k0_pay6 x0 s0 o0 s1 o1 s2 o2) (k0_pay7 x0) (k0_pay8 s3) o3 w

/-- One term of the bulk product at label `k`, lane `y`, position `j`: the squared entry times the sign, plus the offset. -/
abbrev term2 (x0 : Vec Ideal S4x32768 .f32) (s o : Vec Ideal S16x1 .f32) (j : Fin 4) (k : Fin 16) (y : Fin 32768) : EReal :=
  x0 (ix2 j y) * x0 (ix2 j y) * s (ix2 k (0 : Fin 1)) + o (ix2 k (0 : Fin 1))

set_option maxRecDepth 200000 in
/-- The product of the first three terms, as the body computes it. -/
theorem pay6_apply (x0 : Vec Ideal S4x32768 .f32) (s0 o0 s1 o1 s2 o2 : Vec Ideal S16x1 .f32) (k : Fin 16) (y : Fin 32768) :
    k0_pay6 x0 s0 o0 s1 o1 s2 o2 (ix2 k y) = term2 x0 s0 o0 0 k y * term2 x0 s1 o1 1 k y * term2 x0 s2 o2 2 k y := by
  unfold k0_pay6
  simp only [mulf_apply, addf_apply, shapeCast_self]
  rw [sqrow_apply x0 0 (by decide), sqrow_apply x0 1 (by decide), sqrow_apply x0 2 (by decide),
    colrep_apply s0, colrep_apply o0, colrep_apply s1, colrep_apply o1, colrep_apply s2, colrep_apply o2]
  rfl

set_option maxRecDepth 200000 in
/-- THE BULK STORE AT AN ENTRY: row `c` of the matrix against the square roots of the four-term products, squared. -/
theorem bulk_apply (x0 : Vec Ideal S4x32768 .f32) (s0 o0 s1 o1 s2 o2 s3 o3 : Vec Ideal S16x1 .f32) (w : Vec Ideal S10x16 .f32)
    (c : Fin 10) (y : Fin 32768) :
    bulk x0 s0 o0 s1 o1 s2 o2 s3 o3 w (ix2 c y)
      = (∑ k : Fin 16, w (ix2 c k) * Ideal.sqrt (term2 x0 s0 o0 0 k y * term2 x0 s1 o1 1 k y * term2 x0 s2 o2 2 k y * term2 x0 s3 o3 3 k y))
        * (∑ k : Fin 16, w (ix2 c k) * Ideal.sqrt (term2 x0 s0 o0 0 k y * term2 x0 s1 o1 1 k y * term2 x0 s2 o2 2 k y * term2 x0 s3 o3 3 k y)) := by
  unfold bulk k0_pay2
  simp only [mulf_apply]
  have e : ∀ (A : FVec Ideal S10x16 .bf16) (B : FVec Ideal S16x32768 .bf16),
      matmul dot_S10x16_S16x32768_S10x32768_1_0_0_1_n_n none A B (constant S10x32768 .f32 0x00000000#32) (ix2 c y)
        = ∑ k : Fin 16, A (ix2 c k) * B (ix2 k y) := fun A B => Cert.PlainDot.matmul_zero_plain_apply none A B c y
  rw [e]
  congr 1 <;>
  · refine Finset.sum_congr rfl fun k _ => ?_
    unfold k0_pay1 k0_pay7 k0_pay8
    simp only [truncf_apply, shapeCast_self]
    show w (ix2 c k) * Ideal.sqrt (k0_pay6 x0 s0 o0 s1 o1 s2 o2 (ix2 k y) * (_ * _ + _)) = _
    rw [pay6_apply, sqrow_apply x0 3 (by decide), colrep_apply, colrep_apply]
    rfl

/-- The first lane of a block. -/
abbrev lane0 : Fin 32768 := ⟨0, by decide⟩

set_option maxRecDepth 200000 in
/-- Entry `o` of the block's first sample, repeated down the sixteen labels, at label `k`. -/
theorem firstrow_apply (x0 : Vec Ideal S4x32768 .f32) (o : ℕ) (ho : o < 4) (hs1 : S4x32768.Slices ![0, 0] S4x1)
    (hs2 : S4x1.Slices ![o, 0] S1x1) (hb : S1x1.Broadcasts S16x1) (k : Fin 16) :
    broadcastTo S16x1 (extractStridedSlice S1x1 ![o, 0] (extractStridedSlice S4x1 ![0, 0] (k0_pay4 x0) hs1) hs2) hb (ix2 k (0 : Fin 1))
      = x0 (ix2 (⟨o, ho⟩ : Fin 4) lane0) := by
  refine (broadcastTo_apply _ hb (ix2 k (0 : Fin 1)) (ix2 (0 : Fin 1) (0 : Fin 1)) fun a => ?_).trans ?_
  · match a with
    | ⟨0, _⟩ => show (0 : ℕ) = if (1 : ℕ) = 1 then 0 else k.val; rw [if_pos rfl]
    | ⟨1, _⟩ => show (0 : ℕ) = if (1 : ℕ) = 1 then 0 else 0; rw [if_pos rfl]
  refine (extractStridedSlice_apply (s := S4x1) (t := S1x1) ![o, 0] _ hs2 (ix2 (n0 := 1) (n1 := 1) (0 : Fin 1) (0 : Fin 1))
    (ix2 (n0 := 4) (n1 := 1) (⟨o, ho⟩ : Fin 4) (0 : Fin 1)) fun a => ?_).trans ?_
  · match a with
    | ⟨0, _⟩ => show o = o + 0; omega
    | ⟨1, _⟩ => show (0 : ℕ) = 0 + 0; omega
  refine (extractStridedSlice_apply (s := S4x32768) (t := S4x1) ![0, 0] (k0_pay4 x0) hs1 (ix2 (n0 := 4) (n1 := 1) (⟨o, ho⟩ : Fin 4) (0 : Fin 1))
    (ix2 (n0 := 4) (n1 := 32768) (⟨o, ho⟩ : Fin 4) lane0) fun a => ?_).trans ?_
  · match a with
    | ⟨0, _⟩ => show o = 0 + o; omega
    | ⟨1, _⟩ => show (0 : ℕ) = 0 + 0; omega
  unfold k0_pay4
  rw [shapeCast_self]

/-- The one-column store's value, as a function of what the body loads. -/
def patch (x0 : Vec Ideal S4x32768 .f32) (s0 o0 s1 o1 s2 o2 s3 o3 : Vec Ideal S16x1 .f32) (w : Vec Ideal S10x16 .f32) :
    FVec Ideal S10x1 .f32 :=
  k0_pay3 (k0_pay4 x0) w s0 o0 s1 o1 s2 o2 s3 o3

/-- One term of the first sample's product at label `k`, position `j`: the entry times the sign, plus the offset. -/
abbrev term1 (x0 : Vec Ideal S4x32768 .f32) (s o : Vec Ideal S16x1 .f32) (j : Fin 4) (k : Fin 16) : EReal :=
  x0 (ix2 j lane0) * s (ix2 k (0 : Fin 1)) + o (ix2 k (0 : Fin 1))

set_option maxRecDepth 200000 in
/-- THE ONE-COLUMN STORE AT AN ENTRY: row `c` of the matrix against the four-term products over the first sample, squared. -/
theorem patch_apply (x0 : Vec Ideal S4x32768 .f32) (s0 o0 s1 o1 s2 o2 s3 o3 : Vec Ideal S16x1 .f32) (w : Vec Ideal S10x16 .f32)
    (c : Fin 10) :
    patch x0 s0 o0 s1 o1 s2 o2 s3 o3 w (ix2 c (0 : Fin 1))
      = (∑ k : Fin 16, w (ix2 c k) * (term1 x0 s0 o0 0 k * term1 x0 s1 o1 1 k * term1 x0 s2 o2 2 k * term1 x0 s3 o3 3 k))
        * (∑ k : Fin 16, w (ix2 c k) * (term1 x0 s0 o0 0 k * term1 x0 s1 o1 1 k * term1 x0 s2 o2 2 k * term1 x0 s3 o3 3 k)) := by
  unfold patch k0_pay3
  simp only [mulf_apply]
  have e : ∀ (A : FVec Ideal S10x16 .bf16) (B : FVec Ideal S16x1 .bf16),
      matmul dot_S10x16_S16x1_S10x1_1_0_0_1_n_n none A B (constant S10x1 .f32 0x00000000#32) (ix2 c (0 : Fin 1))
        = ∑ k : Fin 16, A (ix2 c k) * B (ix2 k (0 : Fin 1)) := fun A B => Cert.PlainDot.matmul_zero_plain_apply none A B c (0 : Fin 1)
  rw [e]
  congr 1 <;>
  · refine Finset.sum_congr rfl fun k _ => ?_
    unfold k0_pay1
    simp only [truncf_apply, shapeCast_self, mulf_apply, addf_apply]
    rw [firstrow_apply x0 0 (by decide), firstrow_apply x0 1 (by decide), firstrow_apply x0 2 (by decide), firstrow_apply x0 3 (by decide)]
    rfl

end Cert.KernelIdeal.KValue

end
-- ==== Proof.KPieces.lean ====
/-
  What each case of the kernel body leaves in the output block, as values.

  Away from the first grid point the body makes one store of the whole 10 × 32768 block: the bulk value of the sample
  block, the high-end tables' columns and the matrix rows.  At the first grid point it makes that store and then one
  more, of a 10 × 1 column at lane 0: the value computed from the block's first sample and the low-end tables.  So the
  block ends holding the bulk value everywhere except lane 0 of the first point's block, which holds the patch.
  Read at an entry, with the columns resolved to table entries, these are sums over the sixteen labels.
-/
import proofs.«133008_j10806137716891_2_alg».proof.Proof.KernelIdealFrameP
import proofs.«133008_j10806137716891_2_alg».proof.Proof.KPayload
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.GenP Idealize.ShloMosaic.ValueIdx

theorem hz : (![0, 0] : Fin 2 → Nat) = fun _ => 0 := funext fun a => by fin_cases a <;> rfl

/-- Column `o` of a 16 × 4 table as the body loads it. -/
abbrev col (T : Vec Ideal S16x4 .f32) (o : ℕ) (inb : ∀ a, (![0, o] : Fin 2 → ℕ) a + (![16, 1] : Fin 2 → ℕ) a ≤ S16x4.size a) :
    Vec Ideal S16x1 .f32 :=
  View.ld (Val := Elt Ideal) T (Rect.unit (s := S16x4) ![0, o] ![16, 1] inb)

/-- Its entry at row `k` is the table's entry `(k, o)`. -/
theorem col_apply (T : Vec Ideal S16x4 .f32) (o : ℕ) (ho : o < 4)
    (inb : ∀ a, (![0, o] : Fin 2 → ℕ) a + (![16, 1] : Fin 2 → ℕ) a ≤ S16x4.size a) (k : Fin 16) :
    col T o inb (ix2 k (0 : Fin 1)) = T (ix2 k (⟨o, ho⟩ : Fin 4)) :=
  ldcol_apply T o ho inb k

/-- AWAY FROM THE FIRST POINT the block holds the bulk value. -/
theorem out_B (c : Dev nD) (i : grid0.Coords) (a1 : Memref sig .tc .vmem S4x32768 .f32) (h1 : a1.IsWhole) (a2 : Memref sig .tc .vmem S16x4 .f32) (h2 : a2.IsWhole) (a3 : Memref sig .tc .vmem S16x4 .f32) (h3 : a3.IsWhole) (a4 : Memref sig .tc .vmem S16x4 .f32) (h4 : a4.IsWhole) (a5 : Memref sig .tc .vmem S16x4 .f32) (h5 : a5.IsWhole) (a6 : Memref sig .tc .vmem S10x16 .f32) (h6 : a6.IsWhole) (a7 : Memref sig .tc .vmem S10x32768 .f32) (h7 : a7.IsWhole) (hc : ¬cond0_0 i) (x0 : Vec Ideal S4x32768 .f32) (x1 : Vec Ideal S16x4 .f32) (x2 : Vec Ideal S16x4 .f32) (x3 : Vec Ideal S16x4 .f32) (x4 : Vec Ideal S16x4 .f32) (x5 : Vec Ideal S10x16 .f32) :
    out0_B_6 c i a1 h1 a2 h2 a3 h3 a4 h4 a5 h5 a6 h6 a7 h7 hc x0 x1 x2 x3 x4 x5 = bulk x0 (col x1 0 inb_S16x4_S16x1_0_0) (col x2 0 inb_S16x4_S16x1_0_0) (col x1 1 inb_S16x4_S16x1_0_1) (col x2 1 inb_S16x4_S16x1_0_1) (col x1 2 inb_S16x4_S16x1_0_2) (col x2 2 inb_S16x4_S16x1_0_2) (col x1 3 inb_S16x4_S16x1_0_3) (col x2 3 inb_S16x4_S16x1_0_3) x5 := by
  unfold out0_B_6
  rw [View.read_writes_eq_canon _ _ _ (cover0_B_6 c i a1 h1 a2 h2 a3 h3 a4 h4 a5 h5 a6 h6 a7 h7 hc x0 x1 x2 x3 x4 x5)]
  unfold kernelRun0_B
  dsimp only
  sl_unfold_words
  rw [View.canon_unit_zero hz]
  simp only [View.readAt_eq_ld, h1.read_unread, h2.read_unread, h3.read_unread, h6.read_unread,
    View.ld_unit_zero (S := S4x32768) hz, View.ld_unit_zero (S := S10x16) hz]
  rfl

/-- AT THE FIRST POINT the block holds the one-column patch laid over the bulk value. -/
theorem out_A (c : Dev nD) (i : grid0.Coords) (a1 : Memref sig .tc .vmem S4x32768 .f32) (h1 : a1.IsWhole) (a2 : Memref sig .tc .vmem S16x4 .f32) (h2 : a2.IsWhole) (a3 : Memref sig .tc .vmem S16x4 .f32) (h3 : a3.IsWhole) (a4 : Memref sig .tc .vmem S16x4 .f32) (h4 : a4.IsWhole) (a5 : Memref sig .tc .vmem S16x4 .f32) (h5 : a5.IsWhole) (a6 : Memref sig .tc .vmem S10x16 .f32) (h6 : a6.IsWhole) (a7 : Memref sig .tc .vmem S10x32768 .f32) (h7 : a7.IsWhole) (hc : cond0_0 i) (x0 : Vec Ideal S4x32768 .f32) (x1 : Vec Ideal S16x4 .f32) (x2 : Vec Ideal S16x4 .f32) (x3 : Vec Ideal S16x4 .f32) (x4 : Vec Ideal S16x4 .f32) (x5 : Vec Ideal S10x16 .f32) :
    out0_A_6 c i a1 h1 a2 h2 a3 h3 a4 h4 a5 h5 a6 h6 a7 h7 hc x0 x1 x2 x3 x4 x5
      = View.canon (Val := Elt Ideal) ([⟨Rect.unit ![0, 0] ![10, 1] inb_S10x32768_S10x1_0_0, patch x0 (col x3 0 inb_S16x4_S16x1_0_0) (col x4 0 inb_S16x4_S16x1_0_0) (col x3 1 inb_S16x4_S16x1_0_1) (col x4 1 inb_S16x4_S16x1_0_1) (col x3 2 inb_S16x4_S16x1_0_2) (col x4 2 inb_S16x4_S16x1_0_2) (col x3 3 inb_S16x4_S16x1_0_3) (col x4 3 inb_S16x4_S16x1_0_3) x5⟩,
          ⟨Rect.unit ![0, 0] ![10, 32768] inb_S10x32768_S10x32768_0_0, bulk x0 (col x1 0 inb_S16x4_S16x1_0_0) (col x2 0 inb_S16x4_S16x1_0_0) (col x1 1 inb_S16x4_S16x1_0_1) (col x2 1 inb_S16x4_S16x1_0_1) (col x1 2 inb_S16x4_S16x1_0_2) (col x2 2 inb_S16x4_S16x1_0_2) (col x1 3 inb_S16x4_S16x1_0_3) (col x2 3 inb_S16x4_S16x1_0_3) x5⟩] :
          List (View.Piece (Elt Ideal) S10x32768 .f32)) := by
  unfold out0_A_6
  rw [View.read_writes_eq_canon _ _ _ (cover0_A_6 c i a1 h1 a2 h2 a3 h3 a4 h4 a5 h5 a6 h6 a7 h7 hc x0 x1 x2 x3 x4 x5)]
  unfold kernelRun0_A
  dsimp only
  sl_unfold_words
  simp only [View.readAt_eq_ld, h1.read_unread, h2.read_unread, h3.read_unread, h4.read_unread, h5.read_unread, h6.read_unread,
    View.ld_unit_zero (S := S4x32768) hz, View.ld_unit_zero (S := S10x16) hz]
  rfl

end Cert.KernelIdeal.KValue

end
-- ==== Proof.Spec.lean ====
/-
  The function both programs compute, written once on the extended reals.

  A sample is a row `x b` of four numbers and `U` is a 16 × 16 matrix.  Each of the sixteen basis labels `k`
  gets an amplitude: a product over the four positions `j` of one factor each — the entry itself where bit `j`
  of `k` is set, its complement to one where it is clear.  Row 0 reads the bits of `k` from the low end and takes
  the entries as they are; every other row reads them from the high end, takes the SQUARES of the entries, and
  then the square root of the product.  The result at `(b, c)`, `c < 10`, is the square of the inner product of
  the amplitudes of row `b` with row `c` of `U`.

  Also here: the three float words the two programs' tables are made of, and the scalar law that joins the two
  spellings of a factor — `v · s + o` with `(s, o)` one of `(1, 0)`, `(-1, 1)` against the choice between `v` and
  `1 - v`.  The second case is where finiteness of `v` is used: it is an identity of real numbers.
-/
import Idealize.ShloMosaic.PureOps.Ideal
import Idealize.ShloMosaic.PureOps.Ideal.Laws
import Idealize.ShloMosaic.Lib.ValueIdx

noncomputable section

open scoped BigOperators

namespace Cert.Amplitude

open Idealize.ShloMosaic Idealize.ShloMosaic.ValueIdx

/-- The samples: 2097152 rows of four entries. -/
abbrev SX : Shape := ⟨2, ![2097152, 4]⟩
/-- The matrix applied to the amplitudes. -/
abbrev SU : Shape := ⟨2, ![16, 16]⟩
/-- The result: ten numbers per sample. -/
abbrev SO : Shape := ⟨2, ![2097152, 10]⟩

/-- Bit `j` of the label `k`, counted from the low end. -/
def lbit (k : Fin 16) (j : Fin 4) : Bool := decide ((k.val / 2 ^ j.val) % 2 = 1)
/-- Bit `j` of the label `k`, counted from the high end. -/
def hbit (k : Fin 16) (j : Fin 4) : Bool := decide ((k.val / 2 ^ (3 - j.val)) % 2 = 1)

/-- One factor of an amplitude: the value where the bit is set, its complement to one where it is clear. -/
def factor (b : Bool) (v : EReal) : EReal := if b then v else 1 - v

/-- The product of four factors, associated to the left. -/
def prod4 (f : Fin 4 → EReal) : EReal := f 0 * f 1 * f 2 * f 3

/-- The amplitude of label `k` in row `b`. -/
def amp (x : SX.Idx → EReal) (b : Fin 2097152) (k : Fin 16) : EReal :=
  if b.val = 0 then prod4 fun j => factor (lbit k j) (x (ix2 b j))
  else Ideal.sqrt (prod4 fun j => factor (hbit k j) (x (ix2 b j) * x (ix2 b j)))

/-- One of the first ten rows of the matrix. -/
def row (c : Fin 10) : Fin 16 := ⟨c.val, by omega⟩

/-- The inner product of row `b`'s amplitudes with row `c` of the matrix. -/
def inner (x : SX.Idx → EReal) (U : SU.Idx → EReal) (b : Fin 2097152) (c : Fin 10) : EReal :=
  ∑ k : Fin 16, amp x b k * U (ix2 (row c) k)

/-- The result at row `b`, column `c`: the inner product squared. -/
def Gat (x : SX.Idx → EReal) (U : SU.Idx → EReal) (b : Fin 2097152) (c : Fin 10) : EReal :=
  inner x U b c * inner x U b c

/-- The whole result array. -/
def G (x : SX.Idx → EReal) (U : SU.Idx → EReal) : SO.Idx → EReal := fun i => Gat x U (i 0) (i 1)

theorem G_apply (x : SX.Idx → EReal) (U : SU.Idx → EReal) (b : Fin 2097152) (c : Fin 10) :
    G x U (ix2 b c) = Gat x U b c := rfl

/-! ## The float words of the tables -/

/-- The word of `1.0` denotes `1`. -/
theorem word_one : Ideal.ofBits .f32 0x3F800000#32 = 1 := by
  simp [Ideal.ofBits, Ideal.ieee, -EReal.coe_mul]; norm_num

/-- The word of `-1.0` denotes `-1`. -/
theorem word_neg_one : Ideal.ofBits .f32 0xBF800000#32 = -1 := by
  simp [Ideal.ofBits, Ideal.ieee, -EReal.coe_mul]; norm_num

/-- The word of `0.0` denotes `0`. -/
theorem word_zero : Ideal.ofBits .f32 0x00000000#32 = 0 := Ideal.ofBits_zero_f32

/-! ## The two spellings of a factor -/

/-- Where the bit is set the linear form is the value itself, on every extended real. -/
theorem lin_set (v : EReal) : v * 1 + 0 = factor true v := by
  simp [factor]

/-- Where the bit is clear the linear form `v · (-1) + 1` is the complement `1 - v`: an identity of real numbers. -/
theorem lin_clear (r : ℝ) : (r : EReal) * (-1) + 1 = factor false (r : EReal) := by
  have h1 : ((-1 : EReal)) = ((-1 : ℝ) : EReal) := by rw [EReal.coe_neg, EReal.coe_one]
  have h2 : ((1 : EReal)) = ((1 : ℝ) : EReal) := EReal.coe_one.symm
  simp only [factor, Bool.false_eq_true, if_false]
  rw [h1, h2, ← EReal.coe_mul, ← EReal.coe_add, ← EReal.coe_sub]
  congr 1; ring

/-- A product that starts from one is the product of the four factors. -/
theorem one_mul_prod4 (f : Fin 4 → EReal) : 1 * f 0 * f 1 * f 2 * f 3 = prod4 f := by
  unfold prod4; rw [one_mul]

end Cert.Amplitude

end
-- ==== Proof.Algebra.lean ====
/-
  The one law that joins the kernel's arithmetic to the specification.

  The kernel spells a factor of an amplitude as `v · s + o`, with `(s, o) = (1, 0)` where the label's bit is set and
  `(-1, 1)` where it is clear; the specification chooses between `v` and `1 - v`.  For a finite `v` the two agree
  (`v · 1 + 0 = v`, `v · (-1) + 1 = 1 - v` in the reals), and the square of a finite number is finite.  The kernel sums
  `w (c, k) · amplitude k` where the specification sums `amplitude k · U (c, k)`: the products commute.
-/
import proofs.«133008_j10806137716891_2_alg».proof.Proof.Spec

noncomputable section

open scoped BigOperators

namespace Cert.Amplitude

open Idealize.ShloMosaic Idealize.ShloMosaic.ValueIdx

/-- A term `v · s + o` with the pair `(s, o)` the bit selects is the factor the bit selects, at a finite `v`. -/
theorem term_eq (b : Bool) (s o : EReal) (hs : s = if b then 1 else -1) (ho : o = if b then 0 else 1) (r : ℝ) :
    (r : EReal) * s + o = factor b (r : EReal) := by
  cases b
  · simp only [Bool.false_eq_true, if_false] at hs ho
    rw [hs, ho]; exact lin_clear r
  · simp only [if_true] at hs ho
    rw [hs, ho]; exact lin_set _

/-- The same for the square of a finite entry. -/
theorem term_sq_eq (b : Bool) (s o v : EReal) (hs : s = if b then 1 else -1) (ho : o = if b then 0 else 1)
    (hv : ∃ r : ℝ, v = r) : v * v * s + o = factor b (v * v) := by
  obtain ⟨r, rfl⟩ := hv
  rw [← EReal.coe_mul]
  exact term_eq b s o hs ho (r * r)

/-- The same for a finite entry itself. -/
theorem term_id_eq (b : Bool) (s o v : EReal) (hs : s = if b then 1 else -1) (ho : o = if b then 0 else 1)
    (hv : ∃ r : ℝ, v = r) : v * s + o = factor b v := by
  obtain ⟨r, rfl⟩ := hv
  exact term_eq b s o hs ho r

/-- THE BULK ENTRY.  For a sample other than the first, the kernel's entry — the matrix row against the square roots of
    the four-term products over the squared entries, with the high-end tables — is the specification's. -/
theorem bulk_eq (x : SX.Idx → EReal) (U : SU.Idx → EReal) (hx : ∀ i, ∃ r : ℝ, x i = r)
    (b : Fin 2097152) (hb : b.val ≠ 0) (c : Fin 10) (S O : Fin 16 → Fin 4 → EReal)
    (hS : ∀ k j, S k j = if hbit k j then 1 else -1) (hO : ∀ k j, O k j = if hbit k j then 0 else 1) :
    (∑ k : Fin 16, U (ix2 (row c) k) * Ideal.sqrt
        ((x (ix2 b 0) * x (ix2 b 0) * S k 0 + O k 0) * (x (ix2 b 1) * x (ix2 b 1) * S k 1 + O k 1)
          * (x (ix2 b 2) * x (ix2 b 2) * S k 2 + O k 2) * (x (ix2 b 3) * x (ix2 b 3) * S k 3 + O k 3)))
      * (∑ k : Fin 16, U (ix2 (row c) k) * Ideal.sqrt
        ((x (ix2 b 0) * x (ix2 b 0) * S k 0 + O k 0) * (x (ix2 b 1) * x (ix2 b 1) * S k 1 + O k 1)
          * (x (ix2 b 2) * x (ix2 b 2) * S k 2 + O k 2) * (x (ix2 b 3) * x (ix2 b 3) * S k 3 + O k 3)))
      = Gat x U b c := by
  have e : (∑ k : Fin 16, U (ix2 (row c) k) * Ideal.sqrt
        ((x (ix2 b 0) * x (ix2 b 0) * S k 0 + O k 0) * (x (ix2 b 1) * x (ix2 b 1) * S k 1 + O k 1)
          * (x (ix2 b 2) * x (ix2 b 2) * S k 2 + O k 2) * (x (ix2 b 3) * x (ix2 b 3) * S k 3 + O k 3)))
      = inner x U b c := by
    unfold inner
    refine Finset.sum_congr rfl fun k _ => ?_
    rw [mul_comm]
    congr 1
    unfold amp
    rw [if_neg hb]
    unfold prod4
    rw [term_sq_eq _ _ _ _ (hS k 0) (hO k 0) (hx _), term_sq_eq _ _ _ _ (hS k 1) (hO k 1) (hx _),
      term_sq_eq _ _ _ _ (hS k 2) (hO k 2) (hx _), term_sq_eq _ _ _ _ (hS k 3) (hO k 3) (hx _)]
  rw [e]; rfl

/-- THE FIRST SAMPLE'S ENTRY.  The kernel's patch — the matrix row against the four-term products over the entries
    themselves, with the low-end tables, no square root — is the specification's at sample 0. -/
theorem first_eq (x : SX.Idx → EReal) (U : SU.Idx → EReal) (hx : ∀ i, ∃ r : ℝ, x i = r)
    (b : Fin 2097152) (hb : b.val = 0) (c : Fin 10) (S O : Fin 16 → Fin 4 → EReal)
    (hS : ∀ k j, S k j = if lbit k j then 1 else -1) (hO : ∀ k j, O k j = if lbit k j then 0 else 1) :
    (∑ k : Fin 16, U (ix2 (row c) k) *
        ((x (ix2 b 0) * S k 0 + O k 0) * (x (ix2 b 1) * S k 1 + O k 1)
          * (x (ix2 b 2) * S k 2 + O k 2) * (x (ix2 b 3) * S k 3 + O k 3)))
      * (∑ k : Fin 16, U (ix2 (row c) k) *
        ((x (ix2 b 0) * S k 0 + O k 0) * (x (ix2 b 1) * S k 1 + O k 1)
          * (x (ix2 b 2) * S k 2 + O k 2) * (x (ix2 b 3) * S k 3 + O k 3)))
      = Gat x U b c := by
  have e : (∑ k : Fin 16, U (ix2 (row c) k) *
        ((x (ix2 b 0) * S k 0 + O k 0) * (x (ix2 b 1) * S k 1 + O k 1)
          * (x (ix2 b 2) * S k 2 + O k 2) * (x (ix2 b 3) * S k 3 + O k 3)))
      = inner x U b c := by
    unfold inner
    refine Finset.sum_congr rfl fun k _ => ?_
    rw [mul_comm]
    congr 1
    unfold amp
    rw [if_pos hb]
    unfold prod4
    rw [term_id_eq _ _ _ _ (hS k 0) (hO k 0) (hx _), term_id_eq _ _ _ _ (hS k 1) (hO k 1) (hx _),
      term_id_eq _ _ _ _ (hS k 2) (hO k 2) (hx _), term_id_eq _ _ _ _ (hS k 3) (hO k 3) (hx _)]
  rw [e]; rfl

end Cert.Amplitude

end
-- ==== Proof.KEntry.lean ====
/-
  One entry of the output block against the specification.

  The bulk value at matrix row `c` and lane `y` of a block, where the block's sample at lane `y` is sample `b` of the
  whole array and `b` is not the first sample, is the specification's entry `(b, c)`: the tables' entries are the pairs
  the high-end bits select, the matrix rows are the first ten rows of `U`, and the law of Algebra.lean joins the two
  sides.  The one-column value is the specification's entry at the first sample, with the low-end tables.  And a
  one-column store at lane 0 laid over a whole-block store reads, at an entry, as the column's value at lane 0 and as
  the block's value elsewhere.
-/
import proofs.«133008_j10806137716891_2_alg».proof.Proof.KPieces
import proofs.«133008_j10806137716891_2_alg».proof.Proof.Algebra

noncomputable section

open scoped BigOperators

open Idealize.ShloMosaic Idealize.ShloMosaic.TcCoe

namespace Cert.KernelIdeal.KValue

open Cert.KernelIdeal Cert.KernelIdeal.Gen Idealize.ShloMosaic.ValueIdx Cert.Amplitude

/-- THE BULK VALUE AT AN ENTRY is the specification's, for a sample other than the first. -/
theorem bulk_entry (x : SX.Idx → EReal) (U : SU.Idx → EReal) (hx : ∀ i, ∃ r : ℝ, x i = r)
    (xb : Vec Ideal S4x32768 .f32) (S O : Vec Ideal S16x4 .f32) (W : Vec Ideal S10x16 .f32)
    (b : Fin 2097152) (hb : b.val ≠ 0) (y : Fin 32768)
    (hxb : ∀ j : Fin 4, xb (ix2 j y) = x (ix2 b j))
    (hS : ∀ (k : Fin 16) (j : Fin 4), S (ix2 k j) = if hbit k j then (1 : EReal) else -1)
    (hO : ∀ (k : Fin 16) (j : Fin 4), O (ix2 k j) = if hbit k j then (0 : EReal) else 1)
    (hW : ∀ (c : Fin 10) (k : Fin 16), W (ix2 c k) = U (ix2 (row c) k))
    (inb0 inb1 inb2 inb3) (c : Fin 10) :
    bulk xb (col S 0 inb0) (col O 0 inb0) (col S 1 inb1) (col O 1 inb1) (col S 2 inb2) (col O 2 inb2) (col S 3 inb3) (col O 3 inb3) W
        (ix2 c y) = Gat x U b c := by
  refine Eq.trans ?_ (bulk_eq x U hx b hb c (fun k j => S (ix2 k j)) (fun k j => O (ix2 k j)) hS hO)
  rw [bulk_apply]
  congr 1 <;>
  · refine Finset.sum_congr rfl fun k _ => ?_
    unfold term2
    rw [hW, col_apply S 0 (by decide), col_apply O 0 (by decide), col_apply S 1 (by decide), col_apply O 1 (by decide),
      col_apply S 2 (by decide), col_apply O 2 (by decide), col_apply S 3 (by decide), col_apply O 3 (by decide),
      hxb 0, hxb 1, hxb 2, hxb 3]
    rfl

/-- THE ONE-COLUMN VALUE AT AN ENTRY is the specification's at the first sample. -/
theorem patch_entry (x : SX.Idx → EReal) (U : SU.Idx → EReal) (hx : ∀ i, ∃ r : ℝ, x i = r)
    (xb : Vec Ideal S4x32768 .f32) (S O : Vec Ideal S16x4 .f32) (W : Vec Ideal S10x16 .f32)
    (b : Fin 2097152) (hb : b.val = 0)
    (hxb : ∀ j : Fin 4, xb (ix2 j lane0) = x (ix2 b j))
    (hS : ∀ (k : Fin 16) (j : Fin 4), S (ix2 k j) = if lbit k j then (1 : EReal) else -1)
    (hO : ∀ (k : Fin 16) (j : Fin 4), O (ix2 k j) = if lbit k j then (0 : EReal) else 1)
    (hW : ∀ (c : Fin 10) (k : Fin 16), W (ix2 c k) = U (ix2 (row c) k))
    (inb0 inb1 inb2 inb3) (c : Fin 10) :
    patch xb (col S 0 inb0) (col O 0 inb0) (col S 1 inb1) (col O 1 inb1) (col S 2 inb2) (col O 2 inb2) (col S 3 inb3) (col O 3 inb3) W
        (ix2 c (0 : Fin 1)) = Gat x U b c := by
  refine Eq.trans ?_ (first_eq x U hx b hb c (fun k j => S (ix2 k j)) (fun k j => O (ix2 k j)) hS hO)
  rw [patch_apply]
  congr 1 <;>
  · refine Finset.sum_congr rfl fun k _ => ?_
    unfold term1
    rw [hW, col_apply S 0 (by decide), col_apply O 0 (by decide), col_apply S 1 (by decide), col_apply O 1 (by decide),
      col_apply S 2 (by decide), col_apply O 2 (by decide), col_apply S 3 (by decide), col_apply O 3 (by decide),
      hxb 0, hxb 1, hxb 2, hxb 3]
    rfl

set_option maxRecDepth 200000 in
/-- A one-column store at lane 0 laid over a whole-block store, read at an entry. -/
theorem canon_patch_bulk (P : FVec Ideal S10x1 .f32) (B : FVec Ideal S10x32768 .f32)
    (inbP : ∀ a, (![0, 0] : Fin 2 → ℕ) a + (![10, 1] : Fin 2 → ℕ) a ≤ S10x32768.size a)
    (inbB : ∀ a, (![0, 0] : Fin 2 → ℕ) a + (![10, 32768] : Fin 2 → ℕ) a ≤ S10x32768.size a)
    (c : Fin 10) (y : Fin 32768) :
    View.canon (Val := Elt Ideal) ([⟨Rect.unit ![0, 0] ![10, 1] inbP, P⟩, ⟨Rect.unit ![0, 0] ![10, 32768] inbB, B⟩] :
        List (View.Piece (Elt Ideal) S10x32768 .f32)) (ix2 c y)
      = if y.val = 0 then P (ix2 c (0 : Fin 1)) else B (ix2 c y) := by
  by_cases hy : y.val = 0
  · rw [if_pos hy]
    have e : (ix2 c y : S10x32768.Idx) = (Rect.unit (s := S10x32768) ![0, 0] ![10, 1] inbP).emb (ix2 (n0 := 10) (n1 := 1) c (0 : Fin 1)) := by
      funext a
      apply Fin.ext
      rw [Rect.emb_apply]
      match a with
      | ⟨0, _⟩ => show c.val = 0 + 1 * c.val; omega
      | ⟨1, _⟩ => show y.val = 0 + 1 * 0; omega
    rw [e]
    exact View.canon_cons_emb (Val := Elt Ideal) (e := EltTy.f32) (Rect.unit (s := S10x32768) ![0, 0] ![10, 1] inbP) P _ (ix2 (n0 := 10) (n1 := 1) c (0 : Fin 1))
  · rw [if_neg hy, View.canon_cons_of_not_mem, View.canon_unit_zero hz]
    rw [Rect.mem_set_unit]
    intro h
    have h1 := (h 1).2
    have : y.val < 0 + 1 := h1
    omega

end Cert.KernelIdeal.KValue

end
-- ==== Proof.KTables.lean ====
/-
  The kernel's four 16 × 4 tables, entry by entry.

  The tables hold, for label `k` and position `j`, the pair `(s, o)` of the linear form `v · s + o`: `(1, 0)` where bit
  `j` of `k` is set and `(-1, 1)` where it is clear — one pair of tables reading the bits from the high end, the other
  from the low end.  A table is printed as 64 words in row-major order (position `4 k + j`); that each word is the one
  the bit selects is a check of 64 cases.
-/
import proofs.«133008_j10806137716891_2_alg».proof.KernelIdeal
import proofs.«133008_j10806137716891_2_alg».proof.Proof.Spec
import Idealize.ShloMosaic.Lib.ValueIdx

noncomputable section

namespace Cert.KernelIdeal.KValue

open Cert.KernelIdeal Idealize.ShloMosaic Idealize.ShloMosaic.ValueIdx Cert.Amplitude

/-- The row-major position of entry `(k, j)` of a 16 × 4 table. -/
theorem pos_eq (k : Fin 16) (j : Fin 4) :
    S16x4.rowMajor (ix2 k j) = (⟨4 * k.val + j.val, by have := k.isLt; have := j.isLt; omega⟩ : Fin 64) :=
  Fin.ext (by rw [Shape.rowMajor_val_two]; show k.val * 4 + j.val = 4 * k.val + j.val; omega)

/-- The high-end pair of tables, word by word. -/
theorem words_high : ∀ (k : Fin 16) (j : Fin 4),
    lit3 (⟨4 * k.val + j.val, by have := k.isLt; have := j.isLt; omega⟩ : Fin 64) = (if hbit k j then 0x3F800000#32 else 0xBF800000#32)
    ∧ lit4 (⟨4 * k.val + j.val, by have := k.isLt; have := j.isLt; omega⟩ : Fin 64) = (if hbit k j then 0x00000000#32 else 0x3F800000#32) := by
  decide

/-- The low-end pair of tables, word by word. -/
theorem words_low : ∀ (k : Fin 16) (j : Fin 4),
    lit5 (⟨4 * k.val + j.val, by have := k.isLt; have := j.isLt; omega⟩ : Fin 64) = (if lbit k j then 0x3F800000#32 else 0xBF800000#32)
    ∧ lit6 (⟨4 * k.val + j.val, by have := k.isLt; have := j.isLt; omega⟩ : Fin 64) = (if lbit k j then 0x00000000#32 else 0x3F800000#32) := by
  decide

/-- The high-end sign table at the ideal values: `1` where the bit is set, `-1` where it is clear. -/
theorem sgnH_apply (k : Fin 16) (j : Fin 4) :
    Ideal.ofBits .f32 (lit3 (S16x4.rowMajor (ix2 k j))) = if hbit k j then (1 : EReal) else -1 := by
  rw [pos_eq, (words_high k j).1]
  cases hbit k j
  · exact word_neg_one
  · exact word_one

/-- The high-end offset table: `0` where the bit is set, `1` where it is clear. -/
theorem offH_apply (k : Fin 16) (j : Fin 4) :
    Ideal.ofBits .f32 (lit4 (S16x4.rowMajor (ix2 k j))) = if hbit k j then (0 : EReal) else 1 := by
  rw [pos_eq, (words_high k j).2]
  cases hbit k j
  · exact word_one
  · exact word_zero

/-- The low-end sign table. -/
theorem sgnL_apply (k : Fin 16) (j : Fin 4) :
    Ideal.ofBits .f32 (lit5 (S16x4.rowMajor (ix2 k j))) = if lbit k j then (1 : EReal) else -1 := by
  rw [pos_eq, (words_low k j).1]
  cases lbit k j
  · exact word_neg_one
  · exact word_one

/-- The low-end offset table. -/
theorem offL_apply (k : Fin 16) (j : Fin 4) :
    Ideal.ofBits .f32 (lit6 (S16x4.rowMajor (ix2 k j))) = if lbit k j then (0 : EReal) else 1 := by
  rw [pos_eq, (words_low k j).2]
  cases lbit k j
  · exact word_one
  · exact word_zero

end Cert.KernelIdeal.KValue

end
-- ==== Proof.KHost.lean ====
/-
  What the region finds in the buffers it reads, on the extended reals: the transposed samples, the four
  16 × 4 tables, and the first ten rows of the matrix.

  The host line before the region is a list of operations, each writing one buffer of its own and no other.
  A buffer's contents when the region is entered are therefore those its one writing operation left: every
  later operation keeps them.  The four tables are written by constants at the head of the line, so everything
  after the first stretch of operations is discarded at once; the sliced rows and the transposed samples are
  written by the last two operations of the line, whose operands are read just before them.  The matrix itself
  is never opened here: its ten rows are stated as a slice of whatever the line leaves in its buffer.
-/
import proofs.«133008_j10806137716891_2_alg».proof.Proof.Gen.KernelIdeal.Frame.Runs
import Idealize.ShloMosaic.Lib.StableHlo.Run
import Idealize.ShloMosaic.PureOps.Ideal

set_option maxRecDepth 16384

noncomputable section

namespace Cert.KernelIdeal.KHost

open Idealize.ShloMosaic Idealize.ShloMosaic.TcCoe
open Cert.KernelIdeal Cert.KernelIdeal.Gen

variable (m : (ℓ : Loc nD τ sig) → Buf (Elt Ideal) ℓ)

/-! ## One operation's buffer after a line -/

/-- After a line `l₁ ++ op :: l₂` a buffer that nothing in `l₂` writes holds what `op` left in it. -/
theorem after_split {Val : EltTy → Type} (l₁ l₂ : List (HloOp τ sig Val)) (op : HloOp τ sig Val)
    (W : Valuation τ sig Val) (b : DevRef τ sig) (h : ∀ o ∈ l₂, b ∉ o.writes) :
    StableHlo.after (l₁ ++ op :: l₂) W b = op.result (StableHlo.after l₁ W) b := by
  rw [StableHlo.after_append, StableHlo.after_cons, StableHlo.after_of_forall_not_mem l₂ _ h]

/-! ## The line as its first stretch and the rest, and as all but its last stretch and the last -/

/-- The stretches after the first, in order. -/
abbrev rest : List (HloOp τ sig (Elt Ideal)) :=
  List.flatten ([hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] : List (List (HloOp τ sig (Elt Ideal))))

/-- The stretches before the last, in order. -/
abbrev front : List (HloOp τ sig (Elt Ideal)) :=
  List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47] : List (List (HloOp τ sig (Elt Ideal))))

/-- The buffers when the last stretch starts. -/
def W (c : Dev nD) : Valuation τ sig (Elt Ideal) := StableHlo.after front (fun b => m (c, b))

/-- The whole line is the first stretch, then the rest. -/
theorem V0_head (c : Dev nD) :
    V0 m c = StableHlo.after rest (StableHlo.after hostOps0 (fun b => m (c, b))) := by
  show StableHlo.after (List.flatten (hostOps0 :: _)) _ = _
  rw [List.flatten_cons, StableHlo.after_append]

/-- The whole line is everything before the last stretch, then the last stretch. -/
theorem V0_last (c : Dev nD) : V0 m c = StableHlo.after hostOps0_48 (W m c) := by
  have hsplit : List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] : List (List (HloOp τ sig (Elt Ideal))))
      = front ++ (hostOps0_48 : List (HloOp τ sig (Elt Ideal))) := by
    simp only [front, List.flatten_cons, List.flatten_nil, List.append_nil, List.append_assoc]
  show StableHlo.after (List.flatten _) _ = _
  rw [hsplit, StableHlo.after_append]; rfl

/-- No operation after the first stretch writes the buffer `r`: decided reference by reference. -/
local macro "rest_keeps" : tactic =>
  `(tactic| (refine List.forall_iff_forall_mem.mp ?_
             simp only [rest, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The four tables -/

/-- The table of signs read from the high end, as the first stretch leaves it. -/
theorem V_sgnH (c : Dev nD) : V m c main_cst_2 = fun i => Ideal.ofBits .f32 (lit3 (S16x4.rowMajor i)) := by
  show V0 m c (Proc.devRef .tc main_cst_2) = _
  rw [V0_head, StableHlo.after_of_forall_not_mem (b := Proc.devRef .tc main_cst_2) _ _ (by rest_keeps)]
  simp only [hostOps0]
  after_results
  rfl

/-- The table of offsets read from the high end. -/
theorem V_offH (c : Dev nD) : V m c main_cst_3 = fun i => Ideal.ofBits .f32 (lit4 (S16x4.rowMajor i)) := by
  show V0 m c (Proc.devRef .tc main_cst_3) = _
  rw [V0_head, StableHlo.after_of_forall_not_mem (b := Proc.devRef .tc main_cst_3) _ _ (by rest_keeps)]
  simp only [hostOps0]
  after_results
  rfl

/-- The table of signs read from the low end. -/
theorem V_sgnL (c : Dev nD) : V m c main_cst_4 = fun i => Ideal.ofBits .f32 (lit5 (S16x4.rowMajor i)) := by
  show V0 m c (Proc.devRef .tc main_cst_4) = _
  rw [V0_head, StableHlo.after_of_forall_not_mem (b := Proc.devRef .tc main_cst_4) _ _ (by rest_keeps)]
  simp only [hostOps0]
  after_results
  rfl

/-- The table of offsets read from the low end. -/
theorem V_offL (c : Dev nD) : V m c main_cst_5 = fun i => Ideal.ofBits .f32 (lit6 (S16x4.rowMajor i)) := by
  show V0 m c (Proc.devRef .tc main_cst_5) = _
  rw [V0_head, StableHlo.after_of_forall_not_mem (b := Proc.devRef .tc main_cst_5) _ _ (by rest_keeps)]
  simp only [hostOps0]
  after_results
  rfl

/-! ## The last stretch: the matrix product, its first ten rows, the transposed samples -/

/-- The samples are still as launched when the last stretch starts. -/
theorem W_samples (c : Dev nD) : W m c (Proc.devRef .tc main_arg0) = m ((c : Thread nD τ).loc main_arg0) := by
  have h := V_main_arg0 m c
  change V0 m c (Proc.devRef .tc main_arg0) = _ at h
  rw [V0_last] at h
  generalize W m c = X at h ⊢
  simp only [hostOps0_48] at h
  rw [← h]
  after_results

/-- The matrix when the region is entered is what the first operation of the last stretch left. -/
theorem V_matrix (c : Dev nD) (X : Valuation τ sig (Elt Ideal)) (hX : X = W m c) :
    V m c main_v208 = StableHlo.after hostOps0_48 X (Proc.devRef .tc main_v208) := by
  show V0 m c (Proc.devRef .tc main_v208) = _
  rw [V0_last, hX]

/-- The transposed samples. -/
theorem V_samples (c : Dev nD) : V m c main_v210
    = transpose S4x2097152 [1, 0] (m ((c : Thread nD τ).loc main_arg0)) transposes_S2097152x4_S4x2097152_1_0 := by
  show V0 m c (Proc.devRef .tc main_v210) = _
  rw [V0_last, ← W_samples m c]
  generalize W m c = X
  simp only [hostOps0_48]
  after_results

/-- The first ten rows of the matrix, the matrix left folded. -/
theorem V_rows (c : Dev nD) : V m c main_v209
    = extractStridedSlice S10x16 ![0, 0] (V m c main_v208) slices_S16x16_S10x16_0_0 := by
  rw [V_matrix m c (W m c) rfl]
  show V0 m c (Proc.devRef .tc main_v209) = _
  rw [V0_last]
  generalize W m c = X
  simp only [hostOps0_48]
  after_results

end Cert.KernelIdeal.KHost

end
-- ==== Proof.KBlocks.lean ====
/-
  From the blocks to the whole output array.

  The grid has 64 points; point `t` works on samples `32768 t … 32768 t + 32767`: its sample block is columns
  `32768 t + y` of the transposed samples, its output block the same columns of the 10 × 2097152 output, and the five
  small operands (four tables and the ten matrix rows) are whole arrays every point sees alike.  What point `t` leaves
  at row `c`, lane `y` of its output block is the specification's entry for sample `32768 t + y` — the one-column patch
  is met exactly when `t = 0` and `y = 0`, which is when that sample is the first.  Every point writes its block back
  and the blocks tile the array, so the array ends holding the specification, transposed.
-/
import proofs.«133008_j10806137716891_2_alg».proof.Proof.KEntry
import proofs.«133008_j10806137716891_2_alg».proof.Proof.KTables
import proofs.«133008_j10806137716891_2_alg».proof.Proof.KHost

set_option maxRecDepth 200000

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.GenP Idealize.ShloMosaic.ValueIdx Cert.Amplitude

variable (m : (ℓ : Loc nD τ sig) → Buf (Elt Ideal) ℓ)

/-- The samples as the kernel program is launched with them, as extended reals. -/
abbrev xs (c : Dev nD) : SX.Idx → EReal := m ((c : Thread nD τ).loc main_arg0)

/-- The printed index maps, decided over the grid: the sample and output windows move one block per point along the
    long axis, the five small operands stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- Entry `j` of the sample at lane `y` of point `t`'s block is entry `j` of sample `32768 t + y`. -/
theorem samples_blk (c : Dev nD) (t : Fin cfg0.N) (j : Fin 4) (y : Fin 32768) (b : Fin 2097152)
    (hb : b.val = t.val * 32768 + y.val) :
    iblk m c 0 t (ix2 j y) = m ((c : Thread nD τ).loc main_arg0) (ix2 b j) := by
  obtain ⟨e00, e01, -⟩ := idx_facts t
  unfold iblk
  rw [View.read_apply]
  show V m c main_v210 (((cfg0.win 0).blk t).view.emb (ix2 j y)) = _
  rw [KHost.V_samples]
  refine transpose_apply [1, 0] _ _ _ (ix2 b j) fun a => ?_
  match a with
  | ⟨0, _⟩ => show j.val = win0_0.index t (0 : Fin 2) * 4 + 1 * j.val; rw [e00]; omega
  | ⟨1, _⟩ => show b.val = win0_0.index t (1 : Fin 2) * 32768 + 1 * y.val; rw [e01, hb]; omega

/-- The high-end sign table as every point sees it. -/
theorem sgnH_blk (c : Dev nD) (t : Fin cfg0.N) (k : Fin 16) (j : Fin 4) :
    iblk m c 1 t (ix2 k j) = if hbit k j then (1 : EReal) else -1 := by
  obtain ⟨e00, e01, e10, e11, e20, e21, e30, e31, e40, e41, e50, e51, e60, e61⟩ := idx_facts t
  unfold iblk
  rw [View.read_apply]
  have e : ((cfg0.win 1).blk t).view.emb (ix2 k j) = (ix2 k j : S16x4.Idx) := by
    funext a
    apply Fin.ext
    match a with
    | ⟨0, _⟩ => show win0_1.index t (0 : Fin 2) * 16 + 1 * k.val = k.val; rw [e10]; omega
    | ⟨1, _⟩ => show win0_1.index t (1 : Fin 2) * 4 + 1 * j.val = j.val; rw [e11]; omega
  show V m c main_cst_2 (((cfg0.win 1).blk t).view.emb (ix2 k j)) = _
  rw [e, KHost.V_sgnH]
  exact sgnH_apply k j

/-- The high-end offset table. -/
theorem offH_blk (c : Dev nD) (t : Fin cfg0.N) (k : Fin 16) (j : Fin 4) :
    iblk m c 2 t (ix2 k j) = if hbit k j then (0 : EReal) else 1 := by
  obtain ⟨e00, e01, e10, e11, e20, e21, e30, e31, e40, e41, e50, e51, e60, e61⟩ := idx_facts t
  unfold iblk
  rw [View.read_apply]
  have e : ((cfg0.win 2).blk t).view.emb (ix2 k j) = (ix2 k j : S16x4.Idx) := by
    funext a
    apply Fin.ext
    match a with
    | ⟨0, _⟩ => show win0_2.index t (0 : Fin 2) * 16 + 1 * k.val = k.val; rw [e20]; omega
    | ⟨1, _⟩ => show win0_2.index t (1 : Fin 2) * 4 + 1 * j.val = j.val; rw [e21]; omega
  show V m c main_cst_3 (((cfg0.win 2).blk t).view.emb (ix2 k j)) = _
  rw [e, KHost.V_offH]
  exact offH_apply k j

/-- The low-end sign table. -/
theorem sgnL_blk (c : Dev nD) (t : Fin cfg0.N) (k : Fin 16) (j : Fin 4) :
    iblk m c 3 t (ix2 k j) = if lbit k j then (1 : EReal) else -1 := by
  obtain ⟨e00, e01, e10, e11, e20, e21, e30, e31, e40, e41, e50, e51, e60, e61⟩ := idx_facts t
  unfold iblk
  rw [View.read_apply]
  have e : ((cfg0.win 3).blk t).view.emb (ix2 k j) = (ix2 k j : S16x4.Idx) := by
    funext a
    apply Fin.ext
    match a with
    | ⟨0, _⟩ => show win0_3.index t (0 : Fin 2) * 16 + 1 * k.val = k.val; rw [e30]; omega
    | ⟨1, _⟩ => show win0_3.index t (1 : Fin 2) * 4 + 1 * j.val = j.val; rw [e31]; omega
  show V m c main_cst_4 (((cfg0.win 3).blk t).view.emb (ix2 k j)) = _
  rw [e, KHost.V_sgnL]
  exact sgnL_apply k j

/-- The low-end offset table. -/
theorem offL_blk (c : Dev nD) (t : Fin cfg0.N) (k : Fin 16) (j : Fin 4) :
    iblk m c 4 t (ix2 k j) = if lbit k j then (0 : EReal) else 1 := by
  obtain ⟨e00, e01, e10, e11, e20, e21, e30, e31, e40, e41, e50, e51, e60, e61⟩ := idx_facts t
  unfold iblk
  rw [View.read_apply]
  have e : ((cfg0.win 4).blk t).view.emb (ix2 k j) = (ix2 k j : S16x4.Idx) := by
    funext a
    apply Fin.ext
    match a with
    | ⟨0, _⟩ => show win0_4.index t (0 : Fin 2) * 16 + 1 * k.val = k.val; rw [e40]; omega
    | ⟨1, _⟩ => show win0_4.index t (1 : Fin 2) * 4 + 1 * j.val = j.val; rw [e41]; omega
  show V m c main_cst_5 (((cfg0.win 4).blk t).view.emb (ix2 k j)) = _
  rw [e, KHost.V_offL]
  exact offL_apply k j

/-- The matrix rows as every point sees them: the first ten rows of the matrix. -/
theorem rows_blk (c : Dev nD) (t : Fin cfg0.N) (cc : Fin 10) (k : Fin 16) :
    iblk m c 5 t (ix2 cc k) = V m c main_v208 (ix2 (row cc) k) := by
  obtain ⟨e00, e01, e10, e11, e20, e21, e30, e31, e40, e41, e50, e51, e60, e61⟩ := idx_facts t
  unfold iblk
  rw [View.read_apply]
  have e : ((cfg0.win 5).blk t).view.emb (ix2 cc k) = (ix2 cc k : S10x16.Idx) := by
    funext a
    apply Fin.ext
    match a with
    | ⟨0, _⟩ => show win0_5.index t (0 : Fin 2) * 10 + 1 * cc.val = cc.val; rw [e50]; omega
    | ⟨1, _⟩ => show win0_5.index t (1 : Fin 2) * 16 + 1 * k.val = k.val; rw [e51]; omega
  show V m c main_v209 (((cfg0.win 5).blk t).view.emb (ix2 cc k)) = _
  rw [e, KHost.V_rows]
  refine extractStridedSlice_apply ![0, 0] _ _ (ix2 cc k) (ix2 (row cc) k) fun a => ?_
  match a with
  | ⟨0, _⟩ => show cc.val = 0 + cc.val; omega
  | ⟨1, _⟩ => show k.val = 0 + k.val; omega

/-- WHAT POINT `t` LEAVES at row `cc`, lane `y` of its block is the specification's entry for sample `32768 t + y`. -/
theorem block_entry (c : Dev nD) (hx : ∀ i, ∃ r : ℝ, xs m c i = (r : EReal))
    (t : Fin cfg0.N) (cc : Fin 10) (y : Fin 32768) (b : Fin 2097152) (hb : b.val = t.val * 32768 + y.val) :
    outsAt0 m c t.val t.isLt (ix2 cc y) = Gat (xs m c) (V m c main_v208) b cc := by
  have hN : t.val < 64 := lt_of_lt_of_eq t.isLt N_0
  by_cases h0 : t.val % 64 = 0
  · have ht : t.val = 0 := by omega
    rw [outsAt0_A m c t h0, out_A, canon_patch_bulk]
    by_cases hy : y.val = 0
    · rw [if_pos hy]
      have hy0 : lane0 = y := Fin.ext hy.symm
      exact patch_entry _ _ hx (iblk m c 0 t) (iblk m c 3 t) (iblk m c 4 t) (iblk m c 5 t) b (by omega)
        (fun j => by rw [hy0]; exact samples_blk m c t j y b hb) (sgnL_blk m c t) (offL_blk m c t) (rows_blk m c t) _ _ _ _ cc
    · rw [if_neg hy]
      exact bulk_entry _ _ hx (iblk m c 0 t) (iblk m c 1 t) (iblk m c 2 t) (iblk m c 5 t) b (by omega) y
        (fun j => samples_blk m c t j y b hb) (sgnH_blk m c t) (offH_blk m c t) (rows_blk m c t) _ _ _ _ cc
  · rw [outsAt0_B m c t h0, out_B]
    exact bulk_entry _ _ hx (iblk m c 0 t) (iblk m c 1 t) (iblk m c 2 t) (iblk m c 5 t) b (by omega) y
      (fun j => samples_blk m c t j y b hb) (sgnH_blk m c t) (offH_blk m c t) (rows_blk m c t) _ _ _ _ cc

/-- The output array as the kernel region leaves it: the specification, transposed. -/
def GT (x : SX.Idx → EReal) (U : SU.Idx → EReal) : S10x2097152.Idx → EReal := fun i => Gat x U (i 1) (i 0)

/-- WHAT POINT `t` WRITES BACK is block `t` of the transposed specification. -/
theorem flushed_eq (c : Dev nD) (hx : ∀ i, ∃ r : ℝ, xs m c i = (r : EReal)) (t : Fin cfg0.N) :
    (dats m 0 c).flushed 6 t
      = ((cfg0.win 6).blk t).view.read (Elt Ideal) (GT (xs m c) (V m c main_v208)) := by
  show (cfg0.win 6).cut (grid0.coords t) ((dats m 0 c).after 6 t) = _
  rw [after0_6]
  have hN : t.val < 64 := lt_of_lt_of_eq t.isLt N_0
  obtain ⟨e00, e01, e10, e11, e20, e21, e30, e31, e40, e41, e50, e51, e60, e61⟩ := idx_facts t
  funext j
  rw [View.read_apply]
  have hc : (j 0).val < 10 := (j 0).isLt
  have hl : (j 1).val < 32768 := (j 1).isLt
  have hj : j = ix2 (⟨(j 0).val, hc⟩ : Fin 10) (⟨(j 1).val, hl⟩ : Fin 32768) := by
    funext a
    match a with
    | ⟨0, _⟩ => rfl
    | ⟨1, _⟩ => rfl
  have h1 : ((cfg0.win 6).blk t).view.emb j 1 = (⟨t.val * 32768 + (j 1).val, by omega⟩ : Fin 2097152) :=
    Fin.ext (by show win0_6.index t (1 : Fin 2) * 32768 + 1 * (j 1).val = t.val * 32768 + (j 1).val; rw [e61]; omega)
  have h0 : ((cfg0.win 6).blk t).view.emb j 0 = (⟨(j 0).val, hc⟩ : Fin 10) :=
    Fin.ext (by show win0_6.index t (0 : Fin 2) * 10 + 1 * (j 0).val = (j 0).val; rw [e60]; omega)
  show outsAt0 m c t.val t.isLt j
    = Gat (xs m c) (V m c main_v208) (((cfg0.win 6).blk t).view.emb j 1) (((cfg0.win 6).blk t).view.emb j 0)
  rw [h1, h0]
  refine (congrArg (outsAt0 m c t.val t.isLt) hj).trans ?_
  exact block_entry m c hx t _ _ _ rfl

/-- An index of the output array is in point `t`'s block iff each coordinate is in the block's range. -/
theorem mem_blk (t : Fin cfg0.N) (i : S10x2097152.Idx) :
    i ∈ ((cfg0.win 6).blk t).view.set ↔ ∀ a : Fin 2, win0_6.index t a * S10x32768.size a ≤ (i a).val
      ∧ (i a).val < win0_6.index t a * S10x32768.size a + S10x32768.size a := by
  show i ∈ ((View.whole main_v211).slice (win0_6.rect t)).set ↔ _
  rw [View.set_slice_whole, Rect.mem_set_unit]
  exact Iff.rfl

/-- The blocks tile the array: column `b` is in the block of point `b / 32768`. -/
theorem covered (i : S10x2097152.Idx) :
    ∃ t : Fin cfg0.N, (cfg0.win 6).flush t = true ∧ i ∈ ((cfg0.win 6).blk t).view.set := by
  have hi0 : (i 0).val < 10 := (i 0).isLt
  have hi1 : (i 1).val < 2097152 := (i 1).isLt
  have hN : grid0.N = 64 := N_0
  have hq : (i 1).val / 32768 < cfg0.N := by show _ < grid0.N; rw [hN]; omega
  obtain ⟨e00, e01, e10, e11, e20, e21, e30, e31, e40, e41, e50, e51, e60, e61⟩ := idx_facts ⟨(i 1).val / 32768, hq⟩
  refine ⟨⟨(i 1).val / 32768, hq⟩, flush0_6 _, ?_⟩
  rw [mem_blk]
  intro a
  match a with
  | ⟨0, _⟩ =>
    show win0_6.index ⟨(i 1).val / 32768, hq⟩ (0 : Fin 2) * 10 ≤ (i 0).val
      ∧ (i 0).val < win0_6.index ⟨(i 1).val / 32768, hq⟩ (0 : Fin 2) * 10 + 10
    rw [e60]; omega
  | ⟨1, _⟩ =>
    show win0_6.index ⟨(i 1).val / 32768, hq⟩ (1 : Fin 2) * 32768 ≤ (i 1).val
      ∧ (i 1).val < win0_6.index ⟨(i 1).val / 32768, hq⟩ (1 : Fin 2) * 32768 + 32768
    rw [e61]
    show (i 1).val / 32768 * 32768 ≤ (i 1).val ∧ (i 1).val < (i 1).val / 32768 * 32768 + 32768
    omega

/-- THE OUTPUT ARRAY AFTER THE REGION is the specification, transposed. -/
theorem final (c : Dev nD) (hx : ∀ i, ∃ r : ℝ, xs m c i = (r : EReal)) :
    (dats m 0 c).arrAt 6 cfg0.N = GT (xs m c) (V m c main_v208) :=
  (dats m 0 c).arrAt_eq_of_cover 6 _ (fun t _ => flushed_eq m c hx t) covered

end Cert.KernelIdeal.KValue

end
-- ==== Proof.KRun.lean ====
/-
  The kernel program's run, read: its result is the specification of the samples and of the matrix its own host
  operations compute.

  After the region the program transposes the 10 × 2097152 output array back to 2097152 × 10.  The output array is the
  specification transposed, so the result is the specification.
-/
import proofs.«133008_j10806137716891_2_alg».proof.Proof.KBlocks
import Idealize.ShloMosaic.Lib.StableHlo.Run

set_option maxRecDepth 200000

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.GenP Idealize.ShloMosaic.ValueIdx Cert.Amplitude

variable (m : (ℓ : Loc nD τ sig) → Buf (Elt Ideal) ℓ) (ρ : Dev nD → PrngReg)

/-- The specification transposed, transposed back, is the specification. -/
theorem transpose_GT (x : SX.Idx → EReal) (U : SU.Idx → EReal) (h : S10x2097152.Transposes [1, 0] S2097152x10) :
    transpose S2097152x10 [1, 0] (GT x U) h = G x U := by
  funext i
  obtain ⟨b, cc, rfl⟩ : ∃ (b : Fin 2097152) (cc : Fin 10), i = ix2 b cc := ⟨i 0, i 1, eq_ix2 i⟩
  rw [G_apply]
  refine (transpose_apply [1, 0] (GT x U) h (ix2 b cc) (ix2 cc b) fun a => ?_).trans rfl
  match a with
  | ⟨0, _⟩ => rfl
  | ⟨1, _⟩ => rfl

/-- THE RUN, READ.  From a memory whose samples are all finite, every weakly fair execution terminates with the result
    at the specification of the samples and the matrix, the arguments unchanged. -/
theorem run (hx : ∀ (c : Dev nD) i, ∃ r : ℝ, xs m c i = (r : EReal)) :
    θ_run defs (onTc (τ := τ) (main (F := Ideal))) ⟨m, fun _ => 0, ρ⟩ fun r => ∀ c : Dev nD,
      r.2.mem ((c : Thread nD τ).loc main_v212) = G (xs m c) (V m c main_v208)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (GenP.run_main m ρ)
  · refine ((h c).2 main_v212 (Pipeline.mem_restRefs_of main_v212 (by decide) (by decide))).trans ?_
    unfold Pipeline.afterTail₀
    show StableHlo.after hostOps1 _ (Proc.devRef .tc main_v212) = _
    after_results
    have e := (Pipeline.withArrays_arr spec0 launch0.win.arr_inj c (V0 m c) (fun w => (dats m 0 c).arrAt w cfg0.N) 6).trans
      (final m c (hx c))
    refine Eq.trans ?_ (transpose_GT (xs m c) (V m c main_v208) transposes_S10x2097152_S2097152x10_1_0)
    exact congrArg (fun z => transpose S2097152x10 [1, 0] z transposes_S10x2097152_S2097152x10_1_0) e
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.KValue

end
-- ==== Proof.RefOps.lean ====
/- The reference's host operations as lists. The window that holds the operation writing the 16 x 16 matrix is cut after it:
   the lists up to and including ops4a compute the matrix, the later ones the amplitudes and the result. -/
import proofs.«133008_j10806137716891_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- 69 operations. -/
abbrev ops0 : List (HloOp τ sig (Elt F)) :=
  [ StableHlo.nullary main_cst (fun i => FloatOps.ofBits .f32 (lit0 (S2x2.rowMajor i))),
    StableHlo.nullary main_cst_0 (fun i => FloatOps.ofBits .f32 (lit1 (S4x4.rowMajor i))),
    StableHlo.nullary main_cst_1 (fun i => FloatOps.ofBits .f32 (lit2 (S4x4.rowMajor i))),
    StableHlo.nullary main_cst_2 (fun i => FloatOps.ofBits .f32 (lit3 (S16x4.rowMajor i))),
    StableHlo.nullary main_cst_3 (fun i => FloatOps.ofBits .f32 (lit4 (S16x4.rowMajor i))),
    StableHlo.unary main_arg1 main_v0 ((extractStridedSlice S4 ![0] · slices_S8_S4_0) : (⟨S8, .f32⟩ : BufTy).Contents (Elt F) → (⟨S4, .f32⟩ : BufTy).Contents (Elt F)),
    StableHlo.nullary main_cst_4 (constant S_ .f32 0x3F800000#32),
    StableHlo.unary main_cst_4 main_v1 (broadcastInDim S1x1 ![] bcast_S_S1x1 : (⟨S_, .f32⟩ : BufTy).Contents (Elt F) → (⟨S1x1, .f32⟩ : BufTy).Contents (Elt F)),
    StableHlo.unary main_v0 main_v2 ((extractStridedSlice S1 ![0] · slices_S4_S1_0) : (⟨S4, .f32⟩ : BufTy).Contents (Elt F) → (⟨S1, .f32⟩ : BufTy).Contents (Elt F)),
    StableHlo.reshape main_v2 main_v3 rfl shapeCasts_S1_S_,
    StableHlo.nullary main_cst_5 (constant S_ .f32 0x40000000#32),
    StableHlo.binary main_v3 main_cst_5 main_v4 (Host.divf : (⟨S_, .f32⟩ : BufTy).Contents (Elt F) → (⟨S_, .f32⟩ : BufTy).Contents (Elt F) → (⟨S_, .f32⟩ : BufTy).Contents (Elt F)),
    StableHlo.unary main_v4 main_v5 (Host.cos : (⟨S_, .f32⟩ : BufTy).Contents (Elt F) → (⟨S_, .f32⟩ : BufTy).Contents (Elt F)),
    StableHlo.nullary main_cst_6 (constant S_ .f32 0x40000000#32),
    StableHlo.binary main_v3 main_cst_6 main_v6 (Host.divf : (⟨S_, .f32⟩ : BufTy).Contents (Elt F) → (⟨S_, .f32⟩ : BufTy).Contents (Elt F) → (⟨S_, .f32⟩ : BufTy).Contents (Elt F)),
    StableHlo.unary main_v6 main_v7 (Host.sin : (⟨S_, .f32⟩ : BufTy).Contents (Elt F) → (⟨S_, .f32⟩ : BufTy).Contents (Elt F)),
    StableHlo.unary main_v7 main_v8 (Host.negf : (⟨S_, .f32⟩ : BufTy).Contents (Elt F) → (⟨S_, .f32⟩ : BufTy).Contents (Elt F)),
    StableHlo.unary main_v5 main_v9 (broadcastInDim S1 ![] bcast_S_S1 : (⟨S_, .f32⟩ : BufTy).Contents (Elt F) → (⟨S1, .f32⟩ : BufTy).Contents (Elt F)),
    StableHlo.unary main_v8 main_v10 (broadcastInDim S1 ![] bcast_S_S1 : (⟨S_, .f32⟩ : BufTy).Contents (Elt F) → (⟨S1, .f32⟩ : BufTy).Contents (Elt F)),
    StableHlo.binary main_v9 main_v10 main_v11 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v7 main_v12 (broadcastInDim S1 ![] bcast_S_S1 : (⟨S_, .f32⟩ : BufTy).Contents (Elt F) → (⟨S1, .f32⟩ : BufTy).Contents (Elt F)),
    StableHlo.unary main_v5 main_v13 (broadcastInDim S1 ![] bcast_S_S1 : (⟨S_, .f32⟩ : BufTy).Contents (Elt F) → (⟨S1, .f32⟩ : BufTy).Contents (Elt F)),
    StableHlo.binary main_v12 main_v13 main_v14 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v11 main_v15 (broadcastInDim S1x2 ![1] bcast_S2_S1x2_1 : (⟨S2, .f32⟩ : BufTy).Contents (Elt F) → (⟨S1x2, .f32⟩ : BufTy).Contents (Elt F)),
    StableHlo.unary main_v14 main_v16 (broadcastInDim S1x2 ![1] bcast_S2_S1x2_1 : (⟨S2, .f32⟩ : BufTy).Contents (Elt F) → (⟨S1x2, .f32⟩ : BufTy).Contents (Elt F)),
    StableHlo.binary main_v15 main_v16 main_v17 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v17 : StableHlo.TRef sig ⟨S2x2, .f32⟩) main_call0.v0 (broadcastInDim S2x1x2x1 ![0, 2] bcast_S2x2_S2x1x2x1_0_2),
    StableHlo.TRef.unary (StableHlo.TRef.of main_v1 : StableHlo.TRef sig ⟨S1x1, .f32⟩) main_call0.v1 (broadcastInDim S1x1x1x1 ![1, 3] bcast_S1x1_S1x1x1x1_1_3),
    StableHlo.TRef.unary main_call0.v1 main_call0.v2 (broadcastInDim S2x1x2x1 ![0, 1, 2, 3] bcast_S1x1x1x1_S2x1x2x1_0_1_2_3),
    StableHlo.TRef.binary main_call0.v0 main_call0.v2 main_call0.v3 mulf,
    StableHlo.TRef.reshape main_call0.v3 main_call0.v4 rfl shapeCasts_S2x1x2x1_S2x2,
    StableHlo.unary main_v0 main_v19 ((extractStridedSlice S1 ![1] · slices_S4_S1_1) : (⟨S4, .f32⟩ : BufTy).Contents (Elt F) → (⟨S1, .f32⟩ : BufTy).Contents (Elt F)),
    StableHlo.reshape main_v19 main_v20 rfl shapeCasts_S1_S_,
    StableHlo.nullary main_cst_7 (constant S_ .f32 0x40000000#32),
    StableHlo.binary main_v20 main_cst_7 main_v21 (Host.divf : (⟨S_, .f32⟩ : BufTy).Contents (Elt F) → (⟨S_, .f32⟩ : BufTy).Contents (Elt F) → (⟨S_, .f32⟩ : BufTy).Contents (Elt F)),
    StableHlo.unary main_v21 main_v22 (Host.cos : (⟨S_, .f32⟩ : BufTy).Contents (Elt F) → (⟨S_, .f32⟩ : BufTy).Contents (Elt F)),
    StableHlo.nullary main_cst_8 (constant S_ .f32 0x40000000#32),
    StableHlo.binary main_v20 main_cst_8 main_v23 (Host.divf : (⟨S_, .f32⟩ : BufTy).Contents (Elt F) → (⟨S_, .f32⟩ : BufTy).Contents (Elt F) → (⟨S_, .f32⟩ : BufTy).Contents (Elt F)),
    StableHlo.unary main_v23 main_v24 (Host.sin : (⟨S_, .f32⟩ : BufTy).Contents (Elt F) → (⟨S_, .f32⟩ : BufTy).Contents (Elt F)),
    StableHlo.unary main_v24 main_v25 (Host.negf : (⟨S_, .f32⟩ : BufTy).Contents (Elt F) → (⟨S_, .f32⟩ : BufTy).Contents (Elt F)),
    StableHlo.unary main_v22 main_v26 (broadcastInDim S1 ![] bcast_S_S1 : (⟨S_, .f32⟩ : BufTy).Contents (Elt F) → (⟨S1, .f32⟩ : BufTy).Contents (Elt F)),
    StableHlo.unary main_v25 main_v27 (broadcastInDim S1 ![] bcast_S_S1 : (⟨S_, .f32⟩ : BufTy).Contents (Elt F) → (⟨S1, .f32⟩ : BufTy).Contents (Elt F)),
    StableHlo.binary main_v26 main_v27 main_v28 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v24 main_v29 (broadcastInDim S1 ![] bcast_S_S1 : (⟨S_, .f32⟩ : BufTy).Contents (Elt F) → (⟨S1, .f32⟩ : BufTy).Contents (Elt F)),
    StableHlo.unary main_v22 main_v30 (broadcastInDim S1 ![] bcast_S_S1 : (⟨S_, .f32⟩ : BufTy).Contents (Elt F) → (⟨S1, .f32⟩ : BufTy).Contents (Elt F)),
    StableHlo.binary main_v29 main_v30 main_v31 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v28 main_v32 (broadcastInDim S1x2 ![1] bcast_S2_S1x2_1 : (⟨S2, .f32⟩ : BufTy).Contents (Elt F) → (⟨S1x2, .f32⟩ : BufTy).Contents (Elt F)),
    StableHlo.unary main_v31 main_v33 (broadcastInDim S1x2 ![1] bcast_S2_S1x2_1 : (⟨S2, .f32⟩ : BufTy).Contents (Elt F) → (⟨S1x2, .f32⟩ : BufTy).Contents (Elt F)),
    StableHlo.binary main_v32 main_v33 main_v34 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v34 : StableHlo.TRef sig ⟨S2x2, .f32⟩) main_call1.v0 (broadcastInDim S2x1x2x1 ![0, 2] bcast_S2x2_S2x1x2x1_0_2),
    StableHlo.TRef.unary (StableHlo.TRef.of main_v18 : StableHlo.TRef sig ⟨S2x2, .f32⟩) main_call1.v1 (broadcastInDim S1x2x1x2 ![1, 3] bcast_S2x2_S1x2x1x2_1_3),
    StableHlo.TRef.unary main_call1.v0 main_call1.v2 (broadcastInDim S2x2x2x2 ![0, 1, 2, 3] bcast_S2x1x2x1_S2x2x2x2_0_1_2_3),
    StableHlo.TRef.unary main_call1.v1 main_call1.v3 (broadcastInDim S2x2x2x2 ![0, 1, 2, 3] bcast_S1x2x1x2_S2x2x2x2_0_1_2_3),
    StableHlo.TRef.binary main_call1.v2 main_call1.v3 main_call1.v4 mulf,
    StableHlo.TRef.reshape main_call1.v4 main_call1.v5 rfl shapeCasts_S2x2x2x2_S4x4,
    StableHlo.unary main_v0 main_v36 ((extractStridedSlice S1 ![2] · slices_S4_S1_2) : (⟨S4, .f32⟩ : BufTy).Contents (Elt F) → (⟨S1, .f32⟩ : BufTy).Contents (Elt F)),
    StableHlo.reshape main_v36 main_v37 rfl shapeCasts_S1_S_,
    StableHlo.nullary main_cst_9 (constant S_ .f32 0x40000000#32),
    StableHlo.binary main_v37 main_cst_9 main_v38 (Host.divf : (⟨S_, .f32⟩ : BufTy).Contents (Elt F) → (⟨S_, .f32⟩ : BufTy).Contents (Elt F) → (⟨S_, .f32⟩ : BufTy).Contents (Elt F)),
    StableHlo.unary main_v38 main_v39 (Host.cos : (⟨S_, .f32⟩ : BufTy).Contents (Elt F) → (⟨S_, .f32⟩ : BufTy).Contents (Elt F)),
    StableHlo.nullary main_cst_10 (constant S_ .f32 0x40000000#32),
    StableHlo.binary main_v37 main_cst_10 main_v40 (Host.divf : (⟨S_, .f32⟩ : BufTy).Contents (Elt F) → (⟨S_, .f32⟩ : BufTy).Contents (Elt F) → (⟨S_, .f32⟩ : BufTy).Contents (Elt F)),
    StableHlo.unary main_v40 main_v41 (Host.sin : (⟨S_, .f32⟩ : BufTy).Contents (Elt F) → (⟨S_, .f32⟩ : BufTy).Contents (Elt F)),
    StableHlo.unary main_v41 main_v42 (Host.negf : (⟨S_, .f32⟩ : BufTy).Contents (Elt F) → (⟨S_, .f32⟩ : BufTy).Contents (Elt F)),
    StableHlo.unary main_v39 main_v43 (broadcastInDim S1 ![] bcast_S_S1 : (⟨S_, .f32⟩ : BufTy).Contents (Elt F) → (⟨S1, .f32⟩ : BufTy).Contents (Elt F)),
    StableHlo.unary main_v42 main_v44 (broadcastInDim S1 ![] bcast_S_S1 : (⟨S_, .f32⟩ : BufTy).Contents (Elt F) → (⟨S1, .f32⟩ : BufTy).Contents (Elt F)),
    StableHlo.binary main_v43 main_v44 main_v45 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v41 main_v46 (broadcastInDim S1 ![] bcast_S_S1 : (⟨S_, .f32⟩ : BufTy).Contents (Elt F) → (⟨S1, .f32⟩ : BufTy).Contents (Elt F)),
    StableHlo.unary main_v39 main_v47 (broadcastInDim S1 ![] bcast_S_S1 : (⟨S_, .f32⟩ : BufTy).Contents (Elt F) → (⟨S1, .f32⟩ : BufTy).Contents (Elt F)) ]

/-- 98 operations. -/
abbrev ops1 : List (HloOp τ sig (Elt F)) :=
  [ StableHlo.binary main_v46 main_v47 main_v48 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v45 main_v49 (broadcastInDim S1x2 ![1] bcast_S2_S1x2_1 : (⟨S2, .f32⟩ : BufTy).Contents (Elt F) → (⟨S1x2, .f32⟩ : BufTy).Contents (Elt F)),
    StableHlo.unary main_v48 main_v50 (broadcastInDim S1x2 ![1] bcast_S2_S1x2_1 : (⟨S2, .f32⟩ : BufTy).Contents (Elt F) → (⟨S1x2, .f32⟩ : BufTy).Contents (Elt F)),
    StableHlo.binary main_v49 main_v50 main_v51 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v51 : StableHlo.TRef sig ⟨S2x2, .f32⟩) main_call2.v0 (broadcastInDim S2x1x2x1 ![0, 2] bcast_S2x2_S2x1x2x1_0_2),
    StableHlo.TRef.unary (StableHlo.TRef.of main_v35 : StableHlo.TRef sig ⟨S4x4, .f32⟩) main_call2.v1 (broadcastInDim S1x4x1x4 ![1, 3] bcast_S4x4_S1x4x1x4_1_3),
    StableHlo.TRef.unary main_call2.v0 main_call2.v2 (broadcastInDim S2x4x2x4 ![0, 1, 2, 3] bcast_S2x1x2x1_S2x4x2x4_0_1_2_3),
    StableHlo.TRef.unary main_call2.v1 main_call2.v3 (broadcastInDim S2x4x2x4 ![0, 1, 2, 3] bcast_S1x4x1x4_S2x4x2x4_0_1_2_3),
    StableHlo.TRef.binary main_call2.v2 main_call2.v3 main_call2.v4 mulf,
    StableHlo.TRef.reshape main_call2.v4 main_call2.v5 rfl shapeCasts_S2x4x2x4_S8x8,
    StableHlo.unary main_v0 main_v53 ((extractStridedSlice S1 ![3] · slices_S4_S1_3) : (⟨S4, .f32⟩ : BufTy).Contents (Elt F) → (⟨S1, .f32⟩ : BufTy).Contents (Elt F)),
    StableHlo.reshape main_v53 main_v54 rfl shapeCasts_S1_S_,
    StableHlo.nullary main_cst_11 (constant S_ .f32 0x40000000#32),
    StableHlo.binary main_v54 main_cst_11 main_v55 (Host.divf : (⟨S_, .f32⟩ : BufTy).Contents (Elt F) → (⟨S_, .f32⟩ : BufTy).Contents (Elt F) → (⟨S_, .f32⟩ : BufTy).Contents (Elt F)),
    StableHlo.unary main_v55 main_v56 (Host.cos : (⟨S_, .f32⟩ : BufTy).Contents (Elt F) → (⟨S_, .f32⟩ : BufTy).Contents (Elt F)),
    StableHlo.nullary main_cst_12 (constant S_ .f32 0x40000000#32),
    StableHlo.binary main_v54 main_cst_12 main_v57 (Host.divf : (⟨S_, .f32⟩ : BufTy).Contents (Elt F) → (⟨S_, .f32⟩ : BufTy).Contents (Elt F) → (⟨S_, .f32⟩ : BufTy).Contents (Elt F)),
    StableHlo.unary main_v57 main_v58 (Host.sin : (⟨S_, .f32⟩ : BufTy).Contents (Elt F) → (⟨S_, .f32⟩ : BufTy).Contents (Elt F)),
    StableHlo.unary main_v58 main_v59 (Host.negf : (⟨S_, .f32⟩ : BufTy).Contents (Elt F) → (⟨S_, .f32⟩ : BufTy).Contents (Elt F)),
    StableHlo.unary main_v56 main_v60 (broadcastInDim S1 ![] bcast_S_S1 : (⟨S_, .f32⟩ : BufTy).Contents (Elt F) → (⟨S1, .f32⟩ : BufTy).Contents (Elt F)),
    StableHlo.unary main_v59 main_v61 (broadcastInDim S1 ![] bcast_S_S1 : (⟨S_, .f32⟩ : BufTy).Contents (Elt F) → (⟨S1, .f32⟩ : BufTy).Contents (Elt F)),
    StableHlo.binary main_v60 main_v61 main_v62 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v58 main_v63 (broadcastInDim S1 ![] bcast_S_S1 : (⟨S_, .f32⟩ : BufTy).Contents (Elt F) → (⟨S1, .f32⟩ : BufTy).Contents (Elt F)),
    StableHlo.unary main_v56 main_v64 (broadcastInDim S1 ![] bcast_S_S1 : (⟨S_, .f32⟩ : BufTy).Contents (Elt F) → (⟨S1, .f32⟩ : BufTy).Contents (Elt F)),
    StableHlo.binary main_v63 main_v64 main_v65 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v62 main_v66 (broadcastInDim S1x2 ![1] bcast_S2_S1x2_1 : (⟨S2, .f32⟩ : BufTy).Contents (Elt F) → (⟨S1x2, .f32⟩ : BufTy).Contents (Elt F)),
    StableHlo.unary main_v65 main_v67 (broadcastInDim S1x2 ![1] bcast_S2_S1x2_1 : (⟨S2, .f32⟩ : BufTy).Contents (Elt F) → (⟨S1x2, .f32⟩ : BufTy).Contents (Elt F)),
    StableHlo.binary main_v66 main_v67 main_v68 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v68 : StableHlo.TRef sig ⟨S2x2, .f32⟩) main_call3.v0 (broadcastInDim S2x1x2x1 ![0, 2] bcast_S2x2_S2x1x2x1_0_2),
    StableHlo.TRef.unary (StableHlo.TRef.of main_v52 : StableHlo.TRef sig ⟨S8x8, .f32⟩) main_call3.v1 (broadcastInDim S1x8x1x8 ![1, 3] bcast_S8x8_S1x8x1x8_1_3),
    StableHlo.TRef.unary main_call3.v0 main_call3.v2 (broadcastInDim S2x8x2x8 ![0, 1, 2, 3] bcast_S2x1x2x1_S2x8x2x8_0_1_2_3),
    StableHlo.TRef.unary main_call3.v1 main_call3.v3 (broadcastInDim S2x8x2x8 ![0, 1, 2, 3] bcast_S1x8x1x8_S2x8x2x8_0_1_2_3),
    StableHlo.TRef.binary main_call3.v2 main_call3.v3 main_call3.v4 mulf,
    StableHlo.TRef.reshape main_call3.v4 main_call3.v5 rfl shapeCasts_S2x8x2x8_S16x16,
    StableHlo.nullary main_v70 (iotaInDim S16x16 32 0),
    StableHlo.nullary main_v71 (iotaInDim S16x16 32 1),
    StableHlo.nullary main_c (constantI S_ 32 0#32),
    StableHlo.unary main_c main_v72 (broadcastInDim S16x16 ![] bcast_S_S16x16 : (⟨S_, .i32⟩ : BufTy).Contents (Elt F) → (⟨S16x16, .i32⟩ : BufTy).Contents (Elt F)),
    StableHlo.binary main_v70 main_v72 main_v73 (addi : (⟨S16x16, .i32⟩ : BufTy).Contents (Elt F) → (⟨S16x16, .i32⟩ : BufTy).Contents (Elt F) → (⟨S16x16, .i32⟩ : BufTy).Contents (Elt F)),
    StableHlo.binary main_v73 main_v71 main_v74 (cmpi .eq : (⟨S16x16, .i32⟩ : BufTy).Contents (Elt F) → (⟨S16x16, .i32⟩ : BufTy).Contents (Elt F) → (⟨S16x16, .i1⟩ : BufTy).Contents (Elt F)),
    StableHlo.unary main_v74 main_v75 (uitofp .f32 : (⟨S16x16, .i1⟩ : BufTy).Contents (Elt F) → (⟨S16x16, .f32⟩ : BufTy).Contents (Elt F)),
    StableHlo.nullary main_cst_13 (constant S_ .f32 0x3F800000#32),
    StableHlo.unary main_cst_13 main_v76 (broadcastInDim S1x1 ![] bcast_S_S1x1 : (⟨S_, .f32⟩ : BufTy).Contents (Elt F) → (⟨S1x1, .f32⟩ : BufTy).Contents (Elt F)),
    StableHlo.TRef.unary (StableHlo.TRef.of main_cst : StableHlo.TRef sig ⟨S2x2, .f32⟩) main_call4.v0 (broadcastInDim S2x1x2x1 ![0, 2] bcast_S2x2_S2x1x2x1_0_2),
    StableHlo.TRef.unary (StableHlo.TRef.of main_v76 : StableHlo.TRef sig ⟨S1x1, .f32⟩) main_call4.v1 (broadcastInDim S1x1x1x1 ![1, 3] bcast_S1x1_S1x1x1x1_1_3),
    StableHlo.TRef.unary main_call4.v1 main_call4.v2 (broadcastInDim S2x1x2x1 ![0, 1, 2, 3] bcast_S1x1x1x1_S2x1x2x1_0_1_2_3),
    StableHlo.TRef.binary main_call4.v0 main_call4.v2 main_call4.v3 mulf,
    StableHlo.TRef.reshape main_call4.v3 main_call4.v4 rfl shapeCasts_S2x1x2x1_S2x2,
    StableHlo.TRef.unary (StableHlo.TRef.of main_cst : StableHlo.TRef sig ⟨S2x2, .f32⟩) main_call5.v0 (broadcastInDim S2x1x2x1 ![0, 2] bcast_S2x2_S2x1x2x1_0_2),
    StableHlo.TRef.unary (StableHlo.TRef.of main_v77 : StableHlo.TRef sig ⟨S2x2, .f32⟩) main_call5.v1 (broadcastInDim S1x2x1x2 ![1, 3] bcast_S2x2_S1x2x1x2_1_3),
    StableHlo.TRef.unary main_call5.v0 main_call5.v2 (broadcastInDim S2x2x2x2 ![0, 1, 2, 3] bcast_S2x1x2x1_S2x2x2x2_0_1_2_3),
    StableHlo.TRef.unary main_call5.v1 main_call5.v3 (broadcastInDim S2x2x2x2 ![0, 1, 2, 3] bcast_S1x2x1x2_S2x2x2x2_0_1_2_3),
    StableHlo.TRef.binary main_call5.v2 main_call5.v3 main_call5.v4 mulf,
    StableHlo.TRef.reshape main_call5.v4 main_call5.v5 rfl shapeCasts_S2x2x2x2_S4x4,
    StableHlo.TRef.unary (StableHlo.TRef.of main_cst_0 : StableHlo.TRef sig ⟨S4x4, .f32⟩) main_call6.v0 (broadcastInDim S4x1x4x1 ![0, 2] bcast_S4x4_S4x1x4x1_0_2),
    StableHlo.TRef.unary (StableHlo.TRef.of main_v78 : StableHlo.TRef sig ⟨S4x4, .f32⟩) main_call6.v1 (broadcastInDim S1x4x1x4 ![1, 3] bcast_S4x4_S1x4x1x4_1_3),
    StableHlo.TRef.unary main_call6.v0 main_call6.v2 (broadcastInDim S4x4x4x4 ![0, 1, 2, 3] bcast_S4x1x4x1_S4x4x4x4_0_1_2_3),
    StableHlo.TRef.unary main_call6.v1 main_call6.v3 (broadcastInDim S4x4x4x4 ![0, 1, 2, 3] bcast_S1x4x1x4_S4x4x4x4_0_1_2_3),
    StableHlo.TRef.binary main_call6.v2 main_call6.v3 main_call6.v4 mulf,
    StableHlo.TRef.reshape main_call6.v4 main_call6.v5 rfl shapeCasts_S4x4x4x4_S16x16,
    StableHlo.binary main_v79 main_v75 main_v80 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v80 main_v69 main_v81 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.nullary main_v82 (iotaInDim S16x16 32 0),
    StableHlo.nullary main_v83 (iotaInDim S16x16 32 1),
    StableHlo.nullary main_c_14 (constantI S_ 32 0#32),
    StableHlo.unary main_c_14 main_v84 (broadcastInDim S16x16 ![] bcast_S_S16x16 : (⟨S_, .i32⟩ : BufTy).Contents (Elt F) → (⟨S16x16, .i32⟩ : BufTy).Contents (Elt F)),
    StableHlo.binary main_v82 main_v84 main_v85 (addi : (⟨S16x16, .i32⟩ : BufTy).Contents (Elt F) → (⟨S16x16, .i32⟩ : BufTy).Contents (Elt F) → (⟨S16x16, .i32⟩ : BufTy).Contents (Elt F)),
    StableHlo.binary main_v85 main_v83 main_v86 (cmpi .eq : (⟨S16x16, .i32⟩ : BufTy).Contents (Elt F) → (⟨S16x16, .i32⟩ : BufTy).Contents (Elt F) → (⟨S16x16, .i1⟩ : BufTy).Contents (Elt F)),
    StableHlo.unary main_v86 main_v87 (uitofp .f32 : (⟨S16x16, .i1⟩ : BufTy).Contents (Elt F) → (⟨S16x16, .f32⟩ : BufTy).Contents (Elt F)),
    StableHlo.nullary main_cst_15 (constant S_ .f32 0x3F800000#32),
    StableHlo.unary main_cst_15 main_v88 (broadcastInDim S1x1 ![] bcast_S_S1x1 : (⟨S_, .f32⟩ : BufTy).Contents (Elt F) → (⟨S1x1, .f32⟩ : BufTy).Contents (Elt F)),
    StableHlo.TRef.unary (StableHlo.TRef.of main_cst : StableHlo.TRef sig ⟨S2x2, .f32⟩) main_call7.v0 (broadcastInDim S2x1x2x1 ![0, 2] bcast_S2x2_S2x1x2x1_0_2),
    StableHlo.TRef.unary (StableHlo.TRef.of main_v88 : StableHlo.TRef sig ⟨S1x1, .f32⟩) main_call7.v1 (broadcastInDim S1x1x1x1 ![1, 3] bcast_S1x1_S1x1x1x1_1_3),
    StableHlo.TRef.unary main_call7.v1 main_call7.v2 (broadcastInDim S2x1x2x1 ![0, 1, 2, 3] bcast_S1x1x1x1_S2x1x2x1_0_1_2_3),
    StableHlo.TRef.binary main_call7.v0 main_call7.v2 main_call7.v3 mulf,
    StableHlo.TRef.reshape main_call7.v3 main_call7.v4 rfl shapeCasts_S2x1x2x1_S2x2,
    StableHlo.TRef.unary (StableHlo.TRef.of main_cst_0 : StableHlo.TRef sig ⟨S4x4, .f32⟩) main_call8.v0 (broadcastInDim S4x1x4x1 ![0, 2] bcast_S4x4_S4x1x4x1_0_2),
    StableHlo.TRef.unary (StableHlo.TRef.of main_v89 : StableHlo.TRef sig ⟨S2x2, .f32⟩) main_call8.v1 (broadcastInDim S1x2x1x2 ![1, 3] bcast_S2x2_S1x2x1x2_1_3),
    StableHlo.TRef.unary main_call8.v0 main_call8.v2 (broadcastInDim S4x2x4x2 ![0, 1, 2, 3] bcast_S4x1x4x1_S4x2x4x2_0_1_2_3),
    StableHlo.TRef.unary main_call8.v1 main_call8.v3 (broadcastInDim S4x2x4x2 ![0, 1, 2, 3] bcast_S1x2x1x2_S4x2x4x2_0_1_2_3),
    StableHlo.TRef.binary main_call8.v2 main_call8.v3 main_call8.v4 mulf,
    StableHlo.TRef.reshape main_call8.v4 main_call8.v5 rfl shapeCasts_S4x2x4x2_S8x8,
    StableHlo.TRef.unary (StableHlo.TRef.of main_cst : StableHlo.TRef sig ⟨S2x2, .f32⟩) main_call9.v0 (broadcastInDim S2x1x2x1 ![0, 2] bcast_S2x2_S2x1x2x1_0_2),
    StableHlo.TRef.unary (StableHlo.TRef.of main_v90 : StableHlo.TRef sig ⟨S8x8, .f32⟩) main_call9.v1 (broadcastInDim S1x8x1x8 ![1, 3] bcast_S8x8_S1x8x1x8_1_3),
    StableHlo.TRef.unary main_call9.v0 main_call9.v2 (broadcastInDim S2x8x2x8 ![0, 1, 2, 3] bcast_S2x1x2x1_S2x8x2x8_0_1_2_3),
    StableHlo.TRef.unary main_call9.v1 main_call9.v3 (broadcastInDim S2x8x2x8 ![0, 1, 2, 3] bcast_S1x8x1x8_S2x8x2x8_0_1_2_3),
    StableHlo.TRef.binary main_call9.v2 main_call9.v3 main_call9.v4 mulf,
    StableHlo.TRef.reshape main_call9.v4 main_call9.v5 rfl shapeCasts_S2x8x2x8_S16x16,
    StableHlo.binary main_v91 main_v87 main_v92 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v92 main_v81 main_v93 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.nullary main_v94 (iotaInDim S16x16 32 0),
    StableHlo.nullary main_v95 (iotaInDim S16x16 32 1),
    StableHlo.nullary main_c_16 (constantI S_ 32 0#32),
    StableHlo.unary main_c_16 main_v96 (broadcastInDim S16x16 ![] bcast_S_S16x16 : (⟨S_, .i32⟩ : BufTy).Contents (Elt F) → (⟨S16x16, .i32⟩ : BufTy).Contents (Elt F)),
    StableHlo.binary main_v94 main_v96 main_v97 (addi : (⟨S16x16, .i32⟩ : BufTy).Contents (Elt F) → (⟨S16x16, .i32⟩ : BufTy).Contents (Elt F) → (⟨S16x16, .i32⟩ : BufTy).Contents (Elt F)),
    StableHlo.binary main_v97 main_v95 main_v98 (cmpi .eq : (⟨S16x16, .i32⟩ : BufTy).Contents (Elt F) → (⟨S16x16, .i32⟩ : BufTy).Contents (Elt F) → (⟨S16x16, .i1⟩ : BufTy).Contents (Elt F)),
    StableHlo.unary main_v98 main_v99 (uitofp .f32 : (⟨S16x16, .i1⟩ : BufTy).Contents (Elt F) → (⟨S16x16, .f32⟩ : BufTy).Contents (Elt F)),
    StableHlo.nullary main_cst_17 (constant S_ .f32 0x3F800000#32) ]

/-- 144 operations. -/
abbrev ops2 : List (HloOp τ sig (Elt F)) :=
  [ StableHlo.unary main_cst_17 main_v100 (broadcastInDim S1x1 ![] bcast_S_S1x1 : (⟨S_, .f32⟩ : BufTy).Contents (Elt F) → (⟨S1x1, .f32⟩ : BufTy).Contents (Elt F)),
    StableHlo.TRef.unary (StableHlo.TRef.of main_cst_0 : StableHlo.TRef sig ⟨S4x4, .f32⟩) main_call10.v0 (broadcastInDim S4x1x4x1 ![0, 2] bcast_S4x4_S4x1x4x1_0_2),
    StableHlo.TRef.unary (StableHlo.TRef.of main_v100 : StableHlo.TRef sig ⟨S1x1, .f32⟩) main_call10.v1 (broadcastInDim S1x1x1x1 ![1, 3] bcast_S1x1_S1x1x1x1_1_3),
    StableHlo.TRef.unary main_call10.v1 main_call10.v2 (broadcastInDim S4x1x4x1 ![0, 1, 2, 3] bcast_S1x1x1x1_S4x1x4x1_0_1_2_3),
    StableHlo.TRef.binary main_call10.v0 main_call10.v2 main_call10.v3 mulf,
    StableHlo.TRef.reshape main_call10.v3 main_call10.v4 rfl shapeCasts_S4x1x4x1_S4x4,
    StableHlo.TRef.unary (StableHlo.TRef.of main_cst : StableHlo.TRef sig ⟨S2x2, .f32⟩) main_call11.v0 (broadcastInDim S2x1x2x1 ![0, 2] bcast_S2x2_S2x1x2x1_0_2),
    StableHlo.TRef.unary (StableHlo.TRef.of main_v101 : StableHlo.TRef sig ⟨S4x4, .f32⟩) main_call11.v1 (broadcastInDim S1x4x1x4 ![1, 3] bcast_S4x4_S1x4x1x4_1_3),
    StableHlo.TRef.unary main_call11.v0 main_call11.v2 (broadcastInDim S2x4x2x4 ![0, 1, 2, 3] bcast_S2x1x2x1_S2x4x2x4_0_1_2_3),
    StableHlo.TRef.unary main_call11.v1 main_call11.v3 (broadcastInDim S2x4x2x4 ![0, 1, 2, 3] bcast_S1x4x1x4_S2x4x2x4_0_1_2_3),
    StableHlo.TRef.binary main_call11.v2 main_call11.v3 main_call11.v4 mulf,
    StableHlo.TRef.reshape main_call11.v4 main_call11.v5 rfl shapeCasts_S2x4x2x4_S8x8,
    StableHlo.TRef.unary (StableHlo.TRef.of main_cst : StableHlo.TRef sig ⟨S2x2, .f32⟩) main_call12.v0 (broadcastInDim S2x1x2x1 ![0, 2] bcast_S2x2_S2x1x2x1_0_2),
    StableHlo.TRef.unary (StableHlo.TRef.of main_v102 : StableHlo.TRef sig ⟨S8x8, .f32⟩) main_call12.v1 (broadcastInDim S1x8x1x8 ![1, 3] bcast_S8x8_S1x8x1x8_1_3),
    StableHlo.TRef.unary main_call12.v0 main_call12.v2 (broadcastInDim S2x8x2x8 ![0, 1, 2, 3] bcast_S2x1x2x1_S2x8x2x8_0_1_2_3),
    StableHlo.TRef.unary main_call12.v1 main_call12.v3 (broadcastInDim S2x8x2x8 ![0, 1, 2, 3] bcast_S1x8x1x8_S2x8x2x8_0_1_2_3),
    StableHlo.TRef.binary main_call12.v2 main_call12.v3 main_call12.v4 mulf,
    StableHlo.TRef.reshape main_call12.v4 main_call12.v5 rfl shapeCasts_S2x8x2x8_S16x16,
    StableHlo.binary main_v103 main_v99 main_v104 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v104 main_v93 main_v105 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.nullary main_v106 (iotaInDim S16x16 32 0),
    StableHlo.nullary main_v107 (iotaInDim S16x16 32 1),
    StableHlo.nullary main_c_18 (constantI S_ 32 0#32),
    StableHlo.unary main_c_18 main_v108 (broadcastInDim S16x16 ![] bcast_S_S16x16 : (⟨S_, .i32⟩ : BufTy).Contents (Elt F) → (⟨S16x16, .i32⟩ : BufTy).Contents (Elt F)),
    StableHlo.binary main_v106 main_v108 main_v109 (addi : (⟨S16x16, .i32⟩ : BufTy).Contents (Elt F) → (⟨S16x16, .i32⟩ : BufTy).Contents (Elt F) → (⟨S16x16, .i32⟩ : BufTy).Contents (Elt F)),
    StableHlo.binary main_v109 main_v107 main_v110 (cmpi .eq : (⟨S16x16, .i32⟩ : BufTy).Contents (Elt F) → (⟨S16x16, .i32⟩ : BufTy).Contents (Elt F) → (⟨S16x16, .i1⟩ : BufTy).Contents (Elt F)),
    StableHlo.unary main_v110 main_v111 (uitofp .f32 : (⟨S16x16, .i1⟩ : BufTy).Contents (Elt F) → (⟨S16x16, .f32⟩ : BufTy).Contents (Elt F)),
    StableHlo.nullary main_cst_19 (constant S_ .f32 0x3F800000#32),
    StableHlo.unary main_cst_19 main_v112 (broadcastInDim S1x1 ![] bcast_S_S1x1 : (⟨S_, .f32⟩ : BufTy).Contents (Elt F) → (⟨S1x1, .f32⟩ : BufTy).Contents (Elt F)),
    StableHlo.TRef.unary (StableHlo.TRef.of main_cst : StableHlo.TRef sig ⟨S2x2, .f32⟩) main_call13.v0 (broadcastInDim S2x1x2x1 ![0, 2] bcast_S2x2_S2x1x2x1_0_2),
    StableHlo.TRef.unary (StableHlo.TRef.of main_v112 : StableHlo.TRef sig ⟨S1x1, .f32⟩) main_call13.v1 (broadcastInDim S1x1x1x1 ![1, 3] bcast_S1x1_S1x1x1x1_1_3),
    StableHlo.TRef.unary main_call13.v1 main_call13.v2 (broadcastInDim S2x1x2x1 ![0, 1, 2, 3] bcast_S1x1x1x1_S2x1x2x1_0_1_2_3),
    StableHlo.TRef.binary main_call13.v0 main_call13.v2 main_call13.v3 mulf,
    StableHlo.TRef.reshape main_call13.v3 main_call13.v4 rfl shapeCasts_S2x1x2x1_S2x2,
    StableHlo.TRef.unary (StableHlo.TRef.of main_cst : StableHlo.TRef sig ⟨S2x2, .f32⟩) main_call14.v0 (broadcastInDim S2x1x2x1 ![0, 2] bcast_S2x2_S2x1x2x1_0_2),
    StableHlo.TRef.unary (StableHlo.TRef.of main_v113 : StableHlo.TRef sig ⟨S2x2, .f32⟩) main_call14.v1 (broadcastInDim S1x2x1x2 ![1, 3] bcast_S2x2_S1x2x1x2_1_3),
    StableHlo.TRef.unary main_call14.v0 main_call14.v2 (broadcastInDim S2x2x2x2 ![0, 1, 2, 3] bcast_S2x1x2x1_S2x2x2x2_0_1_2_3),
    StableHlo.TRef.unary main_call14.v1 main_call14.v3 (broadcastInDim S2x2x2x2 ![0, 1, 2, 3] bcast_S1x2x1x2_S2x2x2x2_0_1_2_3),
    StableHlo.TRef.binary main_call14.v2 main_call14.v3 main_call14.v4 mulf,
    StableHlo.TRef.reshape main_call14.v4 main_call14.v5 rfl shapeCasts_S2x2x2x2_S4x4,
    StableHlo.TRef.unary (StableHlo.TRef.of main_cst_1 : StableHlo.TRef sig ⟨S4x4, .f32⟩) main_call15.v0 (broadcastInDim S4x1x4x1 ![0, 2] bcast_S4x4_S4x1x4x1_0_2),
    StableHlo.TRef.unary (StableHlo.TRef.of main_v114 : StableHlo.TRef sig ⟨S4x4, .f32⟩) main_call15.v1 (broadcastInDim S1x4x1x4 ![1, 3] bcast_S4x4_S1x4x1x4_1_3),
    StableHlo.TRef.unary main_call15.v0 main_call15.v2 (broadcastInDim S4x4x4x4 ![0, 1, 2, 3] bcast_S4x1x4x1_S4x4x4x4_0_1_2_3),
    StableHlo.TRef.unary main_call15.v1 main_call15.v3 (broadcastInDim S4x4x4x4 ![0, 1, 2, 3] bcast_S1x4x1x4_S4x4x4x4_0_1_2_3),
    StableHlo.TRef.binary main_call15.v2 main_call15.v3 main_call15.v4 mulf,
    StableHlo.TRef.reshape main_call15.v4 main_call15.v5 rfl shapeCasts_S4x4x4x4_S16x16,
    StableHlo.binary main_v115 main_v111 main_v116 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.nullary main_cst_20 (constant S_ .f32 0x3F800000#32),
    StableHlo.unary main_cst_20 main_v117 (broadcastInDim S1x1 ![] bcast_S_S1x1 : (⟨S_, .f32⟩ : BufTy).Contents (Elt F) → (⟨S1x1, .f32⟩ : BufTy).Contents (Elt F)),
    StableHlo.TRef.unary (StableHlo.TRef.of main_cst : StableHlo.TRef sig ⟨S2x2, .f32⟩) main_call16.v0 (broadcastInDim S2x1x2x1 ![0, 2] bcast_S2x2_S2x1x2x1_0_2),
    StableHlo.TRef.unary (StableHlo.TRef.of main_v117 : StableHlo.TRef sig ⟨S1x1, .f32⟩) main_call16.v1 (broadcastInDim S1x1x1x1 ![1, 3] bcast_S1x1_S1x1x1x1_1_3),
    StableHlo.TRef.unary main_call16.v1 main_call16.v2 (broadcastInDim S2x1x2x1 ![0, 1, 2, 3] bcast_S1x1x1x1_S2x1x2x1_0_1_2_3),
    StableHlo.TRef.binary main_call16.v0 main_call16.v2 main_call16.v3 mulf,
    StableHlo.TRef.reshape main_call16.v3 main_call16.v4 rfl shapeCasts_S2x1x2x1_S2x2,
    StableHlo.TRef.unary (StableHlo.TRef.of main_cst_1 : StableHlo.TRef sig ⟨S4x4, .f32⟩) main_call17.v0 (broadcastInDim S4x1x4x1 ![0, 2] bcast_S4x4_S4x1x4x1_0_2),
    StableHlo.TRef.unary (StableHlo.TRef.of main_v118 : StableHlo.TRef sig ⟨S2x2, .f32⟩) main_call17.v1 (broadcastInDim S1x2x1x2 ![1, 3] bcast_S2x2_S1x2x1x2_1_3),
    StableHlo.TRef.unary main_call17.v0 main_call17.v2 (broadcastInDim S4x2x4x2 ![0, 1, 2, 3] bcast_S4x1x4x1_S4x2x4x2_0_1_2_3),
    StableHlo.TRef.unary main_call17.v1 main_call17.v3 (broadcastInDim S4x2x4x2 ![0, 1, 2, 3] bcast_S1x2x1x2_S4x2x4x2_0_1_2_3),
    StableHlo.TRef.binary main_call17.v2 main_call17.v3 main_call17.v4 mulf,
    StableHlo.TRef.reshape main_call17.v4 main_call17.v5 rfl shapeCasts_S4x2x4x2_S8x8,
    StableHlo.TRef.unary (StableHlo.TRef.of main_cst : StableHlo.TRef sig ⟨S2x2, .f32⟩) main_call18.v0 (broadcastInDim S2x1x2x1 ![0, 2] bcast_S2x2_S2x1x2x1_0_2),
    StableHlo.TRef.unary (StableHlo.TRef.of main_v119 : StableHlo.TRef sig ⟨S8x8, .f32⟩) main_call18.v1 (broadcastInDim S1x8x1x8 ![1, 3] bcast_S8x8_S1x8x1x8_1_3),
    StableHlo.TRef.unary main_call18.v0 main_call18.v2 (broadcastInDim S2x8x2x8 ![0, 1, 2, 3] bcast_S2x1x2x1_S2x8x2x8_0_1_2_3),
    StableHlo.TRef.unary main_call18.v1 main_call18.v3 (broadcastInDim S2x8x2x8 ![0, 1, 2, 3] bcast_S1x8x1x8_S2x8x2x8_0_1_2_3),
    StableHlo.TRef.binary main_call18.v2 main_call18.v3 main_call18.v4 mulf,
    StableHlo.TRef.reshape main_call18.v4 main_call18.v5 rfl shapeCasts_S2x8x2x8_S16x16,
    StableHlo.binary main_v120 main_v116 main_v121 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.nullary main_cst_21 (constant S_ .f32 0x3F800000#32),
    StableHlo.unary main_cst_21 main_v122 (broadcastInDim S1x1 ![] bcast_S_S1x1 : (⟨S_, .f32⟩ : BufTy).Contents (Elt F) → (⟨S1x1, .f32⟩ : BufTy).Contents (Elt F)),
    StableHlo.TRef.unary (StableHlo.TRef.of main_cst_0 : StableHlo.TRef sig ⟨S4x4, .f32⟩) main_call19.v0 (broadcastInDim S4x1x4x1 ![0, 2] bcast_S4x4_S4x1x4x1_0_2),
    StableHlo.TRef.unary (StableHlo.TRef.of main_v122 : StableHlo.TRef sig ⟨S1x1, .f32⟩) main_call19.v1 (broadcastInDim S1x1x1x1 ![1, 3] bcast_S1x1_S1x1x1x1_1_3),
    StableHlo.TRef.unary main_call19.v1 main_call19.v2 (broadcastInDim S4x1x4x1 ![0, 1, 2, 3] bcast_S1x1x1x1_S4x1x4x1_0_1_2_3),
    StableHlo.TRef.binary main_call19.v0 main_call19.v2 main_call19.v3 mulf,
    StableHlo.TRef.reshape main_call19.v3 main_call19.v4 rfl shapeCasts_S4x1x4x1_S4x4,
    StableHlo.TRef.unary (StableHlo.TRef.of main_cst : StableHlo.TRef sig ⟨S2x2, .f32⟩) main_call20.v0 (broadcastInDim S2x1x2x1 ![0, 2] bcast_S2x2_S2x1x2x1_0_2),
    StableHlo.TRef.unary (StableHlo.TRef.of main_v123 : StableHlo.TRef sig ⟨S4x4, .f32⟩) main_call20.v1 (broadcastInDim S1x4x1x4 ![1, 3] bcast_S4x4_S1x4x1x4_1_3),
    StableHlo.TRef.unary main_call20.v0 main_call20.v2 (broadcastInDim S2x4x2x4 ![0, 1, 2, 3] bcast_S2x1x2x1_S2x4x2x4_0_1_2_3),
    StableHlo.TRef.unary main_call20.v1 main_call20.v3 (broadcastInDim S2x4x2x4 ![0, 1, 2, 3] bcast_S1x4x1x4_S2x4x2x4_0_1_2_3),
    StableHlo.TRef.binary main_call20.v2 main_call20.v3 main_call20.v4 mulf,
    StableHlo.TRef.reshape main_call20.v4 main_call20.v5 rfl shapeCasts_S2x4x2x4_S8x8,
    StableHlo.TRef.unary (StableHlo.TRef.of main_cst : StableHlo.TRef sig ⟨S2x2, .f32⟩) main_call21.v0 (broadcastInDim S2x1x2x1 ![0, 2] bcast_S2x2_S2x1x2x1_0_2),
    StableHlo.TRef.unary (StableHlo.TRef.of main_v124 : StableHlo.TRef sig ⟨S8x8, .f32⟩) main_call21.v1 (broadcastInDim S1x8x1x8 ![1, 3] bcast_S8x8_S1x8x1x8_1_3),
    StableHlo.TRef.unary main_call21.v0 main_call21.v2 (broadcastInDim S2x8x2x8 ![0, 1, 2, 3] bcast_S2x1x2x1_S2x8x2x8_0_1_2_3),
    StableHlo.TRef.unary main_call21.v1 main_call21.v3 (broadcastInDim S2x8x2x8 ![0, 1, 2, 3] bcast_S1x8x1x8_S2x8x2x8_0_1_2_3),
    StableHlo.TRef.binary main_call21.v2 main_call21.v3 main_call21.v4 mulf,
    StableHlo.TRef.reshape main_call21.v4 main_call21.v5 rfl shapeCasts_S2x8x2x8_S16x16,
    StableHlo.binary main_v125 main_v121 main_v126 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.nullary main_cst_22 (constant S_ .f32 0x3F800000#32),
    StableHlo.unary main_cst_22 main_v127 (broadcastInDim S1x1 ![] bcast_S_S1x1 : (⟨S_, .f32⟩ : BufTy).Contents (Elt F) → (⟨S1x1, .f32⟩ : BufTy).Contents (Elt F)),
    StableHlo.TRef.unary (StableHlo.TRef.of main_cst : StableHlo.TRef sig ⟨S2x2, .f32⟩) main_call22.v0 (broadcastInDim S2x1x2x1 ![0, 2] bcast_S2x2_S2x1x2x1_0_2),
    StableHlo.TRef.unary (StableHlo.TRef.of main_v127 : StableHlo.TRef sig ⟨S1x1, .f32⟩) main_call22.v1 (broadcastInDim S1x1x1x1 ![1, 3] bcast_S1x1_S1x1x1x1_1_3),
    StableHlo.TRef.unary main_call22.v1 main_call22.v2 (broadcastInDim S2x1x2x1 ![0, 1, 2, 3] bcast_S1x1x1x1_S2x1x2x1_0_1_2_3),
    StableHlo.TRef.binary main_call22.v0 main_call22.v2 main_call22.v3 mulf,
    StableHlo.TRef.reshape main_call22.v3 main_call22.v4 rfl shapeCasts_S2x1x2x1_S2x2,
    StableHlo.TRef.unary (StableHlo.TRef.of main_cst_1 : StableHlo.TRef sig ⟨S4x4, .f32⟩) main_call23.v0 (broadcastInDim S4x1x4x1 ![0, 2] bcast_S4x4_S4x1x4x1_0_2),
    StableHlo.TRef.unary (StableHlo.TRef.of main_v128 : StableHlo.TRef sig ⟨S2x2, .f32⟩) main_call23.v1 (broadcastInDim S1x2x1x2 ![1, 3] bcast_S2x2_S1x2x1x2_1_3),
    StableHlo.TRef.unary main_call23.v0 main_call23.v2 (broadcastInDim S4x2x4x2 ![0, 1, 2, 3] bcast_S4x1x4x1_S4x2x4x2_0_1_2_3),
    StableHlo.TRef.unary main_call23.v1 main_call23.v3 (broadcastInDim S4x2x4x2 ![0, 1, 2, 3] bcast_S1x2x1x2_S4x2x4x2_0_1_2_3),
    StableHlo.TRef.binary main_call23.v2 main_call23.v3 main_call23.v4 mulf,
    StableHlo.TRef.reshape main_call23.v4 main_call23.v5 rfl shapeCasts_S4x2x4x2_S8x8,
    StableHlo.TRef.unary (StableHlo.TRef.of main_cst : StableHlo.TRef sig ⟨S2x2, .f32⟩) main_call24.v0 (broadcastInDim S2x1x2x1 ![0, 2] bcast_S2x2_S2x1x2x1_0_2),
    StableHlo.TRef.unary (StableHlo.TRef.of main_v129 : StableHlo.TRef sig ⟨S8x8, .f32⟩) main_call24.v1 (broadcastInDim S1x8x1x8 ![1, 3] bcast_S8x8_S1x8x1x8_1_3),
    StableHlo.TRef.unary main_call24.v0 main_call24.v2 (broadcastInDim S2x8x2x8 ![0, 1, 2, 3] bcast_S2x1x2x1_S2x8x2x8_0_1_2_3),
    StableHlo.TRef.unary main_call24.v1 main_call24.v3 (broadcastInDim S2x8x2x8 ![0, 1, 2, 3] bcast_S1x8x1x8_S2x8x2x8_0_1_2_3),
    StableHlo.TRef.binary main_call24.v2 main_call24.v3 main_call24.v4 mulf,
    StableHlo.TRef.reshape main_call24.v4 main_call24.v5 rfl shapeCasts_S2x8x2x8_S16x16,
    StableHlo.binary main_v130 main_v126 main_v131 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.nullary main_cst_23 (constant S_ .f32 0x3F800000#32),
    StableHlo.unary main_cst_23 main_v132 (broadcastInDim S1x1 ![] bcast_S_S1x1 : (⟨S_, .f32⟩ : BufTy).Contents (Elt F) → (⟨S1x1, .f32⟩ : BufTy).Contents (Elt F)),
    StableHlo.TRef.unary (StableHlo.TRef.of main_cst : StableHlo.TRef sig ⟨S2x2, .f32⟩) main_call25.v0 (broadcastInDim S2x1x2x1 ![0, 2] bcast_S2x2_S2x1x2x1_0_2),
    StableHlo.TRef.unary (StableHlo.TRef.of main_v132 : StableHlo.TRef sig ⟨S1x1, .f32⟩) main_call25.v1 (broadcastInDim S1x1x1x1 ![1, 3] bcast_S1x1_S1x1x1x1_1_3),
    StableHlo.TRef.unary main_call25.v1 main_call25.v2 (broadcastInDim S2x1x2x1 ![0, 1, 2, 3] bcast_S1x1x1x1_S2x1x2x1_0_1_2_3),
    StableHlo.TRef.binary main_call25.v0 main_call25.v2 main_call25.v3 mulf,
    StableHlo.TRef.reshape main_call25.v3 main_call25.v4 rfl shapeCasts_S2x1x2x1_S2x2,
    StableHlo.TRef.unary (StableHlo.TRef.of main_cst : StableHlo.TRef sig ⟨S2x2, .f32⟩) main_call26.v0 (broadcastInDim S2x1x2x1 ![0, 2] bcast_S2x2_S2x1x2x1_0_2),
    StableHlo.TRef.unary (StableHlo.TRef.of main_v133 : StableHlo.TRef sig ⟨S2x2, .f32⟩) main_call26.v1 (broadcastInDim S1x2x1x2 ![1, 3] bcast_S2x2_S1x2x1x2_1_3),
    StableHlo.TRef.unary main_call26.v0 main_call26.v2 (broadcastInDim S2x2x2x2 ![0, 1, 2, 3] bcast_S2x1x2x1_S2x2x2x2_0_1_2_3),
    StableHlo.TRef.unary main_call26.v1 main_call26.v3 (broadcastInDim S2x2x2x2 ![0, 1, 2, 3] bcast_S1x2x1x2_S2x2x2x2_0_1_2_3),
    StableHlo.TRef.binary main_call26.v2 main_call26.v3 main_call26.v4 mulf,
    StableHlo.TRef.reshape main_call26.v4 main_call26.v5 rfl shapeCasts_S2x2x2x2_S4x4,
    StableHlo.TRef.unary (StableHlo.TRef.of main_cst_1 : StableHlo.TRef sig ⟨S4x4, .f32⟩) main_call27.v0 (broadcastInDim S4x1x4x1 ![0, 2] bcast_S4x4_S4x1x4x1_0_2),
    StableHlo.TRef.unary (StableHlo.TRef.of main_v134 : StableHlo.TRef sig ⟨S4x4, .f32⟩) main_call27.v1 (broadcastInDim S1x4x1x4 ![1, 3] bcast_S4x4_S1x4x1x4_1_3),
    StableHlo.TRef.unary main_call27.v0 main_call27.v2 (broadcastInDim S4x4x4x4 ![0, 1, 2, 3] bcast_S4x1x4x1_S4x4x4x4_0_1_2_3),
    StableHlo.TRef.unary main_call27.v1 main_call27.v3 (broadcastInDim S4x4x4x4 ![0, 1, 2, 3] bcast_S1x4x1x4_S4x4x4x4_0_1_2_3),
    StableHlo.TRef.binary main_call27.v2 main_call27.v3 main_call27.v4 mulf,
    StableHlo.TRef.reshape main_call27.v4 main_call27.v5 rfl shapeCasts_S4x4x4x4_S16x16,
    StableHlo.binary main_v135 main_v131 main_v136 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.binary main_v136 main_v105 main_v137 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    StableHlo.unary main_arg1 main_v138 ((extractStridedSlice S4 ![4] · slices_S8_S4_4) : (⟨S8, .f32⟩ : BufTy).Contents (Elt F) → (⟨S4, .f32⟩ : BufTy).Contents (Elt F)),
    StableHlo.nullary main_cst_24 (constant S_ .f32 0x3F800000#32),
    StableHlo.unary main_cst_24 main_v139 (broadcastInDim S1x1 ![] bcast_S_S1x1 : (⟨S_, .f32⟩ : BufTy).Contents (Elt F) → (⟨S1x1, .f32⟩ : BufTy).Contents (Elt F)),
    StableHlo.unary main_v138 main_v140 ((extractStridedSlice S1 ![0] · slices_S4_S1_0) : (⟨S4, .f32⟩ : BufTy).Contents (Elt F) → (⟨S1, .f32⟩ : BufTy).Contents (Elt F)),
    StableHlo.reshape main_v140 main_v141 rfl shapeCasts_S1_S_,
    StableHlo.nullary main_cst_25 (constant S_ .f32 0x40000000#32),
    StableHlo.binary main_v141 main_cst_25 main_v142 (Host.divf : (⟨S_, .f32⟩ : BufTy).Contents (Elt F) → (⟨S_, .f32⟩ : BufTy).Contents (Elt F) → (⟨S_, .f32⟩ : BufTy).Contents (Elt F)),
    StableHlo.unary main_v142 main_v143 (Host.cos : (⟨S_, .f32⟩ : BufTy).Contents (Elt F) → (⟨S_, .f32⟩ : BufTy).Contents (Elt F)),
    StableHlo.nullary main_cst_26 (constant S_ .f32 0x40000000#32),
    StableHlo.binary main_v141 main_cst_26 main_v144 (Host.divf : (⟨S_, .f32⟩ : BufTy).Contents (Elt F) → (⟨S_, .f32⟩ : BufTy).Contents (Elt F) → (⟨S_, .f32⟩ : BufTy).Contents (Elt F)),
    StableHlo.unary main_v144 main_v145 (Host.sin : (⟨S_, .f32⟩ : BufTy).Contents (Elt F) → (⟨S_, .f32⟩ : BufTy).Contents (Elt F)),
    StableHlo.unary main_v145 main_v146 (Host.negf : (⟨S_, .f32⟩ : BufTy).Contents (Elt F) → (⟨S_, .f32⟩ : BufTy).Contents (Elt F)),
    StableHlo.unary main_v143 main_v147 (broadcastInDim S1 ![] bcast_S_S1 : (⟨S_, .f32⟩ : BufTy).Contents (Elt F) → (⟨S1, .f32⟩ : BufTy).Contents (Elt F)),
    StableHlo.unary main_v146 main_v148 (broadcastInDim S1 ![] bcast_S_S1 : (⟨S_, .f32⟩ : BufTy).Contents (Elt F) → (⟨S1, .f32⟩ : BufTy).Contents (Elt F)),
    StableHlo.binary main_v147 main_v148 main_v149 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v145 main_v150 (broadcastInDim S1 ![] bcast_S_S1 : (⟨S_, .f32⟩ : BufTy).Contents (Elt F) → (⟨S1, .f32⟩ : BufTy).Contents (Elt F)) ]

/-- 74 operations. -/
abbrev ops3 : List (HloOp τ sig (Elt F)) :=
  [ StableHlo.unary main_v143 main_v151 (broadcastInDim S1 ![] bcast_S_S1 : (⟨S_, .f32⟩ : BufTy).Contents (Elt F) → (⟨S1, .f32⟩ : BufTy).Contents (Elt F)),
    StableHlo.binary main_v150 main_v151 main_v152 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v149 main_v153 (broadcastInDim S1x2 ![1] bcast_S2_S1x2_1 : (⟨S2, .f32⟩ : BufTy).Contents (Elt F) → (⟨S1x2, .f32⟩ : BufTy).Contents (Elt F)),
    StableHlo.unary main_v152 main_v154 (broadcastInDim S1x2 ![1] bcast_S2_S1x2_1 : (⟨S2, .f32⟩ : BufTy).Contents (Elt F) → (⟨S1x2, .f32⟩ : BufTy).Contents (Elt F)),
    StableHlo.binary main_v153 main_v154 main_v155 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v155 : StableHlo.TRef sig ⟨S2x2, .f32⟩) main_call28.v0 (broadcastInDim S2x1x2x1 ![0, 2] bcast_S2x2_S2x1x2x1_0_2),
    StableHlo.TRef.unary (StableHlo.TRef.of main_v139 : StableHlo.TRef sig ⟨S1x1, .f32⟩) main_call28.v1 (broadcastInDim S1x1x1x1 ![1, 3] bcast_S1x1_S1x1x1x1_1_3),
    StableHlo.TRef.unary main_call28.v1 main_call28.v2 (broadcastInDim S2x1x2x1 ![0, 1, 2, 3] bcast_S1x1x1x1_S2x1x2x1_0_1_2_3),
    StableHlo.TRef.binary main_call28.v0 main_call28.v2 main_call28.v3 mulf,
    StableHlo.TRef.reshape main_call28.v3 main_call28.v4 rfl shapeCasts_S2x1x2x1_S2x2,
    StableHlo.unary main_v138 main_v157 ((extractStridedSlice S1 ![1] · slices_S4_S1_1) : (⟨S4, .f32⟩ : BufTy).Contents (Elt F) → (⟨S1, .f32⟩ : BufTy).Contents (Elt F)),
    StableHlo.reshape main_v157 main_v158 rfl shapeCasts_S1_S_,
    StableHlo.nullary main_cst_27 (constant S_ .f32 0x40000000#32),
    StableHlo.binary main_v158 main_cst_27 main_v159 (Host.divf : (⟨S_, .f32⟩ : BufTy).Contents (Elt F) → (⟨S_, .f32⟩ : BufTy).Contents (Elt F) → (⟨S_, .f32⟩ : BufTy).Contents (Elt F)),
    StableHlo.unary main_v159 main_v160 (Host.cos : (⟨S_, .f32⟩ : BufTy).Contents (Elt F) → (⟨S_, .f32⟩ : BufTy).Contents (Elt F)),
    StableHlo.nullary main_cst_28 (constant S_ .f32 0x40000000#32),
    StableHlo.binary main_v158 main_cst_28 main_v161 (Host.divf : (⟨S_, .f32⟩ : BufTy).Contents (Elt F) → (⟨S_, .f32⟩ : BufTy).Contents (Elt F) → (⟨S_, .f32⟩ : BufTy).Contents (Elt F)),
    StableHlo.unary main_v161 main_v162 (Host.sin : (⟨S_, .f32⟩ : BufTy).Contents (Elt F) → (⟨S_, .f32⟩ : BufTy).Contents (Elt F)),
    StableHlo.unary main_v162 main_v163 (Host.negf : (⟨S_, .f32⟩ : BufTy).Contents (Elt F) → (⟨S_, .f32⟩ : BufTy).Contents (Elt F)),
    StableHlo.unary main_v160 main_v164 (broadcastInDim S1 ![] bcast_S_S1 : (⟨S_, .f32⟩ : BufTy).Contents (Elt F) → (⟨S1, .f32⟩ : BufTy).Contents (Elt F)),
    StableHlo.unary main_v163 main_v165 (broadcastInDim S1 ![] bcast_S_S1 : (⟨S_, .f32⟩ : BufTy).Contents (Elt F) → (⟨S1, .f32⟩ : BufTy).Contents (Elt F)),
    StableHlo.binary main_v164 main_v165 main_v166 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v162 main_v167 (broadcastInDim S1 ![] bcast_S_S1 : (⟨S_, .f32⟩ : BufTy).Contents (Elt F) → (⟨S1, .f32⟩ : BufTy).Contents (Elt F)),
    StableHlo.unary main_v160 main_v168 (broadcastInDim S1 ![] bcast_S_S1 : (⟨S_, .f32⟩ : BufTy).Contents (Elt F) → (⟨S1, .f32⟩ : BufTy).Contents (Elt F)),
    StableHlo.binary main_v167 main_v168 main_v169 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v166 main_v170 (broadcastInDim S1x2 ![1] bcast_S2_S1x2_1 : (⟨S2, .f32⟩ : BufTy).Contents (Elt F) → (⟨S1x2, .f32⟩ : BufTy).Contents (Elt F)),
    StableHlo.unary main_v169 main_v171 (broadcastInDim S1x2 ![1] bcast_S2_S1x2_1 : (⟨S2, .f32⟩ : BufTy).Contents (Elt F) → (⟨S1x2, .f32⟩ : BufTy).Contents (Elt F)),
    StableHlo.binary main_v170 main_v171 main_v172 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v172 : StableHlo.TRef sig ⟨S2x2, .f32⟩) main_call29.v0 (broadcastInDim S2x1x2x1 ![0, 2] bcast_S2x2_S2x1x2x1_0_2),
    StableHlo.TRef.unary (StableHlo.TRef.of main_v156 : StableHlo.TRef sig ⟨S2x2, .f32⟩) main_call29.v1 (broadcastInDim S1x2x1x2 ![1, 3] bcast_S2x2_S1x2x1x2_1_3),
    StableHlo.TRef.unary main_call29.v0 main_call29.v2 (broadcastInDim S2x2x2x2 ![0, 1, 2, 3] bcast_S2x1x2x1_S2x2x2x2_0_1_2_3),
    StableHlo.TRef.unary main_call29.v1 main_call29.v3 (broadcastInDim S2x2x2x2 ![0, 1, 2, 3] bcast_S1x2x1x2_S2x2x2x2_0_1_2_3),
    StableHlo.TRef.binary main_call29.v2 main_call29.v3 main_call29.v4 mulf,
    StableHlo.TRef.reshape main_call29.v4 main_call29.v5 rfl shapeCasts_S2x2x2x2_S4x4,
    StableHlo.unary main_v138 main_v174 ((extractStridedSlice S1 ![2] · slices_S4_S1_2) : (⟨S4, .f32⟩ : BufTy).Contents (Elt F) → (⟨S1, .f32⟩ : BufTy).Contents (Elt F)),
    StableHlo.reshape main_v174 main_v175 rfl shapeCasts_S1_S_,
    StableHlo.nullary main_cst_29 (constant S_ .f32 0x40000000#32),
    StableHlo.binary main_v175 main_cst_29 main_v176 (Host.divf : (⟨S_, .f32⟩ : BufTy).Contents (Elt F) → (⟨S_, .f32⟩ : BufTy).Contents (Elt F) → (⟨S_, .f32⟩ : BufTy).Contents (Elt F)),
    StableHlo.unary main_v176 main_v177 (Host.cos : (⟨S_, .f32⟩ : BufTy).Contents (Elt F) → (⟨S_, .f32⟩ : BufTy).Contents (Elt F)),
    StableHlo.nullary main_cst_30 (constant S_ .f32 0x40000000#32),
    StableHlo.binary main_v175 main_cst_30 main_v178 (Host.divf : (⟨S_, .f32⟩ : BufTy).Contents (Elt F) → (⟨S_, .f32⟩ : BufTy).Contents (Elt F) → (⟨S_, .f32⟩ : BufTy).Contents (Elt F)),
    StableHlo.unary main_v178 main_v179 (Host.sin : (⟨S_, .f32⟩ : BufTy).Contents (Elt F) → (⟨S_, .f32⟩ : BufTy).Contents (Elt F)),
    StableHlo.unary main_v179 main_v180 (Host.negf : (⟨S_, .f32⟩ : BufTy).Contents (Elt F) → (⟨S_, .f32⟩ : BufTy).Contents (Elt F)),
    StableHlo.unary main_v177 main_v181 (broadcastInDim S1 ![] bcast_S_S1 : (⟨S_, .f32⟩ : BufTy).Contents (Elt F) → (⟨S1, .f32⟩ : BufTy).Contents (Elt F)),
    StableHlo.unary main_v180 main_v182 (broadcastInDim S1 ![] bcast_S_S1 : (⟨S_, .f32⟩ : BufTy).Contents (Elt F) → (⟨S1, .f32⟩ : BufTy).Contents (Elt F)),
    StableHlo.binary main_v181 main_v182 main_v183 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v179 main_v184 (broadcastInDim S1 ![] bcast_S_S1 : (⟨S_, .f32⟩ : BufTy).Contents (Elt F) → (⟨S1, .f32⟩ : BufTy).Contents (Elt F)),
    StableHlo.unary main_v177 main_v185 (broadcastInDim S1 ![] bcast_S_S1 : (⟨S_, .f32⟩ : BufTy).Contents (Elt F) → (⟨S1, .f32⟩ : BufTy).Contents (Elt F)),
    StableHlo.binary main_v184 main_v185 main_v186 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v183 main_v187 (broadcastInDim S1x2 ![1] bcast_S2_S1x2_1 : (⟨S2, .f32⟩ : BufTy).Contents (Elt F) → (⟨S1x2, .f32⟩ : BufTy).Contents (Elt F)),
    StableHlo.unary main_v186 main_v188 (broadcastInDim S1x2 ![1] bcast_S2_S1x2_1 : (⟨S2, .f32⟩ : BufTy).Contents (Elt F) → (⟨S1x2, .f32⟩ : BufTy).Contents (Elt F)),
    StableHlo.binary main_v187 main_v188 main_v189 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v189 : StableHlo.TRef sig ⟨S2x2, .f32⟩) main_call30.v0 (broadcastInDim S2x1x2x1 ![0, 2] bcast_S2x2_S2x1x2x1_0_2),
    StableHlo.TRef.unary (StableHlo.TRef.of main_v173 : StableHlo.TRef sig ⟨S4x4, .f32⟩) main_call30.v1 (broadcastInDim S1x4x1x4 ![1, 3] bcast_S4x4_S1x4x1x4_1_3),
    StableHlo.TRef.unary main_call30.v0 main_call30.v2 (broadcastInDim S2x4x2x4 ![0, 1, 2, 3] bcast_S2x1x2x1_S2x4x2x4_0_1_2_3),
    StableHlo.TRef.unary main_call30.v1 main_call30.v3 (broadcastInDim S2x4x2x4 ![0, 1, 2, 3] bcast_S1x4x1x4_S2x4x2x4_0_1_2_3),
    StableHlo.TRef.binary main_call30.v2 main_call30.v3 main_call30.v4 mulf,
    StableHlo.TRef.reshape main_call30.v4 main_call30.v5 rfl shapeCasts_S2x4x2x4_S8x8,
    StableHlo.unary main_v138 main_v191 ((extractStridedSlice S1 ![3] · slices_S4_S1_3) : (⟨S4, .f32⟩ : BufTy).Contents (Elt F) → (⟨S1, .f32⟩ : BufTy).Contents (Elt F)),
    StableHlo.reshape main_v191 main_v192 rfl shapeCasts_S1_S_,
    StableHlo.nullary main_cst_31 (constant S_ .f32 0x40000000#32),
    StableHlo.binary main_v192 main_cst_31 main_v193 (Host.divf : (⟨S_, .f32⟩ : BufTy).Contents (Elt F) → (⟨S_, .f32⟩ : BufTy).Contents (Elt F) → (⟨S_, .f32⟩ : BufTy).Contents (Elt F)),
    StableHlo.unary main_v193 main_v194 (Host.cos : (⟨S_, .f32⟩ : BufTy).Contents (Elt F) → (⟨S_, .f32⟩ : BufTy).Contents (Elt F)),
    StableHlo.nullary main_cst_32 (constant S_ .f32 0x40000000#32),
    StableHlo.binary main_v192 main_cst_32 main_v195 (Host.divf : (⟨S_, .f32⟩ : BufTy).Contents (Elt F) → (⟨S_, .f32⟩ : BufTy).Contents (Elt F) → (⟨S_, .f32⟩ : BufTy).Contents (Elt F)),
    StableHlo.unary main_v195 main_v196 (Host.sin : (⟨S_, .f32⟩ : BufTy).Contents (Elt F) → (⟨S_, .f32⟩ : BufTy).Contents (Elt F)),
    StableHlo.unary main_v196 main_v197 (Host.negf : (⟨S_, .f32⟩ : BufTy).Contents (Elt F) → (⟨S_, .f32⟩ : BufTy).Contents (Elt F)),
    StableHlo.unary main_v194 main_v198 (broadcastInDim S1 ![] bcast_S_S1 : (⟨S_, .f32⟩ : BufTy).Contents (Elt F) → (⟨S1, .f32⟩ : BufTy).Contents (Elt F)),
    StableHlo.unary main_v197 main_v199 (broadcastInDim S1 ![] bcast_S_S1 : (⟨S_, .f32⟩ : BufTy).Contents (Elt F) → (⟨S1, .f32⟩ : BufTy).Contents (Elt F)),
    StableHlo.binary main_v198 main_v199 main_v200 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v196 main_v201 (broadcastInDim S1 ![] bcast_S_S1 : (⟨S_, .f32⟩ : BufTy).Contents (Elt F) → (⟨S1, .f32⟩ : BufTy).Contents (Elt F)),
    StableHlo.unary main_v194 main_v202 (broadcastInDim S1 ![] bcast_S_S1 : (⟨S_, .f32⟩ : BufTy).Contents (Elt F) → (⟨S1, .f32⟩ : BufTy).Contents (Elt F)),
    StableHlo.binary main_v201 main_v202 main_v203 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    StableHlo.unary main_v200 main_v204 (broadcastInDim S1x2 ![1] bcast_S2_S1x2_1 : (⟨S2, .f32⟩ : BufTy).Contents (Elt F) → (⟨S1x2, .f32⟩ : BufTy).Contents (Elt F)) ]

/-- 9 operations. -/
abbrev ops4a : List (HloOp τ sig (Elt F)) :=
  [ StableHlo.unary main_v203 main_v205 (broadcastInDim S1x2 ![1] bcast_S2_S1x2_1 : (⟨S2, .f32⟩ : BufTy).Contents (Elt F) → (⟨S1x2, .f32⟩ : BufTy).Contents (Elt F)),
    StableHlo.binary main_v204 main_v205 main_v206 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    StableHlo.TRef.unary (StableHlo.TRef.of main_v206 : StableHlo.TRef sig ⟨S2x2, .f32⟩) main_call31.v0 (broadcastInDim S2x1x2x1 ![0, 2] bcast_S2x2_S2x1x2x1_0_2),
    StableHlo.TRef.unary (StableHlo.TRef.of main_v190 : StableHlo.TRef sig ⟨S8x8, .f32⟩) main_call31.v1 (broadcastInDim S1x8x1x8 ![1, 3] bcast_S8x8_S1x8x1x8_1_3),
    StableHlo.TRef.unary main_call31.v0 main_call31.v2 (broadcastInDim S2x8x2x8 ![0, 1, 2, 3] bcast_S2x1x2x1_S2x8x2x8_0_1_2_3),
    StableHlo.TRef.unary main_call31.v1 main_call31.v3 (broadcastInDim S2x8x2x8 ![0, 1, 2, 3] bcast_S1x8x1x8_S2x8x2x8_0_1_2_3),
    StableHlo.TRef.binary main_call31.v2 main_call31.v3 main_call31.v4 mulf,
    StableHlo.TRef.reshape main_call31.v4 main_call31.v5 rfl shapeCasts_S2x8x2x8_S16x16,
    StableHlo.binary main_v207 main_v137 main_v208 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)) ]

/-- 64 operations. -/
abbrev ops4b : List (HloOp τ sig (Elt F)) :=
  [ StableHlo.unary main_arg0 main_v209 ((extractStridedSlice S1x4 ![0, 0] · slices_S2097152x4_S1x4_0_0) : (⟨S2097152x4, .f32⟩ : BufTy).Contents (Elt F) → (⟨S1x4, .f32⟩ : BufTy).Contents (Elt F)),
    StableHlo.reshape main_v209 main_v210 rfl shapeCasts_S1x4_S4,
    StableHlo.nullary main_cst_33 (constant S_ .f32 0x3F800000#32),
    StableHlo.unary main_cst_33 main_v211 (broadcastInDim S16 ![] bcast_S_S16 : (⟨S_, .f32⟩ : BufTy).Contents (Elt F) → (⟨S16, .f32⟩ : BufTy).Contents (Elt F)),
    StableHlo.unary main_cst_2 main_v212 ((extractStridedSlice S16x1 ![0, 0] · slices_S16x4_S16x1_0_0) : (⟨S16x4, .f32⟩ : BufTy).Contents (Elt F) → (⟨S16x1, .f32⟩ : BufTy).Contents (Elt F)),
    StableHlo.reshape main_v212 main_v213 rfl shapeCasts_S16x1_S16,
    StableHlo.nullary main_cst_34 (constant S_ .f32 0x3F800000#32),
    StableHlo.unary main_cst_34 main_v214 (broadcastInDim S16 ![] bcast_S_S16 : (⟨S_, .f32⟩ : BufTy).Contents (Elt F) → (⟨S16, .f32⟩ : BufTy).Contents (Elt F)),
    StableHlo.binary main_v213 main_v214 main_v215 (cmpf .oeq : (⟨S16, .f32⟩ : BufTy).Contents (Elt F) → (⟨S16, .f32⟩ : BufTy).Contents (Elt F) → (⟨S16, .i1⟩ : BufTy).Contents (Elt F)),
    StableHlo.unary main_v210 main_v216 ((extractStridedSlice S1 ![0] · slices_S4_S1_0) : (⟨S4, .f32⟩ : BufTy).Contents (Elt F) → (⟨S1, .f32⟩ : BufTy).Contents (Elt F)),
    StableHlo.reshape main_v216 main_v217 rfl shapeCasts_S1_S_,
    StableHlo.unary main_v210 main_v218 ((extractStridedSlice S1 ![0] · slices_S4_S1_0) : (⟨S4, .f32⟩ : BufTy).Contents (Elt F) → (⟨S1, .f32⟩ : BufTy).Contents (Elt F)),
    StableHlo.reshape main_v218 main_v219 rfl shapeCasts_S1_S_,
    StableHlo.nullary main_cst_35 (constant S_ .f32 0x3F800000#32),
    StableHlo.binary main_cst_35 main_v219 main_v220 (subf : (⟨S_, .f32⟩ : BufTy).Contents (Elt F) → (⟨S_, .f32⟩ : BufTy).Contents (Elt F) → (⟨S_, .f32⟩ : BufTy).Contents (Elt F)),
    StableHlo.TRef.unary (StableHlo.TRef.of main_v217 : StableHlo.TRef sig ⟨S_, .f32⟩) main_call32.v0 (broadcastInDim S16 ![] bcast_S_S16),
    StableHlo.TRef.unary (StableHlo.TRef.of main_v220 : StableHlo.TRef sig ⟨S_, .f32⟩) main_call32.v1 (broadcastInDim S16 ![] bcast_S_S16),
    StableHlo.TRef.ternary (StableHlo.TRef.of main_v215 : StableHlo.TRef sig ⟨S16, .i1⟩) main_call32.v0 main_call32.v1 main_call32.v2 select,
    StableHlo.binary main_v211 main_v221 main_v222 (mulf : (⟨S16, .f32⟩ : BufTy).Contents (Elt F) → (⟨S16, .f32⟩ : BufTy).Contents (Elt F) → (⟨S16, .f32⟩ : BufTy).Contents (Elt F)),
    StableHlo.unary main_cst_2 main_v223 ((extractStridedSlice S16x1 ![0, 1] · slices_S16x4_S16x1_0_1) : (⟨S16x4, .f32⟩ : BufTy).Contents (Elt F) → (⟨S16x1, .f32⟩ : BufTy).Contents (Elt F)),
    StableHlo.reshape main_v223 main_v224 rfl shapeCasts_S16x1_S16,
    StableHlo.nullary main_cst_36 (constant S_ .f32 0x3F800000#32),
    StableHlo.unary main_cst_36 main_v225 (broadcastInDim S16 ![] bcast_S_S16 : (⟨S_, .f32⟩ : BufTy).Contents (Elt F) → (⟨S16, .f32⟩ : BufTy).Contents (Elt F)),
    StableHlo.binary main_v224 main_v225 main_v226 (cmpf .oeq : (⟨S16, .f32⟩ : BufTy).Contents (Elt F) → (⟨S16, .f32⟩ : BufTy).Contents (Elt F) → (⟨S16, .i1⟩ : BufTy).Contents (Elt F)),
    StableHlo.unary main_v210 main_v227 ((extractStridedSlice S1 ![1] · slices_S4_S1_1) : (⟨S4, .f32⟩ : BufTy).Contents (Elt F) → (⟨S1, .f32⟩ : BufTy).Contents (Elt F)),
    StableHlo.reshape main_v227 main_v228 rfl shapeCasts_S1_S_,
    StableHlo.unary main_v210 main_v229 ((extractStridedSlice S1 ![1] · slices_S4_S1_1) : (⟨S4, .f32⟩ : BufTy).Contents (Elt F) → (⟨S1, .f32⟩ : BufTy).Contents (Elt F)),
    StableHlo.reshape main_v229 main_v230 rfl shapeCasts_S1_S_,
    StableHlo.nullary main_cst_37 (constant S_ .f32 0x3F800000#32),
    StableHlo.binary main_cst_37 main_v230 main_v231 (subf : (⟨S_, .f32⟩ : BufTy).Contents (Elt F) → (⟨S_, .f32⟩ : BufTy).Contents (Elt F) → (⟨S_, .f32⟩ : BufTy).Contents (Elt F)),
    StableHlo.TRef.unary (StableHlo.TRef.of main_v228 : StableHlo.TRef sig ⟨S_, .f32⟩) main_call33.v0 (broadcastInDim S16 ![] bcast_S_S16),
    StableHlo.TRef.unary (StableHlo.TRef.of main_v231 : StableHlo.TRef sig ⟨S_, .f32⟩) main_call33.v1 (broadcastInDim S16 ![] bcast_S_S16),
    StableHlo.TRef.ternary (StableHlo.TRef.of main_v226 : StableHlo.TRef sig ⟨S16, .i1⟩) main_call33.v0 main_call33.v1 main_call33.v2 select,
    StableHlo.binary main_v222 main_v232 main_v233 (mulf : (⟨S16, .f32⟩ : BufTy).Contents (Elt F) → (⟨S16, .f32⟩ : BufTy).Contents (Elt F) → (⟨S16, .f32⟩ : BufTy).Contents (Elt F)),
    StableHlo.unary main_cst_2 main_v234 ((extractStridedSlice S16x1 ![0, 2] · slices_S16x4_S16x1_0_2) : (⟨S16x4, .f32⟩ : BufTy).Contents (Elt F) → (⟨S16x1, .f32⟩ : BufTy).Contents (Elt F)),
    StableHlo.reshape main_v234 main_v235 rfl shapeCasts_S16x1_S16,
    StableHlo.nullary main_cst_38 (constant S_ .f32 0x3F800000#32),
    StableHlo.unary main_cst_38 main_v236 (broadcastInDim S16 ![] bcast_S_S16 : (⟨S_, .f32⟩ : BufTy).Contents (Elt F) → (⟨S16, .f32⟩ : BufTy).Contents (Elt F)),
    StableHlo.binary main_v235 main_v236 main_v237 (cmpf .oeq : (⟨S16, .f32⟩ : BufTy).Contents (Elt F) → (⟨S16, .f32⟩ : BufTy).Contents (Elt F) → (⟨S16, .i1⟩ : BufTy).Contents (Elt F)),
    StableHlo.unary main_v210 main_v238 ((extractStridedSlice S1 ![2] · slices_S4_S1_2) : (⟨S4, .f32⟩ : BufTy).Contents (Elt F) → (⟨S1, .f32⟩ : BufTy).Contents (Elt F)),
    StableHlo.reshape main_v238 main_v239 rfl shapeCasts_S1_S_,
    StableHlo.unary main_v210 main_v240 ((extractStridedSlice S1 ![2] · slices_S4_S1_2) : (⟨S4, .f32⟩ : BufTy).Contents (Elt F) → (⟨S1, .f32⟩ : BufTy).Contents (Elt F)),
    StableHlo.reshape main_v240 main_v241 rfl shapeCasts_S1_S_,
    StableHlo.nullary main_cst_39 (constant S_ .f32 0x3F800000#32),
    StableHlo.binary main_cst_39 main_v241 main_v242 (subf : (⟨S_, .f32⟩ : BufTy).Contents (Elt F) → (⟨S_, .f32⟩ : BufTy).Contents (Elt F) → (⟨S_, .f32⟩ : BufTy).Contents (Elt F)),
    StableHlo.TRef.unary (StableHlo.TRef.of main_v239 : StableHlo.TRef sig ⟨S_, .f32⟩) main_call34.v0 (broadcastInDim S16 ![] bcast_S_S16),
    StableHlo.TRef.unary (StableHlo.TRef.of main_v242 : StableHlo.TRef sig ⟨S_, .f32⟩) main_call34.v1 (broadcastInDim S16 ![] bcast_S_S16),
    StableHlo.TRef.ternary (StableHlo.TRef.of main_v237 : StableHlo.TRef sig ⟨S16, .i1⟩) main_call34.v0 main_call34.v1 main_call34.v2 select,
    StableHlo.binary main_v233 main_v243 main_v244 (mulf : (⟨S16, .f32⟩ : BufTy).Contents (Elt F) → (⟨S16, .f32⟩ : BufTy).Contents (Elt F) → (⟨S16, .f32⟩ : BufTy).Contents (Elt F)),
    StableHlo.unary main_cst_2 main_v245 ((extractStridedSlice S16x1 ![0, 3] · slices_S16x4_S16x1_0_3) : (⟨S16x4, .f32⟩ : BufTy).Contents (Elt F) → (⟨S16x1, .f32⟩ : BufTy).Contents (Elt F)),
    StableHlo.reshape main_v245 main_v246 rfl shapeCasts_S16x1_S16,
    StableHlo.nullary main_cst_40 (constant S_ .f32 0x3F800000#32),
    StableHlo.unary main_cst_40 main_v247 (broadcastInDim S16 ![] bcast_S_S16 : (⟨S_, .f32⟩ : BufTy).Contents (Elt F) → (⟨S16, .f32⟩ : BufTy).Contents (Elt F)),
    StableHlo.binary main_v246 main_v247 main_v248 (cmpf .oeq : (⟨S16, .f32⟩ : BufTy).Contents (Elt F) → (⟨S16, .f32⟩ : BufTy).Contents (Elt F) → (⟨S16, .i1⟩ : BufTy).Contents (Elt F)),
    StableHlo.unary main_v210 main_v249 ((extractStridedSlice S1 ![3] · slices_S4_S1_3) : (⟨S4, .f32⟩ : BufTy).Contents (Elt F) → (⟨S1, .f32⟩ : BufTy).Contents (Elt F)),
    StableHlo.reshape main_v249 main_v250 rfl shapeCasts_S1_S_,
    StableHlo.unary main_v210 main_v251 ((extractStridedSlice S1 ![3] · slices_S4_S1_3) : (⟨S4, .f32⟩ : BufTy).Contents (Elt F) → (⟨S1, .f32⟩ : BufTy).Contents (Elt F)),
    StableHlo.reshape main_v251 main_v252 rfl shapeCasts_S1_S_,
    StableHlo.nullary main_cst_41 (constant S_ .f32 0x3F800000#32),
    StableHlo.binary main_cst_41 main_v252 main_v253 (subf : (⟨S_, .f32⟩ : BufTy).Contents (Elt F) → (⟨S_, .f32⟩ : BufTy).Contents (Elt F) → (⟨S_, .f32⟩ : BufTy).Contents (Elt F)),
    StableHlo.TRef.unary (StableHlo.TRef.of main_v250 : StableHlo.TRef sig ⟨S_, .f32⟩) main_call35.v0 (broadcastInDim S16 ![] bcast_S_S16),
    StableHlo.TRef.unary (StableHlo.TRef.of main_v253 : StableHlo.TRef sig ⟨S_, .f32⟩) main_call35.v1 (broadcastInDim S16 ![] bcast_S_S16),
    StableHlo.TRef.ternary (StableHlo.TRef.of main_v248 : StableHlo.TRef sig ⟨S16, .i1⟩) main_call35.v0 main_call35.v1 main_call35.v2 select,
    StableHlo.binary main_v244 main_v254 main_v255 (mulf : (⟨S16, .f32⟩ : BufTy).Contents (Elt F) → (⟨S16, .f32⟩ : BufTy).Contents (Elt F) → (⟨S16, .f32⟩ : BufTy).Contents (Elt F)) ]

/-- 72 operations. -/
abbrev ops5 : List (HloOp τ sig (Elt F)) :=
  [ StableHlo.unary main_arg0 main_v256 ((extractStridedSlice S2097151x4 ![1, 0] · slices_S2097152x4_S2097151x4_1_0) : (⟨S2097152x4, .f32⟩ : BufTy).Contents (Elt F) → (⟨S2097151x4, .f32⟩ : BufTy).Contents (Elt F)),
    StableHlo.binary main_v256 main_v256 main_v257 (mulf : (⟨S2097151x4, .f32⟩ : BufTy).Contents (Elt F) → (⟨S2097151x4, .f32⟩ : BufTy).Contents (Elt F) → (⟨S2097151x4, .f32⟩ : BufTy).Contents (Elt F)),
    StableHlo.nullary main_cst_42 (constant S_ .f32 0x3F800000#32),
    StableHlo.unary main_cst_42 main_v258 (broadcastInDim S2097151x16 ![] bcast_S_S2097151x16 : (⟨S_, .f32⟩ : BufTy).Contents (Elt F) → (⟨S2097151x16, .f32⟩ : BufTy).Contents (Elt F)),
    StableHlo.unary main_cst_3 main_v259 ((extractStridedSlice S16x1 ![0, 0] · slices_S16x4_S16x1_0_0) : (⟨S16x4, .f32⟩ : BufTy).Contents (Elt F) → (⟨S16x1, .f32⟩ : BufTy).Contents (Elt F)),
    StableHlo.reshape main_v259 main_v260 rfl shapeCasts_S16x1_S16,
    StableHlo.unary main_v260 main_v261 (broadcastInDim S1x16 ![1] bcast_S16_S1x16_1 : (⟨S16, .f32⟩ : BufTy).Contents (Elt F) → (⟨S1x16, .f32⟩ : BufTy).Contents (Elt F)),
    StableHlo.nullary main_cst_43 (constant S_ .f32 0x3F800000#32),
    StableHlo.unary main_cst_43 main_v262 (broadcastInDim S1x16 ![] bcast_S_S1x16 : (⟨S_, .f32⟩ : BufTy).Contents (Elt F) → (⟨S1x16, .f32⟩ : BufTy).Contents (Elt F)),
    StableHlo.binary main_v261 main_v262 main_v263 (cmpf .oeq : (⟨S1x16, .f32⟩ : BufTy).Contents (Elt F) → (⟨S1x16, .f32⟩ : BufTy).Contents (Elt F) → (⟨S1x16, .i1⟩ : BufTy).Contents (Elt F)),
    StableHlo.unary main_v257 main_v264 ((extractStridedSlice S2097151x1 ![0, 0] · slices_S2097151x4_S2097151x1_0_0) : (⟨S2097151x4, .f32⟩ : BufTy).Contents (Elt F) → (⟨S2097151x1, .f32⟩ : BufTy).Contents (Elt F)),
    StableHlo.unary main_v257 main_v265 ((extractStridedSlice S2097151x1 ![0, 0] · slices_S2097151x4_S2097151x1_0_0) : (⟨S2097151x4, .f32⟩ : BufTy).Contents (Elt F) → (⟨S2097151x1, .f32⟩ : BufTy).Contents (Elt F)),
    StableHlo.nullary main_cst_44 (constant S_ .f32 0x3F800000#32),
    StableHlo.unary main_cst_44 main_v266 (broadcastInDim S2097151x1 ![] bcast_S_S2097151x1 : (⟨S_, .f32⟩ : BufTy).Contents (Elt F) → (⟨S2097151x1, .f32⟩ : BufTy).Contents (Elt F)),
    StableHlo.binary main_v266 main_v265 main_v267 (subf : (⟨S2097151x1, .f32⟩ : BufTy).Contents (Elt F) → (⟨S2097151x1, .f32⟩ : BufTy).Contents (Elt F) → (⟨S2097151x1, .f32⟩ : BufTy).Contents (Elt F)),
    StableHlo.TRef.unary (StableHlo.TRef.of main_v263 : StableHlo.TRef sig ⟨S1x16, .i1⟩) main_call36.v0 (broadcastInDim S2097151x16 ![0, 1] bcast_S1x16_S2097151x16_0_1),
    StableHlo.TRef.unary (StableHlo.TRef.of main_v264 : StableHlo.TRef sig ⟨S2097151x1, .f32⟩) main_call36.v1 (broadcastInDim S2097151x16 ![0, 1] bcast_S2097151x1_S2097151x16_0_1),
    StableHlo.TRef.unary (StableHlo.TRef.of main_v267 : StableHlo.TRef sig ⟨S2097151x1, .f32⟩) main_call36.v2 (broadcastInDim S2097151x16 ![0, 1] bcast_S2097151x1_S2097151x16_0_1),
    StableHlo.TRef.ternary main_call36.v0 main_call36.v1 main_call36.v2 main_call36.v3 select,
    StableHlo.binary main_v258 main_v268 main_v269 (mulf : (⟨S2097151x16, .f32⟩ : BufTy).Contents (Elt F) → (⟨S2097151x16, .f32⟩ : BufTy).Contents (Elt F) → (⟨S2097151x16, .f32⟩ : BufTy).Contents (Elt F)),
    StableHlo.unary main_cst_3 main_v270 ((extractStridedSlice S16x1 ![0, 1] · slices_S16x4_S16x1_0_1) : (⟨S16x4, .f32⟩ : BufTy).Contents (Elt F) → (⟨S16x1, .f32⟩ : BufTy).Contents (Elt F)),
    StableHlo.reshape main_v270 main_v271 rfl shapeCasts_S16x1_S16,
    StableHlo.unary main_v271 main_v272 (broadcastInDim S1x16 ![1] bcast_S16_S1x16_1 : (⟨S16, .f32⟩ : BufTy).Contents (Elt F) → (⟨S1x16, .f32⟩ : BufTy).Contents (Elt F)),
    StableHlo.nullary main_cst_45 (constant S_ .f32 0x3F800000#32),
    StableHlo.unary main_cst_45 main_v273 (broadcastInDim S1x16 ![] bcast_S_S1x16 : (⟨S_, .f32⟩ : BufTy).Contents (Elt F) → (⟨S1x16, .f32⟩ : BufTy).Contents (Elt F)),
    StableHlo.binary main_v272 main_v273 main_v274 (cmpf .oeq : (⟨S1x16, .f32⟩ : BufTy).Contents (Elt F) → (⟨S1x16, .f32⟩ : BufTy).Contents (Elt F) → (⟨S1x16, .i1⟩ : BufTy).Contents (Elt F)),
    StableHlo.unary main_v257 main_v275 ((extractStridedSlice S2097151x1 ![0, 1] · slices_S2097151x4_S2097151x1_0_1) : (⟨S2097151x4, .f32⟩ : BufTy).Contents (Elt F) → (⟨S2097151x1, .f32⟩ : BufTy).Contents (Elt F)),
    StableHlo.unary main_v257 main_v276 ((extractStridedSlice S2097151x1 ![0, 1] · slices_S2097151x4_S2097151x1_0_1) : (⟨S2097151x4, .f32⟩ : BufTy).Contents (Elt F) → (⟨S2097151x1, .f32⟩ : BufTy).Contents (Elt F)),
    StableHlo.nullary main_cst_46 (constant S_ .f32 0x3F800000#32),
    StableHlo.unary main_cst_46 main_v277 (broadcastInDim S2097151x1 ![] bcast_S_S2097151x1 : (⟨S_, .f32⟩ : BufTy).Contents (Elt F) → (⟨S2097151x1, .f32⟩ : BufTy).Contents (Elt F)),
    StableHlo.binary main_v277 main_v276 main_v278 (subf : (⟨S2097151x1, .f32⟩ : BufTy).Contents (Elt F) → (⟨S2097151x1, .f32⟩ : BufTy).Contents (Elt F) → (⟨S2097151x1, .f32⟩ : BufTy).Contents (Elt F)),
    StableHlo.TRef.unary (StableHlo.TRef.of main_v274 : StableHlo.TRef sig ⟨S1x16, .i1⟩) main_call37.v0 (broadcastInDim S2097151x16 ![0, 1] bcast_S1x16_S2097151x16_0_1),
    StableHlo.TRef.unary (StableHlo.TRef.of main_v275 : StableHlo.TRef sig ⟨S2097151x1, .f32⟩) main_call37.v1 (broadcastInDim S2097151x16 ![0, 1] bcast_S2097151x1_S2097151x16_0_1),
    StableHlo.TRef.unary (StableHlo.TRef.of main_v278 : StableHlo.TRef sig ⟨S2097151x1, .f32⟩) main_call37.v2 (broadcastInDim S2097151x16 ![0, 1] bcast_S2097151x1_S2097151x16_0_1),
    StableHlo.TRef.ternary main_call37.v0 main_call37.v1 main_call37.v2 main_call37.v3 select,
    StableHlo.binary main_v269 main_v279 main_v280 (mulf : (⟨S2097151x16, .f32⟩ : BufTy).Contents (Elt F) → (⟨S2097151x16, .f32⟩ : BufTy).Contents (Elt F) → (⟨S2097151x16, .f32⟩ : BufTy).Contents (Elt F)),
    StableHlo.unary main_cst_3 main_v281 ((extractStridedSlice S16x1 ![0, 2] · slices_S16x4_S16x1_0_2) : (⟨S16x4, .f32⟩ : BufTy).Contents (Elt F) → (⟨S16x1, .f32⟩ : BufTy).Contents (Elt F)),
    StableHlo.reshape main_v281 main_v282 rfl shapeCasts_S16x1_S16,
    StableHlo.unary main_v282 main_v283 (broadcastInDim S1x16 ![1] bcast_S16_S1x16_1 : (⟨S16, .f32⟩ : BufTy).Contents (Elt F) → (⟨S1x16, .f32⟩ : BufTy).Contents (Elt F)),
    StableHlo.nullary main_cst_47 (constant S_ .f32 0x3F800000#32),
    StableHlo.unary main_cst_47 main_v284 (broadcastInDim S1x16 ![] bcast_S_S1x16 : (⟨S_, .f32⟩ : BufTy).Contents (Elt F) → (⟨S1x16, .f32⟩ : BufTy).Contents (Elt F)),
    StableHlo.binary main_v283 main_v284 main_v285 (cmpf .oeq : (⟨S1x16, .f32⟩ : BufTy).Contents (Elt F) → (⟨S1x16, .f32⟩ : BufTy).Contents (Elt F) → (⟨S1x16, .i1⟩ : BufTy).Contents (Elt F)),
    StableHlo.unary main_v257 main_v286 ((extractStridedSlice S2097151x1 ![0, 2] · slices_S2097151x4_S2097151x1_0_2) : (⟨S2097151x4, .f32⟩ : BufTy).Contents (Elt F) → (⟨S2097151x1, .f32⟩ : BufTy).Contents (Elt F)),
    StableHlo.unary main_v257 main_v287 ((extractStridedSlice S2097151x1 ![0, 2] · slices_S2097151x4_S2097151x1_0_2) : (⟨S2097151x4, .f32⟩ : BufTy).Contents (Elt F) → (⟨S2097151x1, .f32⟩ : BufTy).Contents (Elt F)),
    StableHlo.nullary main_cst_48 (constant S_ .f32 0x3F800000#32),
    StableHlo.unary main_cst_48 main_v288 (broadcastInDim S2097151x1 ![] bcast_S_S2097151x1 : (⟨S_, .f32⟩ : BufTy).Contents (Elt F) → (⟨S2097151x1, .f32⟩ : BufTy).Contents (Elt F)),
    StableHlo.binary main_v288 main_v287 main_v289 (subf : (⟨S2097151x1, .f32⟩ : BufTy).Contents (Elt F) → (⟨S2097151x1, .f32⟩ : BufTy).Contents (Elt F) → (⟨S2097151x1, .f32⟩ : BufTy).Contents (Elt F)),
    StableHlo.TRef.unary (StableHlo.TRef.of main_v285 : StableHlo.TRef sig ⟨S1x16, .i1⟩) main_call38.v0 (broadcastInDim S2097151x16 ![0, 1] bcast_S1x16_S2097151x16_0_1),
    StableHlo.TRef.unary (StableHlo.TRef.of main_v286 : StableHlo.TRef sig ⟨S2097151x1, .f32⟩) main_call38.v1 (broadcastInDim S2097151x16 ![0, 1] bcast_S2097151x1_S2097151x16_0_1),
    StableHlo.TRef.unary (StableHlo.TRef.of main_v289 : StableHlo.TRef sig ⟨S2097151x1, .f32⟩) main_call38.v2 (broadcastInDim S2097151x16 ![0, 1] bcast_S2097151x1_S2097151x16_0_1),
    StableHlo.TRef.ternary main_call38.v0 main_call38.v1 main_call38.v2 main_call38.v3 select,
    StableHlo.binary main_v280 main_v290 main_v291 (mulf : (⟨S2097151x16, .f32⟩ : BufTy).Contents (Elt F) → (⟨S2097151x16, .f32⟩ : BufTy).Contents (Elt F) → (⟨S2097151x16, .f32⟩ : BufTy).Contents (Elt F)),
    StableHlo.unary main_cst_3 main_v292 ((extractStridedSlice S16x1 ![0, 3] · slices_S16x4_S16x1_0_3) : (⟨S16x4, .f32⟩ : BufTy).Contents (Elt F) → (⟨S16x1, .f32⟩ : BufTy).Contents (Elt F)),
    StableHlo.reshape main_v292 main_v293 rfl shapeCasts_S16x1_S16,
    StableHlo.unary main_v293 main_v294 (broadcastInDim S1x16 ![1] bcast_S16_S1x16_1 : (⟨S16, .f32⟩ : BufTy).Contents (Elt F) → (⟨S1x16, .f32⟩ : BufTy).Contents (Elt F)),
    StableHlo.nullary main_cst_49 (constant S_ .f32 0x3F800000#32),
    StableHlo.unary main_cst_49 main_v295 (broadcastInDim S1x16 ![] bcast_S_S1x16 : (⟨S_, .f32⟩ : BufTy).Contents (Elt F) → (⟨S1x16, .f32⟩ : BufTy).Contents (Elt F)),
    StableHlo.binary main_v294 main_v295 main_v296 (cmpf .oeq : (⟨S1x16, .f32⟩ : BufTy).Contents (Elt F) → (⟨S1x16, .f32⟩ : BufTy).Contents (Elt F) → (⟨S1x16, .i1⟩ : BufTy).Contents (Elt F)),
    StableHlo.unary main_v257 main_v297 ((extractStridedSlice S2097151x1 ![0, 3] · slices_S2097151x4_S2097151x1_0_3) : (⟨S2097151x4, .f32⟩ : BufTy).Contents (Elt F) → (⟨S2097151x1, .f32⟩ : BufTy).Contents (Elt F)),
    StableHlo.unary main_v257 main_v298 ((extractStridedSlice S2097151x1 ![0, 3] · slices_S2097151x4_S2097151x1_0_3) : (⟨S2097151x4, .f32⟩ : BufTy).Contents (Elt F) → (⟨S2097151x1, .f32⟩ : BufTy).Contents (Elt F)),
    StableHlo.nullary main_cst_50 (constant S_ .f32 0x3F800000#32),
    StableHlo.unary main_cst_50 main_v299 (broadcastInDim S2097151x1 ![] bcast_S_S2097151x1 : (⟨S_, .f32⟩ : BufTy).Contents (Elt F) → (⟨S2097151x1, .f32⟩ : BufTy).Contents (Elt F)),
    StableHlo.binary main_v299 main_v298 main_v300 (subf : (⟨S2097151x1, .f32⟩ : BufTy).Contents (Elt F) → (⟨S2097151x1, .f32⟩ : BufTy).Contents (Elt F) → (⟨S2097151x1, .f32⟩ : BufTy).Contents (Elt F)),
    StableHlo.TRef.unary (StableHlo.TRef.of main_v296 : StableHlo.TRef sig ⟨S1x16, .i1⟩) main_call39.v0 (broadcastInDim S2097151x16 ![0, 1] bcast_S1x16_S2097151x16_0_1),
    StableHlo.TRef.unary (StableHlo.TRef.of main_v297 : StableHlo.TRef sig ⟨S2097151x1, .f32⟩) main_call39.v1 (broadcastInDim S2097151x16 ![0, 1] bcast_S2097151x1_S2097151x16_0_1),
    StableHlo.TRef.unary (StableHlo.TRef.of main_v300 : StableHlo.TRef sig ⟨S2097151x1, .f32⟩) main_call39.v2 (broadcastInDim S2097151x16 ![0, 1] bcast_S2097151x1_S2097151x16_0_1),
    StableHlo.TRef.ternary main_call39.v0 main_call39.v1 main_call39.v2 main_call39.v3 select,
    StableHlo.binary main_v291 main_v301 main_v302 (mulf : (⟨S2097151x16, .f32⟩ : BufTy).Contents (Elt F) → (⟨S2097151x16, .f32⟩ : BufTy).Contents (Elt F) → (⟨S2097151x16, .f32⟩ : BufTy).Contents (Elt F)),
    StableHlo.unary main_v302 main_v303 (Host.sqrt : (⟨S2097151x16, .f32⟩ : BufTy).Contents (Elt F) → (⟨S2097151x16, .f32⟩ : BufTy).Contents (Elt F)),
    StableHlo.unary main_v255 main_v304 (broadcastInDim S1x16 ![1] bcast_S16_S1x16_1 : (⟨S16, .f32⟩ : BufTy).Contents (Elt F) → (⟨S1x16, .f32⟩ : BufTy).Contents (Elt F)),
    StableHlo.binary main_v304 main_v303 main_v305 ((fun a b => concatenate S2097152x16 0 [⟨S1x16, a⟩, ⟨S2097151x16, b⟩] concatenates_S1x16_S2097151x16_S2097152x16_d0) : (⟨S1x16, .f32⟩ : BufTy).Contents (Elt F) → (⟨S2097151x16, .f32⟩ : BufTy).Contents (Elt F) → (⟨S2097152x16, .f32⟩ : BufTy).Contents (Elt F)),
    StableHlo.unary main_v208 main_v306 ((transpose S16x16 [1, 0] · transposes_S16x16_S16x16_1_0) : (⟨S16x16, .f32⟩ : BufTy).Contents (Elt F) → (⟨S16x16, .f32⟩ : BufTy).Contents (Elt F)) ]

/-- 3 operations. -/
abbrev ops6 : List (HloOp τ sig (Elt F)) :=
  [ StableHlo.binary main_v305 main_v306 main_v307 ((fun l r => Host.dotGeneral dot_S2097152x16_S16x16_S2097152x16_1_0_0_1_n_n none l r) : (⟨S2097152x16, .f32⟩ : BufTy).Contents (Elt F) → (⟨S16x16, .f32⟩ : BufTy).Contents (Elt F) → (⟨S2097152x16, .f32⟩ : BufTy).Contents (Elt F)),
    StableHlo.binary main_v307 main_v307 main_v308 (mulf : (⟨S2097152x16, .f32⟩ : BufTy).Contents (Elt F) → (⟨S2097152x16, .f32⟩ : BufTy).Contents (Elt F) → (⟨S2097152x16, .f32⟩ : BufTy).Contents (Elt F)),
    StableHlo.unary main_v308 main_v309 ((extractStridedSlice S2097152x10 ![0, 0] · slices_S2097152x16_S2097152x10_0_0) : (⟨S2097152x16, .f32⟩ : BufTy).Contents (Elt F) → (⟨S2097152x10, .f32⟩ : BufTy).Contents (Elt F)) ]

end Cert.ReferenceIdeal.RefOps

end
-- ==== Proof.KConcat.lean ====
/-
  The concatenation of two arrays as a function of the two.

  The library's concatenation takes a list of arrays, each paired with its shape, and a proof about the
  list's shapes.  Here the two-element case is named as a function of the two arrays alone, the shapes and
  the proof fixed, so that a reading of a host line can go on inside its operands.  Also here: the reading
  of a host line by one simplification pass that uses this spelling.
-/
import Idealize.ShloMosaic.Lib.StableHlo.Run
import Idealize.ShloMosaic.PureOps.Ideal

namespace Cert.KernelIdeal.KMatrix

open Idealize.ShloMosaic

/-- The concatenation of `a` and `b` along axis `ax`. -/
def concat2 {α : Type} (t : Shape) (ax : Fin t.rank) (s₁ s₂ : Shape) (h : Shape.Concatenates [s₁, s₂] t ax)
    (a : s₁.Idx → α) (b : s₂.Idx → α) : t.Idx → α :=
  concatenate t ax [⟨s₁, a⟩, ⟨s₂, b⟩] h

/-- The library's two-element concatenation is `concat2`. -/
theorem concat2_eq {α : Type} (t : Shape) (ax : Fin t.rank) (s₁ s₂ : Shape) (h : Shape.Concatenates [s₁, s₂] t ax)
    (a : s₁.Idx → α) (b : s₂.Idx → α) :
    concatenate t ax [⟨s₁, a⟩, ⟨s₂, b⟩] h = concat2 t ax s₁ s₂ h a b := rfl

/-- Reads a buffer after a literal line of operations: each operation's result at its own buffer is its
    function's value, at any other buffer what was there; two-element concatenations are respelt as functions
    of their operands so that the reading continues inside them. -/
macro "line_results" : tactic =>
  `(tactic| (simp (disch := decide) only [StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne',
      StableHlo.unaryIndexed_result_ne', StableHlo.binaryIndexed_result_ne', concat2_eq]))

end Cert.KernelIdeal.KMatrix
-- ==== Proof.KMatrixRef.lean ====
/-
  The matrix as the reference program leaves it, as one closed term of the angles.

  The reference's line up to the operation that writes the 16 × 16 matrix is a list of operations, each
  writing one buffer of its own.  Reading the matrix's buffer after the line, every operation's result is
  replaced by its function applied to its operands' contents, down to the one buffer the line only reads:
  the angles.  The term that is left is kept together with the equation, so that it can be compared with
  the same reading of the other program.
-/
import proofs.«133008_j10806137716891_2_alg».proof.Proof.RefOps
import proofs.«133008_j10806137716891_2_alg».proof.Proof.KConcat

set_option maxRecDepth 16384

noncomputable section

namespace Cert.KernelIdeal.KMatrix

open Idealize.ShloMosaic Idealize.ShloMosaic.TcCoe

/-- The reference's operations up to the one that writes the matrix. -/
abbrev refLine : List (HloOp Cert.ReferenceIdeal.τ Cert.ReferenceIdeal.sig (Elt Ideal)) :=
  Cert.ReferenceIdeal.RefOps.ops0 ++ Cert.ReferenceIdeal.RefOps.ops1 ++ Cert.ReferenceIdeal.RefOps.ops2 ++ Cert.ReferenceIdeal.RefOps.ops3 ++ Cert.ReferenceIdeal.RefOps.ops4a

set_option maxHeartbeats 16000000 in
/-- What the matrix's buffer holds after the reference's line, from any contents `V'`: a term of `V'` at the
    angles' buffer only, with the equation that says so. -/
def refU (V' : Valuation Cert.ReferenceIdeal.τ Cert.ReferenceIdeal.sig (Elt Ideal)) :
    { T : (Cert.ReferenceIdeal.main_v208 : Ref Cert.ReferenceIdeal.sig .tc).ty.Contents (Elt Ideal) //
      StableHlo.after refLine V' (Proc.devRef .tc Cert.ReferenceIdeal.main_v208) = T } := by
  refine ⟨?w, ?h⟩
  case h =>
    simp only [refLine, Cert.ReferenceIdeal.RefOps.ops0, Cert.ReferenceIdeal.RefOps.ops1, Cert.ReferenceIdeal.RefOps.ops2, Cert.ReferenceIdeal.RefOps.ops3,
      Cert.ReferenceIdeal.RefOps.ops4a, List.cons_append, List.nil_append, List.append_nil]
    line_results
    exact rfl

end Cert.KernelIdeal.KMatrix

end
-- ==== Proof.KMatrixKer.lean ====
/-
  The matrix as the kernel's program leaves it when the region is entered, as one closed term of the angles.

  The host line before the region is a list of operations, each writing one buffer of its own.  Reading the
  matrix's buffer after the line, every operation's result is replaced by its function applied to its operands'
  contents, down to the one buffer the line only reads: the angles.  The term that is left is kept together
  with the equation, so that it can be compared with the same reading of the reference.
-/
import proofs.«133008_j10806137716891_2_alg».proof.Proof.Gen.KernelIdeal.Frame.Runs
import proofs.«133008_j10806137716891_2_alg».proof.Proof.KConcat

set_option maxRecDepth 16384

noncomputable section

namespace Cert.KernelIdeal.KMatrix

open Idealize.ShloMosaic Idealize.ShloMosaic.TcCoe
open Cert.KernelIdeal Cert.KernelIdeal.Gen

set_option maxHeartbeats 16000000 in
/-- What the matrix's buffer holds when the region is entered: a term of the launch contents at the angles'
    buffer only, with the equation that says so. -/
def kerU (m : (ℓ : Loc nD τ sig) → Buf (Elt Ideal) ℓ) (c : Dev nD) :
    { T : (main_v208 : Ref sig .tc).ty.Contents (Elt Ideal) // V0 m c (Proc.devRef .tc main_v208) = T } := by
  refine ⟨?w, ?h⟩
  case h =>
    simp only [V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append,
      List.nil_append]
    line_results
    exact rfl

end Cert.KernelIdeal.KMatrix

end
-- ==== Proof.KMatrix.lean ====
/-
  The two programs compute one matrix.

  Up to the numbering of their buffers the two programs apply the same operations to the angles: the rotation
  matrices, their Kronecker products and the products of those.  Each program's reading of the matrix's buffer
  is a closed term of the angles; where the angles agree the two terms are the same term.
-/
import proofs.«133008_j10806137716891_2_alg».proof.Proof.KMatrixRef
import proofs.«133008_j10806137716891_2_alg».proof.Proof.KMatrixKer

set_option maxRecDepth 16384

noncomputable section

namespace Cert.KernelIdeal.KMatrix

open Idealize.ShloMosaic Idealize.ShloMosaic.TcCoe
open Cert.KernelIdeal Cert.KernelIdeal.Gen

variable (m : (ℓ : Loc nD τ sig) → Buf (Elt Ideal) ℓ)

set_option maxHeartbeats 4000000 in
/-- Where the reference's angles are the kernel's, the reference's matrix is the one the region finds. -/
theorem U_agree (c : Dev nD) (V' : Valuation Cert.ReferenceIdeal.τ Cert.ReferenceIdeal.sig (Elt Ideal))
    (h : V' (Cert.ReferenceIdeal.main_arg1 : DevRef Cert.ReferenceIdeal.τ Cert.ReferenceIdeal.sig) = m ((c : Thread nD τ).loc main_arg1)) :
    StableHlo.after (Cert.ReferenceIdeal.RefOps.ops0 ++ Cert.ReferenceIdeal.RefOps.ops1 ++ Cert.ReferenceIdeal.RefOps.ops2 ++ Cert.ReferenceIdeal.RefOps.ops3 ++ Cert.ReferenceIdeal.RefOps.ops4a) V' (Cert.ReferenceIdeal.main_v208 : DevRef Cert.ReferenceIdeal.τ Cert.ReferenceIdeal.sig)
      = V m c main_v208 := by
  refine ((refU V').2).trans (Eq.trans ?_ ((kerU m c).2).symm)
  dsimp only [refU, kerU]
  rw [h]
  rfl

end Cert.KernelIdeal.KMatrix

end
-- ==== Proof.RefRun0.lean ====
/-
  The first window of the reference program is the straight line of its operations, the operations of each
  function it calls written where the call stands; and each of them touches TensorCore references only.

  A window is printed as a chain of steps, each an operation continued by nothing, a call being the callee's own
  chain ended by a return. Unfolding the callees and reassociating the sequencing (a return followed by a step is
  the step) leaves one chain of steps, which is the straight line of the list.
-/
import proofs.«133008_j10806137716891_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The first window runs its operations in order, the callees' at their calls. -/
theorem part0_eq (c : Dev nD) : main_part0 (F := F) c = StableHlo.seq ops0 := by
  simp only [main_part0, fn_kron.body, fn_kron_0.body, StableHlo.seq, bind_assoc, pure_bind]
  rfl

/-- Every operation of `ops0` touches TensorCore references only: each is built by one of the builders, whose
    buffers are its operands' and its result's. -/
theorem ops0_sub : (ops0 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- No operation of `ops0` leaves a buffer at contents it does not determine. -/
theorem ops0_fresh : (ops0 : List (HloOp τ sig (Elt F))).Forall fun op => op.fresh = ∅ := by
  repeat constructor

end Cert.ReferenceIdeal.RefRun

end
-- ==== Proof.RefRun1.lean ====
/-
  The second window of the reference program is the straight line of its operations, the operations of each
  function it calls written where the call stands; and each of them touches TensorCore references only.

  A window is printed as a chain of steps, each an operation continued by nothing, a call being the callee's own
  chain ended by a return. Unfolding the callees and reassociating the sequencing (a return followed by a step is
  the step) leaves one chain of steps, which is the straight line of the list.
-/
import proofs.«133008_j10806137716891_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The second window runs its operations in order, the callees' at their calls. -/
theorem part1_eq (c : Dev nD) : main_part1 (F := F) c = StableHlo.seq ops1 := by
  simp only [main_part1, fn_kron_1.body, fn_kron_2.body, fn_kron_3.body, fn_kron_4.body, fn_kron_5.body, fn_kron_6.body, fn_kron_7.body, StableHlo.seq, bind_assoc, pure_bind]
  rfl

/-- Every operation of `ops1` touches TensorCore references only: each is built by one of the builders, whose
    buffers are its operands' and its result's. -/
theorem ops1_sub : (ops1 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- No operation of `ops1` leaves a buffer at contents it does not determine. -/
theorem ops1_fresh : (ops1 : List (HloOp τ sig (Elt F))).Forall fun op => op.fresh = ∅ := by
  repeat constructor

end Cert.ReferenceIdeal.RefRun

end
-- ==== Proof.RefRun2.lean ====
/-
  The third window of the reference program is the straight line of its operations, the operations of each
  function it calls written where the call stands; and each of them touches TensorCore references only.

  A window is printed as a chain of steps, each an operation continued by nothing, a call being the callee's own
  chain ended by a return. Unfolding the callees and reassociating the sequencing (a return followed by a step is
  the step) leaves one chain of steps, which is the straight line of the list.
-/
import proofs.«133008_j10806137716891_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The third window runs its operations in order, the callees' at their calls. -/
theorem part2_eq (c : Dev nD) : main_part2 (F := F) c = StableHlo.seq ops2 := by
  simp only [main_part2, fn_kron_8.body, fn_kron_9.body, fn_kron_7.body, fn_kron_3.body, fn_kron_4.body, fn_kron_5.body, fn_kron_6.body, StableHlo.seq, bind_assoc, pure_bind]
  rfl

/-- Every operation of `ops2` touches TensorCore references only: each is built by one of the builders, whose
    buffers are its operands' and its result's. -/
theorem ops2_sub : (ops2 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- No operation of `ops2` leaves a buffer at contents it does not determine. -/
theorem ops2_fresh : (ops2 : List (HloOp τ sig (Elt F))).Forall fun op => op.fresh = ∅ := by
  repeat constructor

end Cert.ReferenceIdeal.RefRun

end
-- ==== Proof.RefRun3.lean ====
/-
  The fourth window of the reference program is the straight line of its operations, the operations of each
  function it calls written where the call stands; and each of them touches TensorCore references only.

  A window is printed as a chain of steps, each an operation continued by nothing, a call being the callee's own
  chain ended by a return. Unfolding the callees and reassociating the sequencing (a return followed by a step is
  the step) leaves one chain of steps, which is the straight line of the list.
-/
import proofs.«133008_j10806137716891_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The fourth window runs its operations in order, the callees' at their calls. -/
theorem part3_eq (c : Dev nD) : main_part3 (F := F) c = StableHlo.seq ops3 := by
  simp only [main_part3, fn_kron.body, fn_kron_0.body, fn_kron_1.body, StableHlo.seq, bind_assoc, pure_bind]
  rfl

/-- Every operation of `ops3` touches TensorCore references only: each is built by one of the builders, whose
    buffers are its operands' and its result's. -/
theorem ops3_sub : (ops3 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- No operation of `ops3` leaves a buffer at contents it does not determine. -/
theorem ops3_fresh : (ops3 : List (HloOp τ sig (Elt F))).Forall fun op => op.fresh = ∅ := by
  repeat constructor

end Cert.ReferenceIdeal.RefRun

end
-- ==== Proof.RefRun4.lean ====
/-
  The fifth window of the reference program is the straight line of its operations, the operations of each
  function it calls written where the call stands; and each of them touches TensorCore references only.

  A window is printed as a chain of steps, each an operation continued by nothing, a call being the callee's own
  chain ended by a return. Unfolding the callees and reassociating the sequencing (a return followed by a step is
  the step) leaves one chain of steps, which is the straight line of the list.
  This window holds the operation that writes the 16 × 16 matrix; its list is cut in two after that operation, and
  the straight line of a concatenation is the two lines one after the other.
-/
import proofs.«133008_j10806137716891_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The fifth window runs its operations in order, the callees' at their calls. -/
theorem part4_eq (c : Dev nD) : main_part4 (F := F) c = StableHlo.seq (ops4a ++ ops4b) := by
  rw [StableHlo.seq_append]
  simp only [main_part4, fn_kron_2.body, fn_where.body, StableHlo.seq, bind_assoc, pure_bind]
  rfl

/-- Every operation of `ops4a` touches TensorCore references only: each is built by one of the builders, whose
    buffers are its operands' and its result's. -/
theorem ops4a_sub : (ops4a : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- Every operation of `ops4b` touches TensorCore references only: each is built by one of the builders, whose
    buffers are its operands' and its result's. -/
theorem ops4b_sub : (ops4b : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- No operation of `ops4a` leaves a buffer at contents it does not determine. -/
theorem ops4a_fresh : (ops4a : List (HloOp τ sig (Elt F))).Forall fun op => op.fresh = ∅ := by
  repeat constructor

/-- No operation of `ops4b` leaves a buffer at contents it does not determine. -/
theorem ops4b_fresh : (ops4b : List (HloOp τ sig (Elt F))).Forall fun op => op.fresh = ∅ := by
  repeat constructor

end Cert.ReferenceIdeal.RefRun

end
-- ==== Proof.RefRun5.lean ====
/-
  The sixth window of the reference program is the straight line of its operations, the operations of each
  function it calls written where the call stands; and each of them touches TensorCore references only.

  A window is printed as a chain of steps, each an operation continued by nothing, a call being the callee's own
  chain ended by a return. Unfolding the callees and reassociating the sequencing (a return followed by a step is
  the step) leaves one chain of steps, which is the straight line of the list.
-/
import proofs.«133008_j10806137716891_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The sixth window runs its operations in order, the callees' at their calls. -/
theorem part5_eq (c : Dev nD) : main_part5 (F := F) c = StableHlo.seq ops5 := by
  simp only [main_part5, fn_where_10.body, StableHlo.seq, bind_assoc, pure_bind]
  rfl

/-- Every operation of `ops5` touches TensorCore references only: each is built by one of the builders, whose
    buffers are its operands' and its result's. -/
theorem ops5_sub : (ops5 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- No operation of `ops5` leaves a buffer at contents it does not determine. -/
theorem ops5_fresh : (ops5 : List (HloOp τ sig (Elt F))).Forall fun op => op.fresh = ∅ := by
  repeat constructor

end Cert.ReferenceIdeal.RefRun

end
-- ==== Proof.RefRun6.lean ====
/-
  The last window of the reference program is the straight line of its three operations, and each of them
  touches TensorCore references only.

  A window is printed as a chain of steps, each an operation continued by nothing; the straight line of a list is
  the same chain ended by the return. The two are equal once sequencing is reassociated and the return absorbed.
-/
import proofs.«133008_j10806137716891_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The last window runs its three operations in order. -/
theorem part6_eq (c : Dev nD) : main_part6 (F := F) c = StableHlo.seq ops6 := by
  simp only [main_part6, StableHlo.seq, bind_assoc, pure_bind]

/-- Every operation of the last window touches TensorCore references only. -/
theorem ops6_sub : (ops6 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

/-- No operation of `ops6` leaves a buffer at contents it does not determine. -/
theorem ops6_fresh : (ops6 : List (HloOp τ sig (Elt F))).Forall fun op => op.fresh = ∅ := by
  repeat constructor

end Cert.ReferenceIdeal.RefRun

end
-- ==== Proof.RefRun.lean ====
/-
  The run of the reference program, as one straight line of its 533 host operations.

  The program is printed as seven windows run one after the other. Each window is the straight line of its list of
  operations (the sibling modules, one per window); straight lines run one after the other are the straight line of
  the concatenation; so the whole program is the straight line of the concatenation of the lists. The lists are
  grouped in two: those that compute the 16 × 16 matrix (`opsU`, up to and including the operation that writes
  it) and those after it (`opsT`).

  Every operation touches TensorCore references only and determines what it writes, and the signature scopes no
  buffer and no semaphore; so every weakly fair execution from a memory with zero counters terminates with each
  TensorCore buffer at the fold of the operations over the launch contents.
-/
import proofs.«133008_j10806137716891_2_alg».proof.Proof.RefRun0
import proofs.«133008_j10806137716891_2_alg».proof.Proof.RefRun1
import proofs.«133008_j10806137716891_2_alg».proof.Proof.RefRun2
import proofs.«133008_j10806137716891_2_alg».proof.Proof.RefRun3
import proofs.«133008_j10806137716891_2_alg».proof.Proof.RefRun4
import proofs.«133008_j10806137716891_2_alg».proof.Proof.RefRun5
import proofs.«133008_j10806137716891_2_alg».proof.Proof.RefRun6
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem

variable {F : FTy → Type} [FloatOps F]

/-- The operations that compute the 16 × 16 matrix, the one that writes it last. -/
abbrev opsU : List (HloOp τ sig (Elt F)) := ops0 ++ ops1 ++ ops2 ++ ops3 ++ ops4a
/-- The operations after the matrix: the amplitudes and the result. -/
abbrev opsT : List (HloOp τ sig (Elt F)) := ops4b ++ ops5 ++ ops6

/-- Straight lines run one after the other are the straight line of the concatenation, at the grouping of the
    seven windows (the fifth given as the concatenation of its two halves). -/
theorem seq_join {Val : EltTy → Type} {Λ : Labels} (l0 l1 l2 l3 l4a l4b l5 l6 : List (HloOp τ sig Val)) :
    ((StableHlo.seq l0 >>= fun _ => StableHlo.seq l1 >>= fun _ => StableHlo.seq l2 >>= fun _ => StableHlo.seq l3 >>= fun _ =>
        StableHlo.seq (l4a ++ l4b) >>= fun _ => StableHlo.seq l5 >>= fun _ => StableHlo.seq l6)
        : Prog (TpuEff nD τ sig Val Λ .tc) PUnit)
      = StableHlo.seq ((l0 ++ l1 ++ l2 ++ l3 ++ l4a) ++ (l4b ++ l5 ++ l6)) := by
  simp only [StableHlo.seq_append, bind_assoc]

/-- The reference program is the straight line of its operations. -/
theorem main_eq (c : Dev nD) : main (F := F) c = StableHlo.seq (opsU ++ opsT) := by
  have h : main (F := F) c
      = (main_part0 c >>= fun _ => main_part1 c >>= fun _ => main_part2 c >>= fun _ => main_part3 c >>= fun _ =>
          main_part4 c >>= fun _ => main_part5 c >>= fun _ => main_part6 c) := rfl
  rw [h, part0_eq, part1_eq, part2_eq, part3_eq, part4_eq, part5_eq, part6_eq]
  exact seq_join ops0 ops1 ops2 ops3 ops4a ops4b ops5 ops6

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only. -/
theorem ops_sub : (opsU ++ opsT : List (HloOp τ sig (Elt F))).Forall fun op => op.bufs ⊆ StableHlo.tcRefs τ sig :=
  List.forall_append.mpr
    ⟨List.forall_append.mpr ⟨List.forall_append.mpr ⟨List.forall_append.mpr ⟨List.forall_append.mpr
        ⟨ops0_sub, ops1_sub⟩, ops2_sub⟩, ops3_sub⟩, ops4a_sub⟩,
      List.forall_append.mpr ⟨List.forall_append.mpr ⟨ops4b_sub, ops5_sub⟩, ops6_sub⟩⟩

/-- Every operation determines what it writes. -/
theorem ops_fresh : (opsU ++ opsT : List (HloOp τ sig (Elt F))).Forall fun op => op.fresh = ∅ :=
  List.forall_append.mpr
    ⟨List.forall_append.mpr ⟨List.forall_append.mpr ⟨List.forall_append.mpr ⟨List.forall_append.mpr
        ⟨ops0_fresh, ops1_fresh⟩, ops2_fresh⟩, ops3_fresh⟩, ops4a_fresh⟩,
      List.forall_append.mpr ⟨List.forall_append.mpr ⟨ops4b_fresh, ops5_fresh⟩, ops6_fresh⟩⟩

/-- From any memory with zero counters every weakly fair execution of the reference program terminates, and every
    final state has each TensorCore buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after (opsU ++ opsT) (StableHlo.launchContents m c) (b : DevRef τ sig) :=
  StableHlo.run_seq scopedRefs_eq scopedSems_eq defs main (fun _ => opsU ++ opsT) main_eq (fun _ => ops_sub) m ρ
    (fun _ => List.forall_iff_forall_mem.mp ops_fresh)

end Cert.ReferenceIdeal.RefRun

end
-- ==== Proof.RefTail.lean ====
/- The reference's operations after the matrix, composed into one term of the samples x, the matrix U and the two bit tables L (low end first) and H (high end first), at the ideal instance. -/
import proofs.«133008_j10806137716891_2_alg».proof.Proof.Gen.ReferenceIdeal
import Idealize.ShloMosaic.PureOps.Ideal

noncomputable section

namespace Cert.ReferenceIdeal.RefTail

open Cert.ReferenceIdeal Cert.ReferenceIdeal.Gen Idealize.ShloMosaic Idealize.ShloMosaic.TcCoe

set_option maxHeartbeats 4000000 in
/-- The first sample's sixteen amplitudes: products over its four entries, each entry or its complement to one by the low-end bit table. -/
def low (main_arg0 : FVec Ideal S2097152x4 .f32) (main_cst_2 : FVec Ideal S16x4 .f32) : FVec Ideal S16 .f32 :=
  have main_v209 : FVec Ideal S1x4 .f32 := extractStridedSlice S1x4 ![0, 0] main_arg0 slices_S2097152x4_S1x4_0_0
  have main_v210 : FVec Ideal S4 .f32 := shapeCast S4 main_v209 shapeCasts_S1x4_S4
  have main_cst_33 : FVec Ideal S_ .f32 := constant S_ .f32 0x3F800000#32
  have main_v211 : FVec Ideal S16 .f32 := broadcastInDim S16 ![] bcast_S_S16 main_cst_33
  have main_v212 : FVec Ideal S16x1 .f32 := extractStridedSlice S16x1 ![0, 0] main_cst_2 slices_S16x4_S16x1_0_0
  have main_v213 : FVec Ideal S16 .f32 := shapeCast S16 main_v212 shapeCasts_S16x1_S16
  have main_cst_34 : FVec Ideal S_ .f32 := constant S_ .f32 0x3F800000#32
  have main_v214 : FVec Ideal S16 .f32 := broadcastInDim S16 ![] bcast_S_S16 main_cst_34
  have main_v215 : IVec S16 1 := cmpf .oeq main_v213 main_v214
  have main_v216 : FVec Ideal S1 .f32 := extractStridedSlice S1 ![0] main_v210 slices_S4_S1_0
  have main_v217 : FVec Ideal S_ .f32 := shapeCast S_ main_v216 shapeCasts_S1_S_
  have main_v218 : FVec Ideal S1 .f32 := extractStridedSlice S1 ![0] main_v210 slices_S4_S1_0
  have main_v219 : FVec Ideal S_ .f32 := shapeCast S_ main_v218 shapeCasts_S1_S_
  have main_cst_35 : FVec Ideal S_ .f32 := constant S_ .f32 0x3F800000#32
  have main_v220 : FVec Ideal S_ .f32 := subf main_cst_35 main_v219
  have main_call32_v0 : FVec Ideal S16 .f32 := broadcastInDim S16 ![] bcast_S_S16 main_v217
  have main_call32_v1 : FVec Ideal S16 .f32 := broadcastInDim S16 ![] bcast_S_S16 main_v220
  have main_v221 : FVec Ideal S16 .f32 := select main_v215 main_call32_v0 main_call32_v1
  have main_v222 : FVec Ideal S16 .f32 := mulf main_v211 main_v221
  have main_v223 : FVec Ideal S16x1 .f32 := extractStridedSlice S16x1 ![0, 1] main_cst_2 slices_S16x4_S16x1_0_1
  have main_v224 : FVec Ideal S16 .f32 := shapeCast S16 main_v223 shapeCasts_S16x1_S16
  have main_cst_36 : FVec Ideal S_ .f32 := constant S_ .f32 0x3F800000#32
  have main_v225 : FVec Ideal S16 .f32 := broadcastInDim S16 ![] bcast_S_S16 main_cst_36
  have main_v226 : IVec S16 1 := cmpf .oeq main_v224 main_v225
  have main_v227 : FVec Ideal S1 .f32 := extractStridedSlice S1 ![1] main_v210 slices_S4_S1_1
  have main_v228 : FVec Ideal S_ .f32 := shapeCast S_ main_v227 shapeCasts_S1_S_
  have main_v229 : FVec Ideal S1 .f32 := extractStridedSlice S1 ![1] main_v210 slices_S4_S1_1
  have main_v230 : FVec Ideal S_ .f32 := shapeCast S_ main_v229 shapeCasts_S1_S_
  have main_cst_37 : FVec Ideal S_ .f32 := constant S_ .f32 0x3F800000#32
  have main_v231 : FVec Ideal S_ .f32 := subf main_cst_37 main_v230
  have main_call33_v0 : FVec Ideal S16 .f32 := broadcastInDim S16 ![] bcast_S_S16 main_v228
  have main_call33_v1 : FVec Ideal S16 .f32 := broadcastInDim S16 ![] bcast_S_S16 main_v231
  have main_v232 : FVec Ideal S16 .f32 := select main_v226 main_call33_v0 main_call33_v1
  have main_v233 : FVec Ideal S16 .f32 := mulf main_v222 main_v232
  have main_v234 : FVec Ideal S16x1 .f32 := extractStridedSlice S16x1 ![0, 2] main_cst_2 slices_S16x4_S16x1_0_2
  have main_v235 : FVec Ideal S16 .f32 := shapeCast S16 main_v234 shapeCasts_S16x1_S16
  have main_cst_38 : FVec Ideal S_ .f32 := constant S_ .f32 0x3F800000#32
  have main_v236 : FVec Ideal S16 .f32 := broadcastInDim S16 ![] bcast_S_S16 main_cst_38
  have main_v237 : IVec S16 1 := cmpf .oeq main_v235 main_v236
  have main_v238 : FVec Ideal S1 .f32 := extractStridedSlice S1 ![2] main_v210 slices_S4_S1_2
  have main_v239 : FVec Ideal S_ .f32 := shapeCast S_ main_v238 shapeCasts_S1_S_
  have main_v240 : FVec Ideal S1 .f32 := extractStridedSlice S1 ![2] main_v210 slices_S4_S1_2
  have main_v241 : FVec Ideal S_ .f32 := shapeCast S_ main_v240 shapeCasts_S1_S_
  have main_cst_39 : FVec Ideal S_ .f32 := constant S_ .f32 0x3F800000#32
  have main_v242 : FVec Ideal S_ .f32 := subf main_cst_39 main_v241
  have main_call34_v0 : FVec Ideal S16 .f32 := broadcastInDim S16 ![] bcast_S_S16 main_v239
  have main_call34_v1 : FVec Ideal S16 .f32 := broadcastInDim S16 ![] bcast_S_S16 main_v242
  have main_v243 : FVec Ideal S16 .f32 := select main_v237 main_call34_v0 main_call34_v1
  have main_v244 : FVec Ideal S16 .f32 := mulf main_v233 main_v243
  have main_v245 : FVec Ideal S16x1 .f32 := extractStridedSlice S16x1 ![0, 3] main_cst_2 slices_S16x4_S16x1_0_3
  have main_v246 : FVec Ideal S16 .f32 := shapeCast S16 main_v245 shapeCasts_S16x1_S16
  have main_cst_40 : FVec Ideal S_ .f32 := constant S_ .f32 0x3F800000#32
  have main_v247 : FVec Ideal S16 .f32 := broadcastInDim S16 ![] bcast_S_S16 main_cst_40
  have main_v248 : IVec S16 1 := cmpf .oeq main_v246 main_v247
  have main_v249 : FVec Ideal S1 .f32 := extractStridedSlice S1 ![3] main_v210 slices_S4_S1_3
  have main_v250 : FVec Ideal S_ .f32 := shapeCast S_ main_v249 shapeCasts_S1_S_
  have main_v251 : FVec Ideal S1 .f32 := extractStridedSlice S1 ![3] main_v210 slices_S4_S1_3
  have main_v252 : FVec Ideal S_ .f32 := shapeCast S_ main_v251 shapeCasts_S1_S_
  have main_cst_41 : FVec Ideal S_ .f32 := constant S_ .f32 0x3F800000#32
  have main_v253 : FVec Ideal S_ .f32 := subf main_cst_41 main_v252
  have main_call35_v0 : FVec Ideal S16 .f32 := broadcastInDim S16 ![] bcast_S_S16 main_v250
  have main_call35_v1 : FVec Ideal S16 .f32 := broadcastInDim S16 ![] bcast_S_S16 main_v253
  have main_v254 : FVec Ideal S16 .f32 := select main_v248 main_call35_v0 main_call35_v1
  have main_v255 : FVec Ideal S16 .f32 := mulf main_v244 main_v254
  main_v255

set_option maxHeartbeats 4000000 in
/-- The other samples' amplitudes: square roots of the products over their squared entries, by the high-end bit table. -/
def high (main_arg0 : FVec Ideal S2097152x4 .f32) (main_cst_3 : FVec Ideal S16x4 .f32) : FVec Ideal S2097151x16 .f32 :=
  have main_v256 : FVec Ideal S2097151x4 .f32 := extractStridedSlice S2097151x4 ![1, 0] main_arg0 slices_S2097152x4_S2097151x4_1_0
  have main_v257 : FVec Ideal S2097151x4 .f32 := mulf main_v256 main_v256
  have main_cst_42 : FVec Ideal S_ .f32 := constant S_ .f32 0x3F800000#32
  have main_v258 : FVec Ideal S2097151x16 .f32 := broadcastInDim S2097151x16 ![] bcast_S_S2097151x16 main_cst_42
  have main_v259 : FVec Ideal S16x1 .f32 := extractStridedSlice S16x1 ![0, 0] main_cst_3 slices_S16x4_S16x1_0_0
  have main_v260 : FVec Ideal S16 .f32 := shapeCast S16 main_v259 shapeCasts_S16x1_S16
  have main_v261 : FVec Ideal S1x16 .f32 := broadcastInDim S1x16 ![1] bcast_S16_S1x16_1 main_v260
  have main_cst_43 : FVec Ideal S_ .f32 := constant S_ .f32 0x3F800000#32
  have main_v262 : FVec Ideal S1x16 .f32 := broadcastInDim S1x16 ![] bcast_S_S1x16 main_cst_43
  have main_v263 : IVec S1x16 1 := cmpf .oeq main_v261 main_v262
  have main_v264 : FVec Ideal S2097151x1 .f32 := extractStridedSlice S2097151x1 ![0, 0] main_v257 slices_S2097151x4_S2097151x1_0_0
  have main_v265 : FVec Ideal S2097151x1 .f32 := extractStridedSlice S2097151x1 ![0, 0] main_v257 slices_S2097151x4_S2097151x1_0_0
  have main_cst_44 : FVec Ideal S_ .f32 := constant S_ .f32 0x3F800000#32
  have main_v266 : FVec Ideal S2097151x1 .f32 := broadcastInDim S2097151x1 ![] bcast_S_S2097151x1 main_cst_44
  have main_v267 : FVec Ideal S2097151x1 .f32 := subf main_v266 main_v265
  have main_call36_v0 : IVec S2097151x16 1 := broadcastInDim S2097151x16 ![0, 1] bcast_S1x16_S2097151x16_0_1 main_v263
  have main_call36_v1 : FVec Ideal S2097151x16 .f32 := broadcastInDim S2097151x16 ![0, 1] bcast_S2097151x1_S2097151x16_0_1 main_v264
  have main_call36_v2 : FVec Ideal S2097151x16 .f32 := broadcastInDim S2097151x16 ![0, 1] bcast_S2097151x1_S2097151x16_0_1 main_v267
  have main_v268 : FVec Ideal S2097151x16 .f32 := select main_call36_v0 main_call36_v1 main_call36_v2
  have main_v269 : FVec Ideal S2097151x16 .f32 := mulf main_v258 main_v268
  have main_v270 : FVec Ideal S16x1 .f32 := extractStridedSlice S16x1 ![0, 1] main_cst_3 slices_S16x4_S16x1_0_1
  have main_v271 : FVec Ideal S16 .f32 := shapeCast S16 main_v270 shapeCasts_S16x1_S16
  have main_v272 : FVec Ideal S1x16 .f32 := broadcastInDim S1x16 ![1] bcast_S16_S1x16_1 main_v271
  have main_cst_45 : FVec Ideal S_ .f32 := constant S_ .f32 0x3F800000#32
  have main_v273 : FVec Ideal S1x16 .f32 := broadcastInDim S1x16 ![] bcast_S_S1x16 main_cst_45
  have main_v274 : IVec S1x16 1 := cmpf .oeq main_v272 main_v273
  have main_v275 : FVec Ideal S2097151x1 .f32 := extractStridedSlice S2097151x1 ![0, 1] main_v257 slices_S2097151x4_S2097151x1_0_1
  have main_v276 : FVec Ideal S2097151x1 .f32 := extractStridedSlice S2097151x1 ![0, 1] main_v257 slices_S2097151x4_S2097151x1_0_1
  have main_cst_46 : FVec Ideal S_ .f32 := constant S_ .f32 0x3F800000#32
  have main_v277 : FVec Ideal S2097151x1 .f32 := broadcastInDim S2097151x1 ![] bcast_S_S2097151x1 main_cst_46
  have main_v278 : FVec Ideal S2097151x1 .f32 := subf main_v277 main_v276
  have main_call37_v0 : IVec S2097151x16 1 := broadcastInDim S2097151x16 ![0, 1] bcast_S1x16_S2097151x16_0_1 main_v274
  have main_call37_v1 : FVec Ideal S2097151x16 .f32 := broadcastInDim S2097151x16 ![0, 1] bcast_S2097151x1_S2097151x16_0_1 main_v275
  have main_call37_v2 : FVec Ideal S2097151x16 .f32 := broadcastInDim S2097151x16 ![0, 1] bcast_S2097151x1_S2097151x16_0_1 main_v278
  have main_v279 : FVec Ideal S2097151x16 .f32 := select main_call37_v0 main_call37_v1 main_call37_v2
  have main_v280 : FVec Ideal S2097151x16 .f32 := mulf main_v269 main_v279
  have main_v281 : FVec Ideal S16x1 .f32 := extractStridedSlice S16x1 ![0, 2] main_cst_3 slices_S16x4_S16x1_0_2
  have main_v282 : FVec Ideal S16 .f32 := shapeCast S16 main_v281 shapeCasts_S16x1_S16
  have main_v283 : FVec Ideal S1x16 .f32 := broadcastInDim S1x16 ![1] bcast_S16_S1x16_1 main_v282
  have main_cst_47 : FVec Ideal S_ .f32 := constant S_ .f32 0x3F800000#32
  have main_v284 : FVec Ideal S1x16 .f32 := broadcastInDim S1x16 ![] bcast_S_S1x16 main_cst_47
  have main_v285 : IVec S1x16 1 := cmpf .oeq main_v283 main_v284
  have main_v286 : FVec Ideal S2097151x1 .f32 := extractStridedSlice S2097151x1 ![0, 2] main_v257 slices_S2097151x4_S2097151x1_0_2
  have main_v287 : FVec Ideal S2097151x1 .f32 := extractStridedSlice S2097151x1 ![0, 2] main_v257 slices_S2097151x4_S2097151x1_0_2
  have main_cst_48 : FVec Ideal S_ .f32 := constant S_ .f32 0x3F800000#32
  have main_v288 : FVec Ideal S2097151x1 .f32 := broadcastInDim S2097151x1 ![] bcast_S_S2097151x1 main_cst_48
  have main_v289 : FVec Ideal S2097151x1 .f32 := subf main_v288 main_v287
  have main_call38_v0 : IVec S2097151x16 1 := broadcastInDim S2097151x16 ![0, 1] bcast_S1x16_S2097151x16_0_1 main_v285
  have main_call38_v1 : FVec Ideal S2097151x16 .f32 := broadcastInDim S2097151x16 ![0, 1] bcast_S2097151x1_S2097151x16_0_1 main_v286
  have main_call38_v2 : FVec Ideal S2097151x16 .f32 := broadcastInDim S2097151x16 ![0, 1] bcast_S2097151x1_S2097151x16_0_1 main_v289
  have main_v290 : FVec Ideal S2097151x16 .f32 := select main_call38_v0 main_call38_v1 main_call38_v2
  have main_v291 : FVec Ideal S2097151x16 .f32 := mulf main_v280 main_v290
  have main_v292 : FVec Ideal S16x1 .f32 := extractStridedSlice S16x1 ![0, 3] main_cst_3 slices_S16x4_S16x1_0_3
  have main_v293 : FVec Ideal S16 .f32 := shapeCast S16 main_v292 shapeCasts_S16x1_S16
  have main_v294 : FVec Ideal S1x16 .f32 := broadcastInDim S1x16 ![1] bcast_S16_S1x16_1 main_v293
  have main_cst_49 : FVec Ideal S_ .f32 := constant S_ .f32 0x3F800000#32
  have main_v295 : FVec Ideal S1x16 .f32 := broadcastInDim S1x16 ![] bcast_S_S1x16 main_cst_49
  have main_v296 : IVec S1x16 1 := cmpf .oeq main_v294 main_v295
  have main_v297 : FVec Ideal S2097151x1 .f32 := extractStridedSlice S2097151x1 ![0, 3] main_v257 slices_S2097151x4_S2097151x1_0_3
  have main_v298 : FVec Ideal S2097151x1 .f32 := extractStridedSlice S2097151x1 ![0, 3] main_v257 slices_S2097151x4_S2097151x1_0_3
  have main_cst_50 : FVec Ideal S_ .f32 := constant S_ .f32 0x3F800000#32
  have main_v299 : FVec Ideal S2097151x1 .f32 := broadcastInDim S2097151x1 ![] bcast_S_S2097151x1 main_cst_50
  have main_v300 : FVec Ideal S2097151x1 .f32 := subf main_v299 main_v298
  have main_call39_v0 : IVec S2097151x16 1 := broadcastInDim S2097151x16 ![0, 1] bcast_S1x16_S2097151x16_0_1 main_v296
  have main_call39_v1 : FVec Ideal S2097151x16 .f32 := broadcastInDim S2097151x16 ![0, 1] bcast_S2097151x1_S2097151x16_0_1 main_v297
  have main_call39_v2 : FVec Ideal S2097151x16 .f32 := broadcastInDim S2097151x16 ![0, 1] bcast_S2097151x1_S2097151x16_0_1 main_v300
  have main_v301 : FVec Ideal S2097151x16 .f32 := select main_call39_v0 main_call39_v1 main_call39_v2
  have main_v302 : FVec Ideal S2097151x16 .f32 := mulf main_v291 main_v301
  have main_v303 : FVec Ideal S2097151x16 .f32 := Host.sqrt main_v302
  main_v303

set_option maxHeartbeats 4000000 in
/-- The result from the two amplitude arrays and the matrix: the amplitudes stacked, multiplied by the transposed matrix, squared, the first ten columns kept. -/
def result (main_v255 : FVec Ideal S16 .f32) (main_v303 : FVec Ideal S2097151x16 .f32) (main_v208 : FVec Ideal S16x16 .f32) : FVec Ideal S2097152x10 .f32 :=
  have main_v304 : FVec Ideal S1x16 .f32 := broadcastInDim S1x16 ![1] bcast_S16_S1x16_1 main_v255
  have main_v305 : FVec Ideal S2097152x16 .f32 := concatenate S2097152x16 0 [⟨S1x16, main_v304⟩, ⟨S2097151x16, main_v303⟩] concatenates_S1x16_S2097151x16_S2097152x16_d0
  have main_v306 : FVec Ideal S16x16 .f32 := transpose S16x16 [1, 0] main_v208 transposes_S16x16_S16x16_1_0
  have main_v307 : FVec Ideal S2097152x16 .f32 := Host.dotGeneral dot_S2097152x16_S16x16_S2097152x16_1_0_0_1_n_n none main_v305 main_v306
  have main_v308 : FVec Ideal S2097152x16 .f32 := mulf main_v307 main_v307
  have main_v309 : FVec Ideal S2097152x10 .f32 := extractStridedSlice S2097152x10 ![0, 0] main_v308 slices_S2097152x16_S2097152x10_0_0
  main_v309

/-- The result array as the reference composes it from the samples, the matrix and the two bit tables. -/
def tail (x : FVec Ideal S2097152x4 .f32) (U : FVec Ideal S16x16 .f32) (L H : FVec Ideal S16x4 .f32) : FVec Ideal S2097152x10 .f32 :=
  result (low x L) (high x H) U

end Cert.ReferenceIdeal.RefTail

end
-- ==== Proof.RefValue.lean ====
/-
  What the reference program leaves in its result buffer, as one term of its inputs and of the 16 × 16 matrix.

  The operations are grouped in two lists: those that compute the matrix (`opsU`) and those after it (`opsT`).
  The fold of the whole list is the fold of the second list over the fold of the first. Of the first fold only four
  buffers are read by the second list: the samples, which no operation writes; the two bit tables, written once by
  two of the first five operations and by none after; and the matrix, which is named `Uval` and never opened.
  Over ANY contents of those four buffers the second fold at the result buffer is the composed term `RefTail.tail`:
  each operation's result at its own buffer is its function of its operands' contents, and at any other buffer what
  was there.
-/
import proofs.«133008_j10806137716891_2_alg».proof.Proof.RefRun
import proofs.«133008_j10806137716891_2_alg».proof.Proof.RefTail
import Idealize.ShloMosaic.Lib.Pipeline.Frame
import Idealize.ShloMosaic.PureOps.Ideal

noncomputable section

namespace Cert.ReferenceIdeal.RefValue

open Cert.ReferenceIdeal Cert.ReferenceIdeal.Gen Cert.ReferenceIdeal.RefOps Cert.ReferenceIdeal.RefRun Idealize.ShloMosaic Idealize.ShloMosaic.TcCoe Idealize.SL.Sem

/-- The matrix as the reference's operations compute it: the fold of the operations up to it, read at its buffer. -/
def Uval (V : Valuation τ sig (Elt Ideal)) : FVec Ideal S16x16 .f32 :=
  StableHlo.after (opsU (F := Ideal)) V (main_v208 : DevRef τ sig)

/-- Over any contents, the operations after the matrix leave in the result buffer the composed term of the
    samples, the matrix and the two bit tables. -/
theorem tail_eq (W : Valuation τ sig (Elt Ideal)) :
    StableHlo.after (opsT (F := Ideal)) W (main_v309 : DevRef τ sig)
      = RefTail.tail (W (main_arg0 : DevRef τ sig)) (W (main_v208 : DevRef τ sig))
          (W (main_cst_2 : DevRef τ sig)) (W (main_cst_3 : DevRef τ sig)) := by
  show StableHlo.after ((ops4b ++ ops5) ++ ops6) W _ = _
  rw [StableHlo.after_append, StableHlo.after_append]
  after_results_simp
  rfl

/-! ## What the operations before the matrix leave in the four buffers the later ones read -/

/-- No operation up to the matrix writes the samples' buffer. -/
theorem U_arg0 (V : Valuation τ sig (Elt Ideal)) :
    StableHlo.after (opsU (F := Ideal)) V (main_arg0 : DevRef τ sig) = V (main_arg0 : DevRef τ sig) := by
  show StableHlo.after ((((ops0 ++ ops1) ++ ops2) ++ ops3) ++ ops4a) V _ = _
  rw [StableHlo.after_append, StableHlo.after_append, StableHlo.after_append, StableHlo.after_append]
  after_results_simp

/-- No operation up to the matrix writes the angles' buffer. -/
theorem U_arg1 (V : Valuation τ sig (Elt Ideal)) :
    StableHlo.after (opsU (F := Ideal)) V (main_arg1 : DevRef τ sig) = V (main_arg1 : DevRef τ sig) := by
  show StableHlo.after ((((ops0 ++ ops1) ++ ops2) ++ ops3) ++ ops4a) V _ = _
  rw [StableHlo.after_append, StableHlo.after_append, StableHlo.after_append, StableHlo.after_append]
  after_results_simp

/-- The table of bits counted from the low end is written once, by a constant, and by no operation after. -/
theorem U_cst2 (V : Valuation τ sig (Elt Ideal)) :
    StableHlo.after (opsU (F := Ideal)) V (main_cst_2 : DevRef τ sig)
      = fun i => Ideal.ofBits .f32 (lit3 (S16x4.rowMajor i)) := by
  show StableHlo.after ((((ops0 ++ ops1) ++ ops2) ++ ops3) ++ ops4a) V _ = _
  rw [StableHlo.after_append, StableHlo.after_append, StableHlo.after_append, StableHlo.after_append]
  after_results_simp
  rfl

/-- The table of bits counted from the high end likewise. -/
theorem U_cst3 (V : Valuation τ sig (Elt Ideal)) :
    StableHlo.after (opsU (F := Ideal)) V (main_cst_3 : DevRef τ sig)
      = fun i => Ideal.ofBits .f32 (lit4 (S16x4.rowMajor i)) := by
  show StableHlo.after ((((ops0 ++ ops1) ++ ops2) ++ ops3) ++ ops4a) V _ = _
  rw [StableHlo.after_append, StableHlo.after_append, StableHlo.after_append, StableHlo.after_append]
  after_results_simp
  rfl

/-- No operation after the matrix writes the samples' buffer. -/
theorem T_arg0 (W : Valuation τ sig (Elt Ideal)) :
    StableHlo.after (opsT (F := Ideal)) W (main_arg0 : DevRef τ sig) = W (main_arg0 : DevRef τ sig) := by
  show StableHlo.after ((ops4b ++ ops5) ++ ops6) W _ = _
  rw [StableHlo.after_append, StableHlo.after_append]
  after_results_simp

/-- No operation after the matrix writes the angles' buffer. -/
theorem T_arg1 (W : Valuation τ sig (Elt Ideal)) :
    StableHlo.after (opsT (F := Ideal)) W (main_arg1 : DevRef τ sig) = W (main_arg1 : DevRef τ sig) := by
  show StableHlo.after ((ops4b ++ ops5) ++ ops6) W _ = _
  rw [StableHlo.after_append, StableHlo.after_append]
  after_results_simp

/-! ## The result and the arguments after the whole line -/

/-- The reference's result: the composed term of the samples, the matrix as the operations compute it, and the
    two bit tables. -/
theorem result_eq (V : Valuation τ sig (Elt Ideal)) :
    StableHlo.after (opsU ++ opsT) V (main_v309 : DevRef τ sig)
      = RefTail.tail (V (main_arg0 : DevRef τ sig)) (Uval V)
          (fun i => Ideal.ofBits .f32 (lit3 (S16x4.rowMajor i))) (fun i => Ideal.ofBits .f32 (lit4 (S16x4.rowMajor i))) := by
  rw [StableHlo.after_append, tail_eq, U_arg0, U_cst2, U_cst3]
  rfl

/-- The samples' buffer is unchanged by the whole line. -/
theorem arg0_eq (V : Valuation τ sig (Elt Ideal)) :
    StableHlo.after (opsU ++ opsT) V (main_arg0 : DevRef τ sig) = V (main_arg0 : DevRef τ sig) := by
  rw [StableHlo.after_append, T_arg0, U_arg0]

/-- The angles' buffer is unchanged by the whole line. -/
theorem arg1_eq (V : Valuation τ sig (Elt Ideal)) :
    StableHlo.after (opsU ++ opsT) V (main_arg1 : DevRef τ sig) = V (main_arg1 : DevRef τ sig) := by
  rw [StableHlo.after_append, T_arg1, U_arg1]

end Cert.ReferenceIdeal.RefValue

end
-- ==== Proof.RefTailLayout.lean ====
/-
  The reference's array operations after the matrix, read at one index.

  Every operation between the samples and the result either moves entries (a slice, a reshape, a broadcast, a
  transpose, a concatenation along the rows) or acts entry by entry (a product, a difference, a comparison with
  one, a choice, a square root); the one exception is the matrix product, which at an entry is a sum of sixteen
  products.  Each lemma below says which entry of its operand one such operation reads, at the literal shapes the
  reference uses.  Where an operand matters only through its entries on the row under consideration, the lemma
  takes those entries as a hypothesis, so that a long chain of operations is read once.
-/
import proofs.«133008_j10806137716891_2_alg».proof.Proof.Gen.ReferenceIdeal
import proofs.«133008_j10806137716891_2_alg».proof.Proof.Spec
import proofs.«133008_j10806137716891_2_alg».proof.Proof.LibHostDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefTailLayout

open Cert.ReferenceIdeal Cert.ReferenceIdeal.Gen Idealize.ShloMosaic Idealize.ShloMosaic.ValueIdx Cert.Amplitude

/-! ## Slices -/

/-- The first row of the samples, kept as a one-row matrix: entry (0, j) is the samples' entry (b, j) for the row b
    whose number is zero. -/
theorem firstRow_apply (x : FVec Ideal S2097152x4 .f32) (b : Fin 2097152) (hb : b.val = 0) (u : Fin 1) (j : Fin 4) :
    extractStridedSlice S1x4 ![0, 0] x slices_S2097152x4_S1x4_0_0 (ix2 u j) = x (ix2 b j) :=
  slice2_axis0_apply 0 x _ u j b (by have := u.isLt; omega)

/-- The samples without their first row: entry (b', j) is the samples' entry (b, j) one row further down. -/
theorem laterRows_apply (x : FVec Ideal S2097152x4 .f32) (b : Fin 2097152) (b' : Fin 2097151) (hb : b.val = 1 + b'.val)
    (j : Fin 4) :
    extractStridedSlice S2097151x4 ![1, 0] x slices_S2097152x4_S2097151x4_1_0 (ix2 b' j) = x (ix2 b j) :=
  slice2_axis0_apply 1 x _ b' j b hb

/-- One column of a bit table, kept as a one-column matrix. -/
theorem tableColumn_apply (T : FVec Ideal S16x4 .f32) (o : ℕ) (h : S16x4.Slices ![0, o] S16x1) (j : Fin 4) (hj : j.val = o)
    (k : Fin 16) (u : Fin 1) :
    extractStridedSlice S16x1 ![0, o] T h (ix2 k u) = T (ix2 k j) :=
  slice2_axis1_apply o T h k u j (by have := u.isLt; omega)

/-- One column of the later rows, kept as a one-column matrix. -/
theorem laterColumn_apply (X : FVec Ideal S2097151x4 .f32) (o : ℕ) (h : S2097151x4.Slices ![0, o] S2097151x1) (j : Fin 4)
    (hj : j.val = o) (b' : Fin 2097151) (u : Fin 1) :
    extractStridedSlice S2097151x1 ![0, o] X h (ix2 b' u) = X (ix2 b' j) :=
  slice2_axis1_apply o X h b' u j (by have := u.isLt; omega)

/-- One entry of a vector of four, kept as a vector of one. -/
theorem entry_apply (v : FVec Ideal S4 .f32) (o : ℕ) (h : S4.Slices ![o] S1) (j : Fin 4) (hj : j.val = o) (u : Fin 1) :
    extractStridedSlice S1 ![o] v h (ix1 u) = v (ix1 j) :=
  extractStridedSlice_apply _ v h (ix1 u) (ix1 j) fun a => by
    match a with
    | ⟨0, _⟩ => show j.val = o + u.val; have := u.isLt; omega

/-- The first ten columns of a sixteen-column array: column c is the column of the same number. -/
theorem firstTenColumns_apply (X : FVec Ideal S2097152x16 .f32) (b : Fin 2097152) (c : Fin 10) :
    extractStridedSlice S2097152x10 ![0, 0] X slices_S2097152x16_S2097152x10_0_0 (ix2 b c) = X (ix2 b (row c)) :=
  slice2_axis1_apply 0 X _ b c (row c) (Nat.zero_add _).symm

/-! ## Reshapes -/

/-- A one-row matrix of four read as a vector of four. -/
theorem rowAsVector_apply (v : FVec Ideal S1x4 .f32) (j : Fin 4) :
    shapeCast S4 v shapeCasts_S1x4_S4 (ix1 j) = v (ix2 (0 : Fin 1) j) :=
  shapeCast_1a_a_apply v _ j

/-- A one-column matrix of sixteen read as a vector of sixteen. -/
theorem columnAsVector_apply {α : Type} (v : S16x1.Idx → α) (k : Fin 16) :
    shapeCast S16 v shapeCasts_S16x1_S16 (ix1 k) = v (ix2 k (0 : Fin 1)) :=
  shapeCast_apply v _ _ _ (by
    rw [Shape.rowMajor_val_two, Shape.rowMajor_val_one]
    show k.val * 1 + 0 = k.val
    omega)

/-- A vector of one read as a number. -/
theorem oneAsScalar_apply {α : Type} (v : S1.Idx → α) (i : S_.Idx) :
    shapeCast S_ v shapeCasts_S1_S_ i = v (ix1 (0 : Fin 1)) :=
  shapeCast_apply v _ _ _ (by
    rw [Shape.rowMajor_val_one]
    have h := (S_.rowMajor i).isLt
    have hn : S_.numel = 1 := rfl
    show 0 = (S_.rowMajor i).val
    omega)

/-! ## Broadcasts -/

/-- A number broadcast to any shape is that number everywhere. -/
theorem scalarBroadcast_apply {α : Type} {t : Shape} (h : S_.BroadcastsInDim t (![] : Fin 0 → Fin t.rank)) (v : S_.Idx → α)
    (i : t.Idx) : broadcastInDim t ![] h v i = v ix0 :=
  broadcastInDim_apply _ h v i ix0 fun a => a.elim0

/-- A vector of sixteen laid along the columns of a one-row matrix. -/
theorem vectorAsRow_apply {α : Type} (v : S16.Idx → α) (u : Fin 1) (k : Fin 16) :
    broadcastInDim S1x16 ![1] bcast_S16_S1x16_1 v (ix2 u k) = v (ix1 k) :=
  broadcastInDim_apply _ _ v (ix2 u k) (ix1 k) fun a => by
    match a with
    | ⟨0, _⟩ => show k.val = if (16 : ℕ) = 1 then 0 else k.val; rw [if_neg (by decide)]

/-- A one-row matrix repeated down all the later rows. -/
theorem rowRepeated_apply {α : Type} (v : S1x16.Idx → α) (b' : Fin 2097151) (k : Fin 16) :
    broadcastInDim S2097151x16 ![0, 1] bcast_S1x16_S2097151x16_0_1 v (ix2 b' k) = v (ix2 (0 : Fin 1) k) :=
  broadcastInDim_apply _ _ v (ix2 b' k) (ix2 (0 : Fin 1) k) fun a => by
    match a with
    | ⟨0, _⟩ => show (0 : ℕ) = if (1 : ℕ) = 1 then 0 else b'.val; rw [if_pos rfl]
    | ⟨1, _⟩ => show k.val = if (16 : ℕ) = 1 then 0 else k.val; rw [if_neg (by decide)]

/-- A one-column matrix repeated across all sixteen columns. -/
theorem columnRepeated_apply {α : Type} (v : S2097151x1.Idx → α) (b' : Fin 2097151) (k : Fin 16) :
    broadcastInDim S2097151x16 ![0, 1] bcast_S2097151x1_S2097151x16_0_1 v (ix2 b' k) = v (ix2 b' (0 : Fin 1)) :=
  broadcastInDim_apply _ _ v (ix2 b' k) (ix2 b' (0 : Fin 1)) fun a => by
    match a with
    | ⟨0, _⟩ => show b'.val = if (2097151 : ℕ) = 1 then 0 else b'.val; rw [if_neg (by decide)]
    | ⟨1, _⟩ => show (0 : ℕ) = if (1 : ℕ) = 1 then 0 else k.val; rw [if_pos rfl]

/-! ## The transpose, the concatenation and the matrix product -/

/-- The matrix transposed. -/
theorem matrixTransposed_apply (U : FVec Ideal S16x16 .f32) (k k' : Fin 16) :
    transpose S16x16 [1, 0] U transposes_S16x16_S16x16_1_0 (ix2 k k') = U (ix2 k' k) :=
  transpose_ix2_apply U _ k k'

/-- The first row's amplitudes on top of the later rows': the row whose number is zero reads the one-row array. -/
theorem stacked_first_apply {α : Type} (a : S1x16.Idx → α) (s : S2097151x16.Idx → α) (b : Fin 2097152) (hb : b.val = 0)
    (k : Fin 16) :
    concatenate S2097152x16 0 [⟨S1x16, a⟩, ⟨S2097151x16, s⟩] concatenates_S1x16_S2097151x16_S2097152x16_d0 (ix2 b k)
      = a (ix2 (0 : Fin 1) k) :=
  concatenate_pair_apply_left 0 a s _ (ix2 b k) rfl (ix2 (0 : Fin 1) k) fun ax => by
    match ax with
    | ⟨0, _⟩ => show (0 : ℕ) = b.val; omega
    | ⟨1, _⟩ => rfl

/-- Every other row reads the later rows' array one row up. -/
theorem stacked_later_apply {α : Type} (a : S1x16.Idx → α) (s : S2097151x16.Idx → α) (b : Fin 2097152) (b' : Fin 2097151)
    (hb : b.val = 1 + b'.val) (k : Fin 16) :
    concatenate S2097152x16 0 [⟨S1x16, a⟩, ⟨S2097151x16, s⟩] concatenates_S1x16_S2097151x16_S2097152x16_d0 (ix2 b k)
      = s (ix2 b' k) :=
  concatenate_pair_apply_right 0 a s _ (ix2 b k) rfl rfl (ix2 b' k)
    (fun ax hne => by
      match ax with
      | ⟨0, _⟩ => exact absurd rfl hne
      | ⟨1, _⟩ => rfl)
    (by show b'.val + 1 = b.val; omega)

/-- The reference's contraction is the plain product of a 2097152 × 16 by a 16 × 16 matrix. -/
theorem dot_eq_plain : dot_S2097152x16_S16x16_S2097152x16_1_0_0_1_n_n = DotDims.plain 2097152 16 16 := rfl

/-- The product of the amplitudes with a 16 × 16 matrix, at an entry. -/
theorem product_apply (A : FVec Ideal S2097152x16 .f32) (B : FVec Ideal S16x16 .f32) (b : Fin 2097152) (k' : Fin 16) :
    Host.dotGeneral dot_S2097152x16_S16x16_S2097152x16_1_0_0_1_n_n none A B (ix2 b k')
      = ∑ k : Fin 16, A (ix2 b k) * B (ix2 k k') := by
  rw [dot_eq_plain]
  exact Cert.HostDot.dotGeneral_plain_apply none A B b k'

/-- THE RESULT FROM THE AMPLITUDES.  If row b of the amplitude array is a, the result at (b, c) is the square of the
    inner product of a with row c of the matrix. -/
theorem result_apply (A : FVec Ideal S2097152x16 .f32) (U : FVec Ideal S16x16 .f32) (b : Fin 2097152) (c : Fin 10)
    (a : Fin 16 → EReal) (hA : ∀ k : Fin 16, A (ix2 b k) = a k) :
    extractStridedSlice S2097152x10 ![0, 0]
        (mulf
          (Host.dotGeneral dot_S2097152x16_S16x16_S2097152x16_1_0_0_1_n_n none A
            (transpose S16x16 [1, 0] U transposes_S16x16_S16x16_1_0))
          (Host.dotGeneral dot_S2097152x16_S16x16_S2097152x16_1_0_0_1_n_n none A
            (transpose S16x16 [1, 0] U transposes_S16x16_S16x16_1_0)))
        slices_S2097152x16_S2097152x10_0_0 (ix2 b c)
      = (∑ k : Fin 16, a k * U (ix2 (row c) k)) * (∑ k : Fin 16, a k * U (ix2 (row c) k)) := by
  have hD : Host.dotGeneral dot_S2097152x16_S16x16_S2097152x16_1_0_0_1_n_n none A
      (transpose S16x16 [1, 0] U transposes_S16x16_S16x16_1_0) (ix2 b (row c)) = ∑ k : Fin 16, a k * U (ix2 (row c) k) := by
    refine (product_apply A _ b (row c)).trans (Finset.sum_congr rfl fun k _ => ?_)
    rw [hA k, matrixTransposed_apply]
  refine (firstTenColumns_apply _ b c).trans ?_
  refine (mulf_apply _ _ _).trans ?_
  rw [hD]

end Cert.ReferenceIdeal.RefTailLayout

end
-- ==== Proof.RefTailValue.lean ====
/-
  The reference's value at an index is the amplitude function of the specification.

  After the matrix, the reference builds an array of amplitudes, one row of sixteen per sample, multiplies it by the
  transposed matrix, squares the product entry by entry and keeps the first ten columns.  The amplitudes of the
  first sample are a product of four choices, each between an entry of the sample and its complement to one, taken
  according to a table of low-end bits; those of every later sample are the square root of the same kind of product,
  over the squares of the entries and a table of high-end bits.  A choice is made by comparing a table entry with
  one: the tables hold only the words of one and zero, so the comparison decides exactly the bit.

  The proof reads each of the three composed terms (the first sample's amplitudes, the later samples', the result
  from the two) from the outside in.  Each step cites one lemma about one array operation read at an index (the
  neighbouring module), and the long products are read once, through hypotheses on their factors.
-/
import proofs.«133008_j10806137716891_2_alg».proof.Proof.RefTail
import proofs.«133008_j10806137716891_2_alg».proof.Proof.Spec
import proofs.«133008_j10806137716891_2_alg».proof.Proof.RefTailLayout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefTailValue

open Cert.ReferenceIdeal Cert.ReferenceIdeal.Gen Idealize.ShloMosaic Idealize.ShloMosaic.ValueIdx Cert.Amplitude
  Cert.ReferenceIdeal.RefTailLayout

/-! ## The two bit tables -/

/-- The flat position of entry (k, j) of a 16 × 4 table is 4 k + j. -/
theorem flat_val (k : Fin 16) (j : Fin 4) : (S16x4.rowMajor (ix2 k j)).val = 4 * k.val + j.val := by
  rw [Shape.rowMajor_val_two]
  show k.val * 4 + j.val = 4 * k.val + j.val
  omega

/-- The first table holds the word of one exactly where bit j of k, counted from the low end, is set. -/
theorem lowWords : ∀ (k : Fin 16) (j : Fin 4),
    lit3 ⟨4 * k.val + j.val, by omega⟩ = if lbit k j then 0x3F800000#32 else 0x00000000#32 := by
  decide

/-- The second table holds the word of one exactly where bit j of k, counted from the high end, is set. -/
theorem highWords : ∀ (k : Fin 16) (j : Fin 4),
    lit4 ⟨4 * k.val + j.val, by omega⟩ = if hbit k j then 0x3F800000#32 else 0x00000000#32 := by
  decide

/-- The number a table word denotes: one where the bit is set, zero where it is clear. -/
theorem word_of_bit (bit : Bool) :
    Ideal.ofBits .f32 (if bit then 0x3F800000#32 else 0x00000000#32) = if bit then (1 : EReal) else 0 := by
  cases bit
  · exact word_zero
  · exact word_one

/-- The first table as an array of numbers. -/
theorem lowTable_apply (k : Fin 16) (j : Fin 4) :
    (fun i => Ideal.ofBits .f32 (lit3 (S16x4.rowMajor i)) : FVec Ideal S16x4 .f32) (ix2 k j)
      = if lbit k j then (1 : EReal) else 0 := by
  have h : S16x4.rowMajor (ix2 k j) = (⟨4 * k.val + j.val, by omega⟩ : Fin 64) := Fin.ext (flat_val k j)
  show Ideal.ofBits .f32 (lit3 (S16x4.rowMajor (ix2 k j))) = _
  rw [h, lowWords k j]
  exact word_of_bit _

/-- The second table as an array of numbers. -/
theorem highTable_apply (k : Fin 16) (j : Fin 4) :
    (fun i => Ideal.ofBits .f32 (lit4 (S16x4.rowMajor i)) : FVec Ideal S16x4 .f32) (ix2 k j)
      = if hbit k j then (1 : EReal) else 0 := by
  have h : S16x4.rowMajor (ix2 k j) = (⟨4 * k.val + j.val, by omega⟩ : Fin 64) := Fin.ext (flat_val k j)
  show Ideal.ofBits .f32 (lit4 (S16x4.rowMajor (ix2 k j))) = _
  rw [h, highWords k j]
  exact word_of_bit _

/-! ## One choice -/

/-- Comparing a table entry with one and choosing between a value and its complement accordingly is the factor of
    the specification: zero differs from one on the extended reals. -/
theorem choice_eq_factor (bit : Bool) (t v : EReal) (ht : t = if bit then 1 else 0) :
    Scalar.select (FloatOps.cmpf (F := Ideal) (φ := .f32) .oeq t (Ideal.ofBits .f32 0x3F800000#32)) v
        (Ideal.ofBits .f32 0x3F800000#32 - v)
      = factor bit v := by
  subst ht
  rw [Ideal.cmpf_def, word_one]
  cases bit
  · simp [Ideal.cmp, Scalar.select, factor]
  · simp [Ideal.cmp, Scalar.select, factor]

/-- A choice of the first sample, at label k: the table column and the sample entry at position j. -/
theorem lowChoice_apply (L : FVec Ideal S16x4 .f32) (x : FVec Ideal S2097152x4 .f32) (o : ℕ)
    (hs : S16x4.Slices ![0, o] S16x1) (hs' : S4.Slices ![o] S1) (j : Fin 4) (hj : j.val = o) (k : Fin 16)
    (b : Fin 2097152) (hb : b.val = 0) (bit : Bool) (hL : L (ix2 k j) = if bit then 1 else 0) :
    select
        (cmpf .oeq (shapeCast S16 (extractStridedSlice S16x1 ![0, o] L hs) shapeCasts_S16x1_S16)
          (broadcastInDim S16 ![] bcast_S_S16 (constant S_ .f32 0x3F800000#32)))
        (broadcastInDim S16 ![] bcast_S_S16
          (shapeCast S_
            (extractStridedSlice S1 ![o]
              (shapeCast S4 (extractStridedSlice S1x4 ![0, 0] x slices_S2097152x4_S1x4_0_0) shapeCasts_S1x4_S4) hs')
            shapeCasts_S1_S_))
        (broadcastInDim S16 ![] bcast_S_S16
          (subf (constant S_ .f32 0x3F800000#32)
            (shapeCast S_
              (extractStridedSlice S1 ![o]
                (shapeCast S4 (extractStridedSlice S1x4 ![0, 0] x slices_S2097152x4_S1x4_0_0) shapeCasts_S1x4_S4) hs')
              shapeCasts_S1_S_)))
        (ix1 k)
      = factor bit (x (ix2 b j)) := by
  have hx : shapeCast S_
      (extractStridedSlice S1 ![o]
        (shapeCast S4 (extractStridedSlice S1x4 ![0, 0] x slices_S2097152x4_S1x4_0_0) shapeCasts_S1x4_S4) hs')
      shapeCasts_S1_S_ ix0 = x (ix2 b j) := by
    rw [oneAsScalar_apply, entry_apply _ o hs' j hj, rowAsVector_apply, firstRow_apply x b hb]
  rw [select_apply, cmpf_apply, columnAsVector_apply, tableColumn_apply L o hs j hj, scalarBroadcast_apply,
    scalarBroadcast_apply, scalarBroadcast_apply, constant_apply, subf_apply, constant_apply, hx]
  exact choice_eq_factor bit _ _ hL

/-- A choice of a later sample, at label k: the table column and the square of the sample entry at position j. -/
theorem highChoice_apply (H : FVec Ideal S16x4 .f32) (x : FVec Ideal S2097152x4 .f32) (o : ℕ)
    (hs : S16x4.Slices ![0, o] S16x1) (hs' : S2097151x4.Slices ![0, o] S2097151x1) (j : Fin 4) (hj : j.val = o)
    (k : Fin 16) (b : Fin 2097152) (b' : Fin 2097151) (hb : b.val = 1 + b'.val) (bit : Bool)
    (hH : H (ix2 k j) = if bit then 1 else 0) :
    select
        (broadcastInDim S2097151x16 ![0, 1] bcast_S1x16_S2097151x16_0_1
          (cmpf .oeq
            (broadcastInDim S1x16 ![1] bcast_S16_S1x16_1
              (shapeCast S16 (extractStridedSlice S16x1 ![0, o] H hs) shapeCasts_S16x1_S16))
            (broadcastInDim S1x16 ![] bcast_S_S1x16 (constant S_ .f32 0x3F800000#32))))
        (broadcastInDim S2097151x16 ![0, 1] bcast_S2097151x1_S2097151x16_0_1
          (extractStridedSlice S2097151x1 ![0, o]
            (mulf (extractStridedSlice S2097151x4 ![1, 0] x slices_S2097152x4_S2097151x4_1_0)
              (extractStridedSlice S2097151x4 ![1, 0] x slices_S2097152x4_S2097151x4_1_0)) hs'))
        (broadcastInDim S2097151x16 ![0, 1] bcast_S2097151x1_S2097151x16_0_1
          (subf (broadcastInDim S2097151x1 ![] bcast_S_S2097151x1 (constant S_ .f32 0x3F800000#32))
            (extractStridedSlice S2097151x1 ![0, o]
              (mulf (extractStridedSlice S2097151x4 ![1, 0] x slices_S2097152x4_S2097151x4_1_0)
                (extractStridedSlice S2097151x4 ![1, 0] x slices_S2097152x4_S2097151x4_1_0)) hs')))
        (ix2 b' k)
      = factor bit (x (ix2 b j) * x (ix2 b j)) := by
  have hx : extractStridedSlice S2097151x1 ![0, o]
      (mulf (extractStridedSlice S2097151x4 ![1, 0] x slices_S2097152x4_S2097151x4_1_0)
        (extractStridedSlice S2097151x4 ![1, 0] x slices_S2097152x4_S2097151x4_1_0)) hs' (ix2 b' (0 : Fin 1))
      = x (ix2 b j) * x (ix2 b j) := by
    rw [laterColumn_apply _ o hs' j hj, mulf_apply, laterRows_apply x b b' hb]
  rw [select_apply, rowRepeated_apply, columnRepeated_apply, columnRepeated_apply, cmpf_apply, vectorAsRow_apply,
    columnAsVector_apply, tableColumn_apply H o hs j hj, scalarBroadcast_apply, constant_apply, subf_apply,
    scalarBroadcast_apply, constant_apply, hx]
  exact choice_eq_factor bit _ _ hH

/-! ## The products of four choices -/

/-- The first sample's amplitudes: a product that starts from one and takes four factors. -/
theorem lowProduct_apply (one s0 s1 s2 s3 : FVec Ideal S16 .f32) (k : Fin 16) (f : Fin 4 → EReal)
    (h1 : one (ix1 k) = 1) (h_0 : s0 (ix1 k) = f 0) (h_1 : s1 (ix1 k) = f 1) (h_2 : s2 (ix1 k) = f 2)
    (h_3 : s3 (ix1 k) = f 3) :
    mulf (mulf (mulf (mulf one s0) s1) s2) s3 (ix1 k) = prod4 f := by
  rw [mulf_apply, mulf_apply, mulf_apply, mulf_apply, h1, h_0, h_1, h_2, h_3]
  exact one_mul_prod4 f

/-- A later sample's amplitudes: the square root of such a product. -/
theorem highProduct_apply (one s0 s1 s2 s3 : FVec Ideal S2097151x16 .f32) (i : S2097151x16.Idx) (f : Fin 4 → EReal)
    (h1 : one i = 1) (h_0 : s0 i = f 0) (h_1 : s1 i = f 1) (h_2 : s2 i = f 2) (h_3 : s3 i = f 3) :
    Host.sqrt (mulf (mulf (mulf (mulf one s0) s1) s2) s3) i = Ideal.sqrt (prod4 f) := by
  show FloatOps.hostUnary .sqrt (mulf (mulf (mulf (mulf one s0) s1) s2) s3 i) = _
  rw [Ideal.hostUnary_sqrt_def, mulf_apply, mulf_apply, mulf_apply, mulf_apply, h1, h_0, h_1, h_2, h_3, one_mul_prod4 f]

/-- A broadcast of the constant one is one everywhere. -/
theorem ones_apply {t : Shape} (h : S_.BroadcastsInDim t (![] : Fin 0 → Fin t.rank)) (i : t.Idx) :
    broadcastInDim t ![] h (constant (F := Ideal) S_ .f32 0x3F800000#32) i = 1 := by
  rw [scalarBroadcast_apply, constant_apply, word_one]

/-! ## The reference read at an index -/

/-- The first sample's amplitudes are the specification's, for a table that holds one where the low-end bit is set
    and zero elsewhere. -/
theorem low_apply (x : FVec Ideal S2097152x4 .f32) (L : FVec Ideal S16x4 .f32)
    (hL : ∀ (k : Fin 16) (j : Fin 4), L (ix2 k j) = if lbit k j then (1 : EReal) else 0)
    (b : Fin 2097152) (hb : b.val = 0) (k : Fin 16) :
    RefTail.low x L (ix1 k) = prod4 fun j => factor (lbit k j) (x (ix2 b j)) := by
  unfold RefTail.low
  dsimp only
  refine lowProduct_apply _ _ _ _ _ k _ (ones_apply _ _) ?_ ?_ ?_ ?_
  · exact lowChoice_apply L x 0 _ _ 0 rfl k b hb _ (hL k 0)
  · exact lowChoice_apply L x 1 _ _ 1 rfl k b hb _ (hL k 1)
  · exact lowChoice_apply L x 2 _ _ 2 rfl k b hb _ (hL k 2)
  · exact lowChoice_apply L x 3 _ _ 3 rfl k b hb _ (hL k 3)

/-- A later sample's amplitudes are the specification's, for a table that holds one where the high-end bit is set
    and zero elsewhere. -/
theorem high_apply (x : FVec Ideal S2097152x4 .f32) (H : FVec Ideal S16x4 .f32)
    (hH : ∀ (k : Fin 16) (j : Fin 4), H (ix2 k j) = if hbit k j then (1 : EReal) else 0)
    (b : Fin 2097152) (b' : Fin 2097151) (hb : b.val = 1 + b'.val) (k : Fin 16) :
    RefTail.high x H (ix2 b' k)
      = Ideal.sqrt (prod4 fun j => factor (hbit k j) (x (ix2 b j) * x (ix2 b j))) := by
  unfold RefTail.high
  dsimp only
  refine highProduct_apply _ _ _ _ _ _ _ (ones_apply _ _) ?_ ?_ ?_ ?_
  · exact highChoice_apply H x 0 _ _ 0 rfl k b b' hb _ (hH k 0)
  · exact highChoice_apply H x 1 _ _ 1 rfl k b b' hb _ (hH k 1)
  · exact highChoice_apply H x 2 _ _ 2 rfl k b b' hb _ (hH k 2)
  · exact highChoice_apply H x 3 _ _ 3 rfl k b b' hb _ (hH k 3)

/-- The result at (b, c) from the two amplitude arrays: if row b of their stack is a — the first array where b is
    the first sample, the second array one row up otherwise — the result is the square of the inner product of a with
    row c of the matrix. -/
theorem result_read (lo : FVec Ideal S16 .f32) (hi : FVec Ideal S2097151x16 .f32) (U : FVec Ideal S16x16 .f32)
    (b : Fin 2097152) (c : Fin 10) (a : Fin 16 → EReal)
    (h0 : b.val = 0 → ∀ k : Fin 16, lo (ix1 k) = a k)
    (h1 : ∀ b' : Fin 2097151, b.val = 1 + b'.val → ∀ k : Fin 16, hi (ix2 b' k) = a k) :
    RefTail.result lo hi U (ix2 b c)
      = (∑ k : Fin 16, a k * U (ix2 (row c) k)) * (∑ k : Fin 16, a k * U (ix2 (row c) k)) := by
  unfold RefTail.result
  dsimp only
  refine result_apply _ U b c a fun k => ?_
  by_cases hb : b.val = 0
  · refine (stacked_first_apply _ _ b hb k).trans ?_
    rw [vectorAsRow_apply]
    exact h0 hb k
  · have hb' : b.val = 1 + (⟨b.val - 1, by have := b.isLt; omega⟩ : Fin 2097151).val := by
      show b.val = 1 + (b.val - 1); omega
    refine (stacked_later_apply _ _ b ⟨b.val - 1, by have := b.isLt; omega⟩ hb' k).trans ?_
    exact h1 _ hb' k

/-- The reference's result at (b, c), for any two tables that hold one where the bit is set and zero elsewhere. -/
theorem tail_apply (x : FVec Ideal S2097152x4 .f32) (U : FVec Ideal S16x16 .f32) (L H : FVec Ideal S16x4 .f32)
    (hL : ∀ (k : Fin 16) (j : Fin 4), L (ix2 k j) = if lbit k j then (1 : EReal) else 0)
    (hH : ∀ (k : Fin 16) (j : Fin 4), H (ix2 k j) = if hbit k j then (1 : EReal) else 0)
    (b : Fin 2097152) (c : Fin 10) :
    RefTail.tail x U L H (ix2 b c) = Gat x U b c := by
  unfold RefTail.tail
  refine (result_read (RefTail.low x L) (RefTail.high x H) U b c (amp x b) ?_ ?_).trans rfl
  · intro hb k
    rw [low_apply x L hL b hb k]
    unfold amp
    rw [if_pos hb]
  · intro b' hb' k
    rw [high_apply x H hH b b' hb' k]
    unfold amp
    rw [if_neg (by omega)]

/-- THE REFERENCE IS THE AMPLITUDE FUNCTION: with the two printed tables, the composed operations after the matrix
    compute the specification's result array, for every array of samples and every matrix. -/
theorem tail_eq (x : FVec Ideal S2097152x4 .f32) (U : FVec Ideal S16x16 .f32) :
    RefTail.tail x U (fun i => Ideal.ofBits .f32 (lit3 (S16x4.rowMajor i)))
        (fun i => Ideal.ofBits .f32 (lit4 (S16x4.rowMajor i))) = Cert.Amplitude.G x U := by
  funext i
  obtain ⟨b, c, rfl⟩ : ∃ (b : Fin 2097152) (c : Fin 10), i = ix2 b c := ⟨i 0, i 1, eq_ix2 i⟩
  rw [G_apply]
  exact tail_apply x U _ _ lowTable_apply highTable_apply b c

end Cert.ReferenceIdeal.RefTailValue

end
-- ==== Proof.Finite.lean ====
/-
  What the precondition gives: every sample is a real number.

  The precondition says that every entry of the two inputs has absolute value below `+∞` — a conjunction of two
  `all`s over a comparison.  An extended real `v` with `max v (-v) < ⊤` is neither `⊤` nor `⊥`, so it is a real number.
-/
import proofs.«133008_j10806137716891_2_alg».proof.Defs
import proofs.«133008_j10806137716891_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- The word of `+∞` denotes `⊤`. -/
theorem word_inf : Ideal.ofBits .f32 0x7F800000#32 = ⊤ := by
  simp [Ideal.ofBits, Ideal.ieee]

/-- An extended real whose absolute value compares below `+∞` is a real number. -/
theorem real_of_abs_lt (v : EReal) (h : Ideal.cmp .olt (max v (-v)) ⊤ = 1#1) : ∃ r : ℝ, v = r := by
  induction v using EReal.rec with
  | bot => simp [Ideal.cmp] at h
  | coe r => exact ⟨r, rfl⟩
  | top => simp [Ideal.cmp] at h

/-- THE PRECONDITION, READ: every entry of the first input is a real number. -/
theorem samples_real [Cert.Pre_finite_inputs.Facts]
    (x : FVec Ideal Cert.Pre_finite_inputs.S2097152x4 .f32) (θ : FVec Ideal Cert.Pre_finite_inputs.S8 .f32)
    (h : Cert.Pre_finite_inputs.fn (F := Ideal) x θ = fun _ => 1#1) (i : Cert.Pre_finite_inputs.S2097152x4.Idx) :
    ∃ r : ℝ, x i = r := by
  have h0 := congrFun h ix0
  dsimp only [Cert.Pre_finite_inputs.fn] at h0
  have h1 := (IntOp.andi_eq_one.mp h0).1
  have h2 := Host.reduce_andi_all _ _ _ _ ix0 h1 i
  apply real_of_abs_lt
  rw [← word_inf]
  exact h2

end Cert.Finite

end
-- ==== Proof.lean ====
/-
  The proof of the certificate's claim.

  Both programs take samples `x` (2097152 rows of four numbers) and eight angles.  From the angles both compute, by the
  same host operations, a 16 × 16 matrix `U`.  The result at `(b, c)`, `c < 10`, is the square of the inner product of the
  sixteen amplitudes of sample `b` with row `c` of `U` (Proof/Spec.lean: the amplitudes are products of four factors, an
  entry or its complement to one by a bit of the label — sample 0 by the low-end bits over the entries, every other
  sample by the high-end bits over the squared entries, under a square root).

  The kernel program transposes the samples, runs the kernel over 64 blocks of 32768 samples and transposes the output
  back.  Its body spells a factor as `v · s + o` with two tables of `±1` and `0 / 1`, multiplies the first ten rows of
  `U` into the amplitudes, squares, and patches lane 0 of the first block with the first sample's own formula.  What the
  body leaves per case is read in Proof/KPieces.lean, one entry of it against the specification in Proof/KEntry.lean
  (the law `v · s + o` = the chosen factor, for a finite `v`: Proof/Algebra.lean), the blocks assembled into the array in
  Proof/KBlocks.lean, and the run with the transposes around it in Proof/KRun.lean.  The reference's run is
  Proof/RefRun.lean over its operations listed in order; its result after the matrix is the specification
  (Proof/RefTailValue.lean), and the two programs' matrices are one (Proof/KMatrix.lean).  Finiteness of the samples, the
  one place the precondition is used, is Proof/Finite.lean.  The ideal pass rewrote nothing, so `preserves` is `True`.
-/
import proofs.«133008_j10806137716891_2_alg».proof.Defs
import proofs.«133008_j10806137716891_2_alg».proof.Proof.Gen.Kernel
import proofs.«133008_j10806137716891_2_alg».proof.Proof.Gen.KernelIdeal
import proofs.«133008_j10806137716891_2_alg».proof.Proof.Gen.ReferenceIdeal
import proofs.«133008_j10806137716891_2_alg».proof.Proof.Gen.Pre_finite_inputs
import proofs.«133008_j10806137716891_2_alg».proof.Proof.KernelFrameP
import proofs.«133008_j10806137716891_2_alg».proof.Proof.KernelIdealFrameP
import proofs.«133008_j10806137716891_2_alg».proof.Proof.KRun
import proofs.«133008_j10806137716891_2_alg».proof.Proof.KMatrix
import proofs.«133008_j10806137716891_2_alg».proof.Proof.RefRun
import proofs.«133008_j10806137716891_2_alg».proof.Proof.RefValue
import proofs.«133008_j10806137716891_2_alg».proof.Proof.RefTailValue
import proofs.«133008_j10806137716891_2_alg».proof.Proof.Finite
import Idealize.ShloMosaic.Adequacy
import Idealize.ShloMosaic.Init

set_option maxRecDepth 200000

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference is host operations only: its run ends with every buffer at the operations' fold over the launch
    contents, and no operation writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.RefValue.arg0_eq _),
      (h c Cert.ReferenceIdeal.main_arg1).trans (Cert.ReferenceIdeal.RefValue.arg1_eq _)⟩)
    (Cert.ReferenceIdeal.RefRun.run_fold (F := Ideal) m ρ)

/-- The ideal pass rewrote no operation. -/
theorem preserves : Cert.preserves_Kernel_KernelIdeal := trivial

/-- At the ideal values both programs end with the specification of the samples and of the one matrix. -/
theorem algebraic : Cert.algebraic_KernelIdeal_ReferenceIdeal := by
  intro m ρ m' ρ' hpre hagree
  have hx : ∀ (c : Dev Cert.KernelIdeal.nD) i, ∃ r : ℝ, Cert.KernelIdeal.KValue.xs m c i = (r : EReal) :=
    fun c i => Cert.Finite.samples_real _ _ (hpre c) i
  refine ⟨fun c => Cert.Amplitude.G (Cert.KernelIdeal.KValue.xs m c) (Cert.KernelIdeal.Gen.V m c Cert.KernelIdeal.main_v208),
    Cert.KernelIdeal.KValue.run m ρ hx, ?_⟩
  refine (θ_run Cert.ReferenceIdeal.defs _ _).mono (fun _ h c => ⟨?_, ?_, ?_⟩)
    (Cert.ReferenceIdeal.RefRun.run_fold (F := Ideal) m' ρ')
  · refine (h c Cert.ReferenceIdeal.main_v309).trans ?_
    rw [Cert.ReferenceIdeal.RefValue.result_eq, Cert.ReferenceIdeal.RefTailValue.tail_eq]
    have hU := Cert.KernelIdeal.KMatrix.U_agree m c (StableHlo.launchContents m' c) (hagree c).2
    have hX : StableHlo.launchContents m' c (Cert.ReferenceIdeal.main_arg0 : DevRef Cert.ReferenceIdeal.τ Cert.ReferenceIdeal.sig)
        = Cert.KernelIdeal.KValue.xs m c := (hagree c).1
    show Cert.Amplitude.G _ (Cert.ReferenceIdeal.RefValue.Uval _) = _
    rw [hX]
    exact congrArg _ hU
  · exact (h c Cert.ReferenceIdeal.main_arg0).trans (Cert.ReferenceIdeal.RefValue.arg0_eq _)
  · exact (h c Cert.ReferenceIdeal.main_arg1).trans (Cert.ReferenceIdeal.RefValue.arg1_eq _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
